-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S160000x2 : Shape := ⟨2, ![160000, 2]⟩
abbrev S512x512 : Shape := ⟨2, ![512, 512]⟩
abbrev S512 : Shape := ⟨1, ![512]⟩
abbrev S3x512x512 : Shape := ⟨3, ![3, 512, 512]⟩
abbrev S3x512 : Shape := ⟨2, ![3, 512]⟩
abbrev S512x256 : Shape := ⟨2, ![512, 256]⟩
abbrev S256 : Shape := ⟨1, ![256]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S3x512x512 .f32) (main_arg6 : FVec F S3x512 .f32) (main_arg7 : FVec F S512x256 .f32) (main_arg8 : FVec F S256 .f32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S3x512x512 .f32 := Host.absf main_arg5
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg6
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_v33

def fn {F : FTy → Type} [FloatOps F] (main_arg0 : FVec F S20000x512 .f32) (main_arg1 : IVec S160000x2 32) (main_arg2 : FVec F S512x512 .f32) (main_arg3 : FVec F S512 .f32) (main_arg4 : FVec F S3x512x512 .f32) (main_arg5 : FVec F S3x512x512 .f32) (main_arg6 : FVec F S3x512 .f32) (main_arg7 : FVec F S512x256 .f32) (main_arg8 : FVec F S256 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S3x512x512 .f32 := Host.absf main_arg4
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg5 main_arg6 main_arg7 main_arg8 main_v13 main_v16
-- ==== Kernel.lean ====
abbrev S20000x512 : Shape := ⟨2, ![20000, 512]⟩
abbrev S160000x2 : Shape := ⟨2, ![160000, 2]⟩
abbrev S512x512 : Shape := ⟨2, ![512, 512]⟩
abbrev S512 : Shape := ⟨1, ![512]⟩
abbrev S3x512x512 : Shape := ⟨3, ![3, 512, 512]⟩
abbrev S3x512 : Shape := ⟨2, ![3, 512]⟩
abbrev S512x256 : Shape := ⟨2, ![512, 256]⟩
abbrev S256 : Shape := ⟨1, ![256]⟩
abbrev S160000x1 : Shape := ⟨2, ![160000, 1]⟩
abbrev S160000 : Shape := ⟨1, ![160000]⟩
abbrev S1000x512 : Shape := ⟨2, ![1000, 512]⟩
abbrev S1x512 : Shape := ⟨2, ![1, 512]⟩
abbrev S_ : Shape := ⟨0, ![]⟩
abbrev S20000 : Shape := ⟨1, ![20000]⟩
abbrev S20000x1 : Shape := ⟨2, ![20000, 1]⟩
abbrev S160000x512 : Shape := ⟨2, ![160000, 512]⟩
abbrev S1x512x512 : Shape := ⟨3, ![1, 512, 512]⟩
abbrev S1000x1 : Shape := ⟨2, ![1000, 1]⟩
abbrev S20000x256 : Shape := ⟨2, ![20000, 256]⟩
abbrev S1000x256 : Shape := ⟨2, ![1000, 256]⟩
abbrev S1x256 : Shape := ⟨2, ![1, 256]⟩

abbrev nBuf : Space → Nat
  | .hbm => 94
  | .vmem => 51
  | .smem => 0
  | _ => 0

abbrev bufTy : (tb : Table) → Fin (tcTables nBuf tb) → BufTy
  | .hbm, ⟨0, _⟩ => ⟨S20000x512, .f32⟩
  | .hbm, ⟨1, _⟩ => ⟨S160000x2, .i32⟩
  | .hbm, ⟨2, _⟩ => ⟨S512x512, .f32⟩
  | .hbm, ⟨3, _⟩ => ⟨S512, .f32⟩
  | .hbm, ⟨4, _⟩ => ⟨S3x512x512, .f32⟩
  | .hbm, ⟨5, _⟩ => ⟨S3x512x512, .f32⟩
  | .hbm, ⟨6, _⟩ => ⟨S3x512, .f32⟩
  | .hbm, ⟨7, _⟩ => ⟨S512x256, .f32⟩
  | .hbm, ⟨8, _⟩ => ⟨S256, .f32⟩
  | .hbm, ⟨9, _⟩ => ⟨S160000x1, .i32⟩
  | .hbm, ⟨10, _⟩ => ⟨S160000, .i32⟩
  | .hbm, ⟨11, _⟩ => ⟨S160000x1, .i32⟩
  | .hbm, ⟨12, _⟩ => ⟨S160000, .i32⟩
  | .hbm, ⟨13, _⟩ => ⟨S20000x512, .f32⟩
  | .hbm, ⟨14, _⟩ => ⟨S_, .f32⟩
  | .hbm, ⟨15, _⟩ => ⟨S160000, .f32⟩
  | .hbm, ⟨16, _⟩ => ⟨S_, .f32⟩
  | .hbm, ⟨17, _⟩ => ⟨S20000, .f32⟩
  | .hbm, ⟨18, _⟩ => ⟨S160000x1, .i32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .f32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S20000x1, .f32⟩
  | .hbm, ⟨28, _⟩ => ⟨S20000x512, .f32⟩
  | .hbm, ⟨29, _⟩ => ⟨S20000x512, .f32⟩
  | .hbm, ⟨30, _⟩ => ⟨S_, .i32⟩
  | .hbm, ⟨31, _⟩ => ⟨S160000, .i32⟩
  | .hbm, ⟨32, _⟩ => ⟨S160000, .i1⟩
  | .hbm, ⟨33, _⟩ => ⟨S_, .i32⟩
  | .hbm, ⟨34, _⟩ => ⟨S160000, .i32⟩
  | .hbm, ⟨35, _⟩ => ⟨S160000, .i32⟩
  | .hbm, ⟨36, _⟩ => ⟨S160000, .i32⟩
  | .hbm, ⟨37, _⟩ => ⟨S160000x1, .i32⟩
  | .hbm, ⟨38, _⟩ => ⟨S160000x512, .f32⟩
  | .hbm, ⟨39, _⟩ => ⟨S_, .f32⟩
  | .hbm, ⟨40, _⟩ => ⟨S20000x512, .f32⟩
  | .hbm, ⟨41, _⟩ => ⟨S160000x1, .i32⟩
  | .hbm, ⟨42, _⟩ => ⟨S20000x512, .f32⟩
  | .hbm, ⟨43, _⟩ => ⟨S1x512x512, .f32⟩
  | .hbm, ⟨44, _⟩ => ⟨S512x512, .f32⟩
  | .hbm, ⟨45, _⟩ => ⟨S1x512x512, .f32⟩
  | .hbm, ⟨46, _⟩ => ⟨S512x512, .f32⟩
  | .hbm, ⟨47, _⟩ => ⟨S1x512, .f32⟩
  | .hbm, ⟨48, _⟩ => ⟨S512, .f32⟩
  | .hbm, ⟨49, _⟩ => ⟨S20000x512, .f32⟩
  | .hbm, ⟨50, _⟩ => ⟨S20000x512, .f32⟩
  | .hbm, ⟨51, _⟩ => ⟨S_, .i32⟩
  | .hbm, ⟨52, _⟩ => ⟨S160000, .i32⟩
  | .hbm, ⟨53, _⟩ => ⟨S160000, .i1⟩
  | .hbm, ⟨54, _⟩ => ⟨S_, .i32⟩
  | .hbm, ⟨55, _⟩ => ⟨S160000, .i32⟩
  | .hbm, ⟨56, _⟩ => ⟨S160000, .i32⟩
  | .hbm, ⟨57, _⟩ => ⟨S160000, .i32⟩
  | .hbm, ⟨58, _⟩ => ⟨S160000x1, .i32⟩
  | .hbm, ⟨59, _⟩ => ⟨S160000x512, .f32⟩
  | .hbm, ⟨60, _⟩ => ⟨S_, .f32⟩
  | .hbm, ⟨61, _⟩ => ⟨S20000x512, .f32⟩
  | .hbm, ⟨62, _⟩ => ⟨S160000x1, .i32⟩
  | .hbm, ⟨63, _⟩ => ⟨S20000x512, .f32⟩
  | .hbm, ⟨64, _⟩ => ⟨S1x512x512, .f32⟩
  | .hbm, ⟨65, _⟩ => ⟨S512x512, .f32⟩
  | .hbm, ⟨66, _⟩ => ⟨S1x512x512, .f32⟩
  | .hbm, ⟨67, _⟩ => ⟨S512x512, .f32⟩
  | .hbm, ⟨68, _⟩ => ⟨S1x512, .f32⟩
  | .hbm, ⟨69, _⟩ => ⟨S512, .f32⟩
  | .hbm, ⟨70, _⟩ => ⟨S20000x512, .f32⟩
  | .hbm, ⟨71, _⟩ => ⟨S20000x512, .f32⟩
  | .hbm, ⟨72, _⟩ => ⟨S_, .i32⟩
  | .hbm, ⟨73, _⟩ => ⟨S160000, .i32⟩
  | .hbm, ⟨74, _⟩ => ⟨S160000, .i1⟩
  | .hbm, ⟨75, _⟩ => ⟨S_, .i32⟩
  | .hbm, ⟨76, _⟩ => ⟨S160000, .i32⟩
  | .hbm, ⟨77, _⟩ => ⟨S160000, .i32⟩
  | .hbm, ⟨78, _⟩ => ⟨S160000, .i32⟩
  | .hbm, ⟨79, _⟩ => ⟨S160000x1, .i32⟩
  | .hbm, ⟨80, _⟩ => ⟨S160000x512, .f32⟩
  | .hbm, ⟨81, _⟩ => ⟨S_, .f32⟩
  | .hbm, ⟨82, _⟩ => ⟨S20000x512, .f32⟩
  | .hbm, ⟨83, _⟩ => ⟨S160000x1, .i32⟩
  | .hbm, ⟨84, _⟩ => ⟨S20000x512, .f32⟩
  | .hbm, ⟨85, _⟩ => ⟨S1x512x512, .f32⟩
  | .hbm, ⟨86, _⟩ => ⟨S512x512, .f32⟩
  | .hbm, ⟨87, _⟩ => ⟨S1x512x512, .f32⟩
  | .hbm, ⟨88, _⟩ => ⟨S512x512, .f32⟩
  | .hbm, ⟨89, _⟩ => ⟨S1x512, .f32⟩
  | .hbm, ⟨90, _⟩ => ⟨S512, .f32⟩
  | .hbm, ⟨91, _⟩ => ⟨S20000x512, .f32⟩
  | .hbm, ⟨92, _⟩ => ⟨S20000x512, .f32⟩
  | .hbm, ⟨93, _⟩ => ⟨S20000x256, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x1, .f32⟩
  | .local _ .vmem, ⟨11, _⟩ => ⟨S1000x1, .f32⟩
  | .local _ .vmem, ⟨12, _⟩ => ⟨S512x512, .f32⟩
  | .local _ .vmem, ⟨13, _⟩ => ⟨S512x512, .f32⟩
  | .local _ .vmem, ⟨14, _⟩ => ⟨S512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x1, .f32⟩
  | .local _ .vmem, ⟨24, _⟩ => ⟨S1000x1, .f32⟩
  | .local _ .vmem, ⟨25, _⟩ => ⟨S512x512, .f32⟩
  | .local _ .vmem, ⟨26, _⟩ => ⟨S512x512, .f32⟩
  | .local _ .vmem, ⟨27, _⟩ => ⟨S512, .f32⟩
  | .local _ .vmem, ⟨28, _⟩ => ⟨S1000x512, .f32⟩
  | .local _ .vmem, ⟨29, _⟩ => ⟨S1000x512, .f32⟩
  | .local _ .vmem, ⟨30, _⟩ => ⟨S1000x512, .f32⟩
  | .local _ .vmem, ⟨31, _⟩ => ⟨S1000x512, .f32⟩
  | .local _ .vmem, ⟨32, _⟩ => ⟨S1000x512, .f32⟩
  | .local _ .vmem, ⟨33, _⟩ => ⟨S1000x512, .f32⟩
  | .local _ .vmem, ⟨34, _⟩ => ⟨S1000x512, .f32⟩
  | .local _ .vmem, ⟨35, _⟩ => ⟨S1000x512, .f32⟩
  | .local _ .vmem, ⟨36, _⟩ => ⟨S1000x1, .f32⟩
  | .local _ .vmem, ⟨37, _⟩ => ⟨S1000x1, .f32⟩
  | .local _ .vmem, ⟨38, _⟩ => ⟨S512x512, .f32⟩
  | .local _ .vmem, ⟨39, _⟩ => ⟨S512x512, .f32⟩
  | .local _ .vmem, ⟨40, _⟩ => ⟨S512, .f32⟩
  | .local _ .vmem, ⟨41, _⟩ => ⟨S1000x512, .f32⟩
  | .local _ .vmem, ⟨42, _⟩ => ⟨S1000x512, .f32⟩
  | .local _ .vmem, ⟨43, _⟩ => ⟨S1000x512, .f32⟩
  | .local _ .vmem, ⟨44, _⟩ => ⟨S1000x512, .f32⟩
  | .local _ .vmem, ⟨45, _⟩ => ⟨S1000x512, .f32⟩
  | .local _ .vmem, ⟨46, _⟩ => ⟨S1000x512, .f32⟩
  | .local _ .vmem, ⟨47, _⟩ => ⟨S512x256, .f32⟩
  | .local _ .vmem, ⟨48, _⟩ => ⟨S256, .f32⟩
  | .local _ .vmem, ⟨49, _⟩ => ⟨S1000x256, .f32⟩
  | .local _ .vmem, ⟨50, _⟩ => ⟨S1000x256, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50_0 : Ref sig .tc := ⟨.hbm, 70, rfl⟩
abbrev main_v50_1 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg6_1 : Ref sig .tc := ⟨.vmem, 42, rfl⟩
abbrev cc3_stg7_0 : Ref sig .tc := ⟨.vmem, 43, rfl⟩
abbrev cc3_stg7_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg3_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem6_1 : DmaSem sig := 42
abbrev cc3_sem7_0 : DmaSem sig := 43
abbrev cc3_sem7_1 : DmaSem sig := 44
abbrev cc4_sem0_0 : DmaSem sig := 45
abbrev cc4_sem0_1 : DmaSem sig := 46
abbrev cc4_sem1_0 : DmaSem sig := 47
abbrev cc4_sem2_0 : DmaSem sig := 48
abbrev cc4_sem3_0 : DmaSem sig := 49
abbrev cc4_sem3_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1000x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S160000x2_S160000x1_0_0 : S160000x2.Slices ![0, 0] S160000x1
  shapeCasts_S160000x1_S160000 : S160000x1.ShapeCasts S160000
  slices_S160000x2_S160000x1_0_1 : S160000x2.Slices ![0, 1] S160000x1
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  shapeCasts_S20000_S20000x1 : S20000.ShapeCasts S20000x1
  bcast_S20000x1_S20000x512_0_1 : S20000x1.BroadcastsInDim S20000x512 (![0, 1] : Fin 2 → Fin S20000x512.rank)
  bcast_S_S20000x512 : S_.BroadcastsInDim S20000x512 (![] : Fin 0 → Fin S20000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  shapeCasts_S512x512_S512x512 : S512x512.ShapeCasts S512x512
  shapeCasts_S512_S512 : S512.ShapeCasts S512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  dot_S1000x512_S512x512_S1000x512_1_0_0_1_n_n_wf : DotDims.WF S1000x512 S512x512 S1000x512 [1] [0] [0] [1] [] []
  scatter_S20000_S160000x1_S160000_n_0_0_1_wf : ScatterDims.WF S20000 S160000x1 S160000 [] [0] [0] 1
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S20000x512.size a
  hwx0_3 : ∀ i : grid0.Coords, EltTy.bits .f32 = 32 ∨ (Rect.block (s := S20000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S20000x512.size a
  hwx1_1 : ∀ i : grid1.Coords, EltTy.bits .f32 = 32 ∨ (Rect.block (s := S20000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S20000x1.size a
  hwx1_2 : ∀ i : grid1.Coords, EltTy.bits .f32 = 32 ∨ (Rect.block (s := S20000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S20000x512.size a
  hwx1_6 : ∀ i : grid1.Coords, EltTy.bits .f32 = 32 ∨ (Rect.block (s := S20000x512) S1000x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x512.size a ≤ S20000x512.size a
  hwx1_7 : ∀ i : grid1.Coords, EltTy.bits .f32 = 32 ∨ (Rect.block (s := S20000x512) S1000x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S20000x512.size a
  hwx2_1 : ∀ i : grid2.Coords, EltTy.bits .f32 = 32 ∨ (Rect.block (s := S20000x512) S1000x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S20000x1.size a
  hwx2_2 : ∀ i : grid2.Coords, EltTy.bits .f32 = 32 ∨ (Rect.block (s := S20000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .f32 = 32 ∨ (Rect.block (s := S512x512) S512x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512.size a ≤ S512.size a
  hwx2_5 : ∀ i : grid2.Coords, EltTy.bits .f32 = 32 ∨ (Rect.block (s := S512) S512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x512.size a ≤ S20000x512.size a
  hwx2_6 : ∀ i : grid2.Coords, EltTy.bits .f32 = 32 ∨ (Rect.block (s := S20000x512) S1000x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x512.size a ≤ S20000x512.size a
  hwx2_7 : ∀ i : grid2.Coords, EltTy.bits .f32 = 32 ∨ (Rect.block (s := S20000x512) S1000x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S20000x512.size a
  hwx3_0 : ∀ i : grid3.Coords, EltTy.bits .f32 = 32 ∨ (Rect.block (s := S20000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x512.size a ≤ S20000x512.size a
  hwx3_1 : ∀ i : grid3.Coords, EltTy.bits .f32 = 32 ∨ (Rect.block (s := S20000x512) S1000x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S20000x1.size a
  hwx3_2 : ∀ i : grid3.Coords, EltTy.bits .f32 = 32 ∨ (Rect.block (s := S20000x1) S1000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S512x512.size a
  hwx3_4 : ∀ i : grid3.Coords, EltTy.bits .f32 = 32 ∨ (Rect.block (s := S512x512) S512x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512.size a ≤ S512.size a
  hwx3_5 : ∀ i : grid3.Coords, EltTy.bits .f32 = 32 ∨ (Rect.block (s := S512) S512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x512.size a ≤ S20000x512.size a
  hwx3_6 : ∀ i : grid3.Coords, EltTy.bits .f32 = 32 ∨ (Rect.block (s := S20000x512) S1000x512.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x512.size a ≤ S20000x512.size a
  hwx3_7 : ∀ i : grid3.Coords, EltTy.bits .f32 = 32 ∨ (Rect.block (s := S20000x512) S1000x512.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S20000x512.size a
  hwx4_0 : ∀ i : grid4.Coords, EltTy.bits .f32 = 32 ∨ (Rect.block (s := S20000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S20000x256.size a
  hwx4_3 : ∀ i : grid4.Coords, EltTy.bits .f32 = 32 ∨ (Rect.block (s := S20000x256) S1000x256.size (cc4_transform_3 i) (hinb4_3 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33_0) S1000x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v33_1) S1000x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v33_0) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50_0) S1000x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v50_1) S1000x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50_0) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S512x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67_0) S1000x512.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v67_1) S1000x512.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v67_0) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S1000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S20000x512 : Shape := ⟨2, ![20000, 512]⟩
abbrev S160000x2 : Shape := ⟨2, ![160000, 2]⟩
abbrev S512x512 : Shape := ⟨2, ![512, 512]⟩
abbrev S512 : Shape := ⟨1, ![512]⟩
abbrev S3x512x512 : Shape := ⟨3, ![3, 512, 512]⟩
abbrev S3x512 : Shape := ⟨2, ![3, 512]⟩
abbrev S512x256 : Shape := ⟨2, ![512, 256]⟩
abbrev S256 : Shape := ⟨1, ![256]⟩
abbrev S160000x1 : Shape := ⟨2, ![160000, 1]⟩
abbrev S160000 : Shape := ⟨1, ![160000]⟩
abbrev S1x512 : Shape := ⟨2, ![1, 512]⟩
abbrev S_ : Shape := ⟨0, ![]⟩
abbrev S20000 : Shape := ⟨1, ![20000]⟩
abbrev S160000x512 : Shape := ⟨2, ![160000, 512]⟩
abbrev S1x512x512 : Shape := ⟨3, ![1, 512, 512]⟩
abbrev S20000x256 : Shape := ⟨2, ![20000, 256]⟩
abbrev S1x256 : Shape := ⟨2, ![1, 256]⟩

abbrev nBuf : Space → Nat
  | .hbm => 147
  | .vmem => 0
  | .smem => 0
  | _ => 0

abbrev hbmTy0_0 (i : Nat) : BufTy := match i % 128 with
  | 0 => ⟨S20000x512, .f32⟩
  | 1 => ⟨S160000x2, .i32⟩
  | 2 => ⟨S512x512, .f32⟩
  | 3 => ⟨S512, .f32⟩
  | 4 => ⟨S3x512x512, .f32⟩
  | 5 => ⟨S3x512x512, .f32⟩
  | 6 => ⟨S3x512, .f32⟩
  | 7 => ⟨S512x256, .f32⟩
  | 8 => ⟨S256, .f32⟩
  | 9 => ⟨S160000x1, .i32⟩
  | 10 => ⟨S160000, .i32⟩
  | 11 => ⟨S160000x1, .i32⟩
  | 12 => ⟨S160000, .i32⟩
  | 13 => ⟨S20000x512, .f32⟩
  | 14 => ⟨S1x512, .f32⟩
  | 15 => ⟨S20000x512, .f32⟩
  | 16 => ⟨S20000x512, .f32⟩
  | 17 => ⟨S_, .f32⟩
  | 18 => ⟨S160000, .f32⟩
  | 19 => ⟨S_, .f32⟩
  | 20 => ⟨S20000, .f32⟩
  | 21 => ⟨S160000x1, .i32⟩
  | 22 => ⟨S20000, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S160000, .f32⟩
  | 32 => ⟨S_, .f32⟩
  | 33 => ⟨S160000, .f32⟩
  | 34 => ⟨S160000, .f32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S160000, .f32⟩
  | 44 => ⟨S_, .f32⟩
  | 45 => ⟨S160000, .f32⟩
  | 46 => ⟨S160000, .f32⟩
  | 47 => ⟨S160000, .f32⟩
  | 48 => ⟨S160000, .f32⟩
  | 49 => ⟨S_, .f32⟩
  | 50 => ⟨S160000, .f32⟩
  | 51 => ⟨S160000, .f32⟩
  | 52 => ⟨S160000x1, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x512, .f32⟩
  | 62 => ⟨S160000x512, .f32⟩
  | 63 => ⟨S160000x512, .f32⟩
  | 64 => ⟨S_, .f32⟩
  | 65 => ⟨S20000x512, .f32⟩
  | 66 => ⟨S160000x1, .i32⟩
  | 67 => ⟨S20000x512, .f32⟩
  | 68 => ⟨S1x512x512, .f32⟩
  | 69 => ⟨S512x512, .f32⟩
  | 70 => ⟨S20000x512, .f32⟩
  | 71 => ⟨S1x512x512, .f32⟩
  | 72 => ⟨S512x512, .f32⟩
  | 73 => ⟨S20000x512, .f32⟩
  | 74 => ⟨S20000x512, .f32⟩
  | 75 => ⟨S1x512, .f32⟩
  | 76 => ⟨S512, .f32⟩
  | 77 => ⟨S1x512, .f32⟩
  | 78 => ⟨S20000x512, .f32⟩
  | 79 => ⟨S20000x512, .f32⟩
  | 80 => ⟨S_, .f32⟩
  | 81 => ⟨S20000x512, .f32⟩
  | 82 => ⟨S20000x512, .f32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S160000x512, .f32⟩
  | 92 => ⟨S160000x512, .f32⟩
  | 93 => ⟨S160000x512, .f32⟩
  | 94 => ⟨S_, .f32⟩
  | 95 => ⟨S20000x512, .f32⟩
  | 96 => ⟨S160000x1, .i32⟩
  | 97 => ⟨S20000x512, .f32⟩
  | 98 => ⟨S1x512x512, .f32⟩
  | 99 => ⟨S512x512, .f32⟩
  | 100 => ⟨S20000x512, .f32⟩
  | 101 => ⟨S1x512x512, .f32⟩
  | 102 => ⟨S512x512, .f32⟩
  | 103 => ⟨S20000x512, .f32⟩
  | 104 => ⟨S20000x512, .f32⟩
  | 105 => ⟨S1x512, .f32⟩
  | 106 => ⟨S512, .f32⟩
  | 107 => ⟨S1x512, .f32⟩
  | 108 => ⟨S20000x512, .f32⟩
  | 109 => ⟨S20000x512, .f32⟩
  | 110 => ⟨S_, .f32⟩
  | 111 => ⟨S20000x512, .f32⟩
  | 112 => ⟨S20000x512, .f32⟩
  | 113 => ⟨S_, .i32⟩
  | 114 => ⟨S160000, .i32⟩
  | 115 => ⟨S160000, .i1⟩
  | 116 => ⟨S_, .i32⟩
  | 117 => ⟨S160000, .i32⟩
  | 118 => ⟨S160000, .i32⟩
  | 119 => ⟨S160000, .i32⟩
  | 120 => ⟨S160000x1, .i32⟩
  | 121 => ⟨S160000x512, .f32⟩
  | 122 => ⟨S160000x512, .f32⟩
  | 123 => ⟨S160000x512, .f32⟩
  | 124 => ⟨S_, .f32⟩
  | 125 => ⟨S20000x512, .f32⟩
  | 126 => ⟨S160000x1, .i32⟩
  | 127 => ⟨S20000x512, .f32⟩
  | _ => ⟨S20000x512, .f32⟩

abbrev hbmTy0_1 (i : Nat) : BufTy := match i % 128 with
  | 0 => ⟨S1x512x512, .f32⟩
  | 1 => ⟨S512x512, .f32⟩
  | 2 => ⟨S20000x512, .f32⟩
  | 3 => ⟨S1x512x512, .f32⟩
  | 4 => ⟨S512x512, .f32⟩
  | 5 => ⟨S20000x512, .f32⟩
  | 6 => ⟨S20000x512, .f32⟩
  | 7 => ⟨S1x512, .f32⟩
  | 8 => ⟨S512, .f32⟩
  | 9 => ⟨S1x512, .f32⟩
  | 10 => ⟨S20000x512, .f32⟩
  | 11 => ⟨S20000x512, .f32⟩
  | 12 => ⟨S_, .f32⟩
  | 13 => ⟨S20000x512, .f32⟩
  | 14 => ⟨S20000x512, .f32⟩
  | 15 => ⟨S20000x256, .f32⟩
  | 16 => ⟨S1x256, .f32⟩
  | 17 => ⟨S20000x256, .f32⟩
  | 18 => ⟨S20000x256, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call0_cst : Ref sig .tc := ⟨.hbm, 80, rfl⟩
abbrev main_call0_v0 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_call1_cst : Ref sig .tc := ⟨.hbm, 110, rfl⟩
abbrev main_call1_v0 : Ref sig .tc := ⟨.hbm, 111, rfl⟩
abbrev main_v84 : Ref sig .tc := ⟨.hbm, 112, rfl⟩
abbrev main_c_13 : Ref sig .tc := ⟨.hbm, 113, rfl⟩
abbrev main_v85 : Ref sig .tc := ⟨.hbm, 114, rfl⟩
abbrev main_v86 : Ref sig .tc := ⟨.hbm, 115, rfl⟩
abbrev main_c_14 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_call2_cst : Ref sig .tc := ⟨.hbm, 140, rfl⟩
abbrev main_call2_v0 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩

abbrev nD : Nat := 1
abbrev τ : Topo := Topo.v7x

variable {F : FTy → Type} [FloatOps F]

class Facts₀ : Prop where
  slices_S160000x2_S160000x1_0_0 : S160000x2.Slices ![0, 0] S160000x1
  shapeCasts_S160000x1_S160000 : S160000x1.ShapeCasts S160000
  slices_S160000x2_S160000x1_0_1 : S160000x2.Slices ![0, 1] S160000x1
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S20000x512 : S_.BroadcastsInDim S20000x512 (![] : Fin 0 → Fin S20000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  dot_S20000x512_S512x512_S20000x512_1_0_0_1_n_n_wf : DotDims.WF S20000x512 S512x512 S20000x512 [1] [0] [0] [1] [] []
  scatter_S20000_S160000x1_S160000_n_0_0_1_wf : ScatterDims.WF S20000 S160000x1 S160000 [] [0] [0] 1
  gather_S20000_S160000x1_S160000_n_0_n_n_0_1_1_wf : GatherDims.WF S20000 S160000x1 S160000 [] [0] [] [0] [] 1 ![1]
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x256_S20000x256_1_0_0_1_n_n_wf : DotDims.WF S20000x512 S512x256 S20000x256 [1] [0] [0] [1] [] []

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def gather_S20000_S160000x1_S160000_n_0_n_n_0_1_1 : GatherDims S20000 S160000x1 S160000 where
  offsetDims := []
  collapsedSliceDims := [0]
  operandBatchingDims := []
  startIndicesBatchingDims := []
  startIndexMap := [0]
  indexVectorDim := 1
  sliceSizes := ![1]
  wf := gather_S20000_S160000x1_S160000_n_0_n_n_0_1_1_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf

class Facts : Prop extends Facts₀ where

variable [Facts]
-- ==== Proof.KernelRun.lean ====
/-
  The idealized kernel program's run with its RESULT named.

  The program is five kernel regions among stretches of host operations.  The contents of every buffer at each
  boundary are a fold through the program from the launch memory (`W0 … W9`): a host stretch applies its operations,
  a region leaves its output arrays at what its grid points write back and everything else as entered.  Every weakly
  fair execution terminates without a fault in a state whose unscoped buffers hold the last boundary's contents `W9`;
  read at the result buffer that is the statement below, and read at the argument buffers it is that they end as
  launched.  What `W9` holds at the result buffer, as a function of the arguments, is the subject of the next modules.
-/
import proofs.«141197_j52450140618855_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run_out : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Out

end
-- ==== Proof.LibEdgeRows.lean ====
/-
  GATHERS OF ROWS AND OF ENTRIES BY A COLUMN OF INDICES, AND WHERE A ROW SCATTER LANDS.

  Three host shape operations with a column `[E, 1]` of integer indices, each read at one index:
  * a gather of ROWS of a table `[N, C]` (`rowGather`): row `e` of the result is the table's row at the `e`-th index
    word, read signed and clamped into `[0, N − 1]`; the column is kept (`rowGather_apply`);
  * a gather of ENTRIES of a vector `[N]` (`entryGather`): entry `e` of the result is the vector's entry at the `e`-th
    index word, read signed and clamped into `[0, N − 1]` (`entryGather_apply`);
  * a scatter of the ROWS of updates `[E, C]` into a table `[N, C]` (`rowScatter`): an update entry `(e, q)` that lands
    at table entry `i` has the `e`-th index word, read signed, equal to `i`'s row, and keeps its column
    (`rowScatter_lands`); so the clamped index of the matching gather is `i`'s row as well (`rowScatter_lands_clamp`).
  The dimension numbers are structure literals over the sizes with the well-formedness proof a parameter, so a
  program's record with the same lists equals them by `rfl`.
  Last, two facts about how such a column of indices is prepared: the wrap of a negative index (add `m` where the
  index is below zero) leaves an index that is nonnegative read signed as it is (`wrap_apply_of_nonneg`), and a vector
  `[E]` broadcast to the column `[E, 1]` reads the vector's entry `e` at row `e` (`column_apply`).
-/
import Idealize.ShloMosaic.Lib.ValueIdx

namespace Cert.Lib.EdgeRows

open Idealize.ShloMosaic Idealize.ShloMosaic.ValueIdx

/-! ## A gather of rows -/

section RowGather
variable {α : Type}

/-- The dimension numbers of a gather of rows: operand `[N, C]`, start indices `[E, 1]`, result `[E, C]`; axis 0 of
    the operand is indexed and collapsed, axis 1 is taken whole as the result's axis 1. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, q)`: the operand at the row named by the `e`-th index word, read signed and clamped
    into `[0, N − 1]`, and at column `q`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q)
      = x (ix2 ⟨min (idx (ix2 e (0 : Fin 1))).toInt.toNat (N - 1), by omega⟩ q) := by
  unfold Host.gather
  congr 1
  funext a
  refine Fin.ext ?_
  match a with
  | ⟨0, h0⟩ =>
    show (rowGather N E C wf).start (ix2 e q) idx ⟨0, h0⟩ + (rowGather N E C wf).batchCoord (ix2 e q) ⟨0, h0⟩
      + (rowGather N E C wf).offCoord (ix2 e q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N E C wf).startIndexMap from List.mem_singleton.mpr rfl)]
    have hsi : (rowGather N E C wf).siIdx (ix2 e q) ⟨List.idxOf (⟨0, h0⟩ : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show (rowGather N E C wf).start (ix2 e q) idx ⟨1, h1⟩ + (rowGather N E C wf).batchCoord (ix2 e q) ⟨1, h1⟩
      + (rowGather N E C wf).offCoord (ix2 e q) ⟨1, h1⟩ = q.val
    rw [GatherDims.batchCoord_eq_zero _ _ _ List.not_mem_nil]
    have hs : (rowGather N E C wf).start (ix2 e q) idx ⟨1, h1⟩ = 0 := by
      unfold GatherDims.start
      rw [dif_neg (fun h => Nat.one_ne_zero (congrArg Fin.val (List.mem_singleton.mp h)))]
    rw [hs]
    simp only [Nat.add_zero, Nat.zero_add]
    rfl

end RowGather

/-! ## A gather of entries -/

section EntryGather
variable {α : Type}

/-- The dimension numbers of a gather of entries: operand `[N]`, start indices `[E, 1]`, result `[E]`; the operand's
    one axis is indexed and collapsed. -/
abbrev entryGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries read at `e`: the operand at the `e`-th index word, read signed and clamped into
    `[0, N − 1]`. -/
theorem entryGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryGather N E wf).start (ix1 e) idx 0 + (entryGather N E wf).batchCoord (ix1 e) 0
    + (entryGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx (ix1 e) ⟨List.idxOf (0 : Fin 1) (entryGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EntryGather

/-! ## A scatter of rows -/

section RowScatter

/-- The dimension numbers of a scatter of rows: operand `[N, C]`, scatter indices `[E, 1]`, updates `[E, C]`; the
    index names the operand's axis 0, which the update window does not have, and the updates' axis 1 is the window
    over the operand's axis 1. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window starts at the `e`-th index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h0 : 0 < 2) :
    (rowScatter N E C wf).start (ix2 e q) idx ⟨0, h0⟩ = (idx (ix2 e (0 : Fin 1))).toInt := by
  unfold ScatterDims.start
  rw [dif_pos (show (⟨0, h0⟩ : Fin 2) ∈ (rowScatter N E C wf).scatterDimsToOperandDims from List.mem_singleton.mpr rfl)]
  have hsi : (rowScatter N E C wf).siIdx (ix2 e q)
      ⟨List.idxOf (⟨0, h0⟩ : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1 the window starts at 0. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h1 : 1 < 2) :
    (rowScatter N E C wf).start (ix2 e q) idx ⟨1, h1⟩ = 0 := by
  unfold ScatterDims.start
  rw [dif_neg (fun h => Nat.one_ne_zero (congrArg Fin.val (List.mem_singleton.mp h)))]

/-- The operand's axis 0 has no window coordinate. -/
theorem rowScatter_window_zero {N E C : Nat}
    (wf : ScatterDims.WF ⟨2, ![N, C]⟩ ⟨2, ![E, 1]⟩ ⟨2, ![E, C]⟩ [1] [0] [0] 1)
    (e : Fin E) (q : Fin C) (h0 : 0 < 2) :
    (rowScatter N E C wf).window (ix2 e q) ⟨0, h0⟩ = 0 := by
  have hn : (⟨0, h0⟩ : Fin 2) ∉ (rowScatter N E C wf).sKept :=
    fun h => of_decide_eq_true (List.mem_filter.1 h).2 (List.mem_singleton.mpr rfl)
  unfold ScatterDims.window
  rw [dif_neg hn]

/-- On the operand's axis 1 the window coordinate is the update's column. -/
theorem rowScatter_window_one {N E C : Nat}
    (wf : ScatterDims.WF ⟨2, ![N, C]⟩ ⟨2, ![E, 1]⟩ ⟨2, ![E, C]⟩ [1] [0] [0] 1)
    (e : Fin E) (q : Fin C) (h1 : 1 < 2) :
    (rowScatter N E C wf).window (ix2 e q) ⟨1, h1⟩ = q.val := by
  have hm : (⟨1, h1⟩ : Fin 2) ∈ (rowScatter N E C wf).sKept :=
    List.mem_filter.2 ⟨List.mem_finRange _,
      decide_eq_true (fun h => Nat.one_ne_zero (congrArg Fin.val (List.mem_singleton.mp h)))⟩
  unfold ScatterDims.window
  rw [dif_pos hm]
  rfl

/-- An update entry `(e, q)` that lands at operand entry `i` has the `e`-th index word, read signed, equal to `i`'s
    row, and keeps its column. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    (idx (ix2 e (0 : Fin 1))).toInt = ((i 0).val : Int) ∧ (i 1).val = q.val := by
  unfold ScatterDims.resultIdx? at h
  split at h
  · rename_i hb
    have hi := Option.some.inj h
    subst hi
    have h02 : 0 < 2 := Nat.zero_lt_two
    have h12 : 1 < 2 := Nat.one_lt_two
    constructor
    · have hb0 := (hb ⟨0, h02⟩).1
      show _ = (((rowScatter N E C wf).start (ix2 e q) idx ⟨0, h02⟩
        + ((rowScatter N E C wf).window (ix2 e q) ⟨0, h02⟩ : Nat) : Int).toNat : Int)
      rw [rowScatter_start_zero, rowScatter_window_zero] at hb0 ⊢
      omega
    · show ((rowScatter N E C wf).start (ix2 e q) idx ⟨1, h12⟩
        + ((rowScatter N E C wf).window (ix2 e q) ⟨1, h12⟩ : Nat) : Int).toNat = q.val
      rw [rowScatter_start_one, rowScatter_window_one]
      omega
  · exact absurd h (by simp)

/-- So the index word of a landing update, read signed and clamped into `[0, N − 1]` as the matching gather of rows
    reads it, is the row it lands at. -/
theorem rowScatter_lands_clamp {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    min (idx (ix2 e (0 : Fin 1))).toInt.toNat (N - 1) = (i 0).val := by
  have h0 := (rowScatter_lands wf idx e q i h).1
  have hlt : (i 0).val < N := idx2_lt0 i
  rw [h0]
  omega

end RowScatter

/-! ## The wrap of a negative index, at a nonnegative index; a vector of indices as a column -/

section Wrap

/-- A word that is nonnegative when read signed is not signed-less-than zero: the comparison's bit is `0`. -/
theorem cmpi_slt_zero_of_nonneg {w : Nat} (x : BitVec w) (h : 0 ≤ x.toInt) : IntOp.cmpi .slt x 0#w = 0#1 := by
  have hs : x.slt 0#w = false := by
    simp only [BitVec.slt, BitVec.toInt_zero, decide_eq_false_iff_not, not_lt]
    exact h
  show BitVec.ofBool (x.slt 0#w) = 0#1
  rw [hs]
  rfl

/-- The normalisation of a possibly negative index — where the index is signed-less-than a splat `0`, the index plus a
    splat `m`, elsewhere the index — is the index itself wherever the index is nonnegative read signed. -/
theorem wrap_apply_of_nonneg {s0 s : Shape} {w : Nat} (dims : Fin s0.rank → Fin s.rank) (hb : s0.BroadcastsInDim s dims)
    (m : BitVec w) (a : IVec s w) (k : s.Idx) (h : 0 ≤ (a k).toInt) :
    select (cmpi .slt a (broadcastInDim s dims hb (constantI s0 w 0#w)))
      (addi a (broadcastInDim s dims hb (constantI s0 w m))) a k = a k := by
  have hc : cmpi .slt a (broadcastInDim s dims hb (constantI s0 w 0#w)) k = 0#1 :=
    cmpi_slt_zero_of_nonneg (a k) h
  rw [select_apply, hc, select_zero]

/-- A vector `[E]` broadcast to the column `[E, 1]` along axis 0 reads, at row `e`, the vector's entry `e`. -/
theorem column_apply {α : Type} {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) := by
  unfold broadcastInDim
  congr 1
  funext a
  obtain rfl : a = 0 := Subsingleton.elim _ _
  refine Fin.ext ?_
  split
  · rename_i h1
    have hE : E = 1 := h1
    have := e.isLt
    show 0 = e.val
    omega
  · rfl

end Wrap

end Cert.Lib.EdgeRows
-- ==== Proof.LibScatterAddRead.lean ====
/-
  An accumulating scatter read at a position, at the ideal values.

  A host scatter whose body adds (a segment sum, `x.at[idx].add(u)`) leaves at each position of the operand the
  operand's entry plus the sum of the updates that land there.  Written with the landing test inside the sum — every
  update contributes itself where it lands on the position and zero elsewhere — the sum runs over ALL updates, so it
  can be re-indexed by any bijection of the updates and compared summand by summand.

  The statement is over arbitrary shapes, element formats and index widths.  Use it by `rw` on a scatter over
  variables or over a program's operands, and compare summands with `if_congr`; do not restate the sum at literal
  shapes of millions of entries, and do not unfold the scatter there.
-/
import Idealize.ShloMosaic.PureOps
import Idealize.ShloMosaic.PureOps.Ideal

noncomputable section

namespace Cert.Lib.ScatterAddRead

open Idealize.ShloMosaic

/-- An accumulating scatter at a position: the operand there plus every update, counted where it lands there. -/
theorem scatterAdd_at {s si u : Shape} {φ : FTy} {w : Nat} (d : ScatterDims s si u) (v : FVec Ideal s φ)
    (idx : IVec si w) (upd : FVec Ideal u φ) (p : s.Idx) :
    Host.scatterAdd (F := Ideal) d v idx upd p
      = v p + ∑ j, if d.resultIdx? j idx = some p then upd j else 0 := by
  unfold Host.scatterAdd
  rw [Ideal.hostScatterAdd_def]
  unfold Ideal.hostScatterAdd
  rw [Finset.sum_filter]

end Cert.Lib.ScatterAddRead

end
-- ==== Proof.LibEntryScatter.lean ====
/-
  A SCATTER OF ENTRIES INTO A VECTOR BY A COLUMN OF INDICES: WHERE AN UPDATE LANDS, AND THE ACCUMULATED VALUE AT A NODE.

  A host scatter of updates `[E]` into a vector `[N]` by a column `[E, 1]` of integer index words (`entryScatter`):
  the index names the vector's one axis, which the update window does not have.
  * the window of update `e` starts at the `e`-th index word read signed (`entryScatter_start`) and has no window
    coordinate (`entryScatter_window`);
  * update `e` lands at entry `i` IF AND ONLY IF the `e`-th index word, read signed, equals `i`
    (`entryScatter_lands_iff`); a word outside `[0, N − 1]` lands nowhere;
  * hence the accumulating scatter read at entry `i` is the operand there plus the sum, over ALL updates `e : Fin E`, of
    the update where its word reads `i` and zero elsewhere (`entryScatterAdd_at`).
  The dimension numbers are a structure literal over the sizes with the well-formedness proof a parameter, so a program's
  record with the same lists equals it by `rfl`.
  Beside these: a rank-1 index set is its one coordinate range (`idxEquiv1` / `sum_idx1`); a sum over `Fin n` with
  `n = m + d` is the sum of its first `m` terms plus the sum of its last `d`, the positions written as naturals
  (`sum_fin_split`); and the word of a natural below half the word range reads signed as that natural
  (`toInt_ofNat_of_lt`).
-/
import Idealize.ShloMosaic.Lib.ValueIdx
import proofs.«141197_j52450140618855_2_alg».proof.Proof.LibScatterAddRead

noncomputable section

open scoped BigOperators

namespace Cert.Lib.EntryScatter

open Idealize.ShloMosaic Idealize.ShloMosaic.ValueIdx

/-! ## A rank-1 index set -/

/-- A rank-1 index set is its one coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- A sum over `Fin n`, `n = m + d`, is the sum over the first `m` positions plus the sum over the last `d`. -/
theorem sum_fin_split {M : Type*} [AddCommMonoid M] (m d n : Nat) (h : m + d = n) (f : Fin n → M) :
    ∑ i, f i = (∑ i : Fin m, f ⟨i.val, by omega⟩) + ∑ k : Fin d, f ⟨m + k.val, by omega⟩ := by
  subst h
  exact Fin.sum_univ_add f

/-! ## A small natural as a word, read signed -/

/-- The word of a natural below half the word range reads signed as that natural. -/
theorem toInt_ofNat_of_lt {w k : Nat} (h : 2 * k < 2 ^ w) : (BitVec.ofNat w k).toInt = (k : Int) := by
  have hk : k < 2 ^ w := by omega
  rw [BitVec.toInt_eq_toNat_cond, BitVec.toNat_ofNat, Nat.mod_eq_of_lt hk, if_pos h]

/-! ## A scatter of entries -/

/-- The dimension numbers of a scatter of entries: operand `[N]`, scatter indices `[E, 1]`, updates `[E]`; the index
    names the operand's one axis, which the update window does not have. -/
abbrev entryScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the `e`-th index word, read signed. -/
theorem entryScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (entryScatter N E wf).start (ix1 e) idx (0 : Fin 1) = (idx (ix2 e (0 : Fin 1))).toInt := by
  unfold ScatterDims.start
  rw [dif_pos (show (0 : Fin 1) ∈ (entryScatter N E wf).scatterDimsToOperandDims from List.mem_singleton.mpr rfl)]
  have hsi : (entryScatter N E wf).siIdx (ix1 e)
      ⟨List.idxOf (0 : Fin 1) (entryScatter N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis has no window coordinate. -/
theorem entryScatter_window {N E : Nat}
    (wf : ScatterDims.WF ⟨1, ![N]⟩ ⟨2, ![E, 1]⟩ ⟨1, ![E]⟩ [] [0] [0] 1) (e : Fin E) :
    (entryScatter N E wf).window (ix1 e) (0 : Fin 1) = 0 := by
  have hn : (0 : Fin 1) ∉ (entryScatter N E wf).sKept :=
    fun h => of_decide_eq_true (List.mem_filter.1 h).2 (List.mem_singleton.mpr rfl)
  unfold ScatterDims.window
  rw [dif_neg hn]

/-- Update `e` lands at entry `i` exactly when the `e`-th index word, read signed, equals `i`. -/
theorem entryScatter_lands_iff {N E w : Nat}
    (wf : ScatterDims.WF ⟨1, ![N]⟩ ⟨2, ![E, 1]⟩ ⟨1, ![E]⟩ [] [0] [0] 1)
    (idx : IVec ⟨2, ![E, 1]⟩ w) (e : Fin E) (i : Fin N) :
    (entryScatter N E wf).resultIdx? (ix1 e) idx = some (ix1 i)
      ↔ (idx (ix2 e (0 : Fin 1))).toInt = (i.val : Int) := by
  constructor
  · intro h
    unfold ScatterDims.resultIdx? at h
    split at h
    · rename_i hb
      have hi := congrFun (Option.some.inj h) (0 : Fin 1)
      have hv : ((entryScatter N E wf).start (ix1 e) idx (0 : Fin 1)
          + ((entryScatter N E wf).window (ix1 e) (0 : Fin 1) : Nat) : Int).toNat = i.val := congrArg Fin.val hi
      have hb0 := (hb (0 : Fin 1)).1
      rw [entryScatter_start, entryScatter_window] at hv hb0
      omega
    · exact absurd h (by simp)
  · intro h
    have hall : ∀ a : Fin 1, 0 ≤ (entryScatter N E wf).start (ix1 e) idx a + ((entryScatter N E wf).window (ix1 e) a : Nat)
        ∧ (entryScatter N E wf).start (ix1 e) idx a + ((entryScatter N E wf).window (ix1 e) a : Nat)
          < ((⟨1, ![N]⟩ : Shape).size a : Nat) := by
      intro a
      obtain rfl : a = 0 := Subsingleton.elim _ _
      rw [entryScatter_start, entryScatter_window, h]
      have hlt : i.val < N := i.isLt
      refine ⟨by omega, ?_⟩
      show ((i.val : Int) + ((0 : Nat) : Int)) < (N : Int)
      omega
    unfold ScatterDims.resultIdx?
    rw [dif_pos hall]
    congr 1
    funext a
    obtain rfl : a = 0 := Subsingleton.elim _ _
    refine Fin.ext ?_
    show ((entryScatter N E wf).start (ix1 e) idx (0 : Fin 1)
      + ((entryScatter N E wf).window (ix1 e) (0 : Fin 1) : Nat) : Int).toNat = i.val
    rw [entryScatter_start, entryScatter_window, h]
    omega

/-- The accumulating scatter of entries read at entry `i`: the operand there plus every update whose index word reads
    `i`, the sum running over all updates. -/
theorem entryScatterAdd_at {N E w : Nat} {φ : FTy}
    (wf : ScatterDims.WF ⟨1, ![N]⟩ ⟨2, ![E, 1]⟩ ⟨1, ![E]⟩ [] [0] [0] 1)
    (v : FVec Ideal ⟨1, ![N]⟩ φ) (idx : IVec ⟨2, ![E, 1]⟩ w) (upd : FVec Ideal ⟨1, ![E]⟩ φ) (i : Fin N) :
    Host.scatterAdd (F := Ideal) (entryScatter N E wf) v idx upd (ix1 i)
      = v (ix1 i) + ∑ e : Fin E, if (idx (ix2 e (0 : Fin 1))).toInt = (i.val : Int) then upd (ix1 e) else 0 := by
  rw [Cert.Lib.ScatterAddRead.scatterAdd_at, sum_idx1]
  congr 1
  exact Finset.sum_congr rfl fun e _ => if_congr (entryScatter_lands_iff wf idx e i) rfl rfl

end Cert.Lib.EntryScatter

end
-- ==== Proof.Spec.lean ====
/-
  Message passing on a graph with the symmetric degree normalisation, written as operations on whole arrays.

  N nodes with C features each, E directed edges given by a vector of source words and a vector of destination words
  (32-bit, read signed).  The in-degree of a node is the number of edges whose destination word reads as that node;
  the node's scale is 1 / sqrt (degree + 1).  One round of aggregation sends, along every edge, the source node's
  feature row to the destination node and sums what arrives.  It can be normalised in two ways:

  * per node: scale every row by its node's scale before it is sent, and scale every sum by the receiving node's
    scale afterwards (`sumInto` of `gatherRows` of the scaled table, times `normAcross`);
  * per edge: multiply the row travelling along an edge by 1 / sqrt ((deg dst + 1) · (deg src + 1)) of that edge
    (`edgeNormAcross`), and sum.

  The two agree entry by entry on the extended reals (module AggLaw).  Around the aggregation stand two dense steps:
  `lin` (a matrix product plus a bias row) and `comb` (two matrix products, a bias row, and the maximum with 0).
  Every side condition of a layout operation is a fact about the shapes alone; `Wit` collects them.
-/
import Idealize.ShloMosaic.PureOps
import Idealize.ShloMosaic.PureOps.Ideal
import Idealize.ShloMosaic.Lib.ValueIdx
import proofs.«141197_j52450140618855_2_alg».proof.Proof.LibEdgeRows
import proofs.«141197_j52450140618855_2_alg».proof.Proof.LibEntryScatter

noncomputable section

namespace Cert.Gnn

open Idealize.ShloMosaic Idealize.ShloMosaic.ValueIdx Cert.Lib.EdgeRows Cert.Lib.EntryScatter

/-- The side conditions of the layout operations and the index operations used below: facts about the shapes. -/
structure Wit (N E C : ℕ) : Prop where
  zN : (⟨0, ![]⟩ : Shape).BroadcastsInDim ⟨1, ![N]⟩ ![]
  zE : (⟨0, ![]⟩ : Shape).BroadcastsInDim ⟨1, ![E]⟩ ![]
  zNC : (⟨0, ![]⟩ : Shape).BroadcastsInDim ⟨2, ![N, C]⟩ ![]
  col : (⟨1, ![E]⟩ : Shape).BroadcastsInDim ⟨2, ![E, 1]⟩ ![0]
  stand : (⟨1, ![N]⟩ : Shape).ShapeCasts ⟨2, ![N, 1]⟩
  acrossN : (⟨2, ![N, 1]⟩ : Shape).BroadcastsInDim ⟨2, ![N, C]⟩ ![0, 1]
  acrossE : (⟨2, ![E, 1]⟩ : Shape).BroadcastsInDim ⟨2, ![E, C]⟩ ![0, 1]
  sEntry : ScatterDims.WF ⟨1, ![N]⟩ ⟨2, ![E, 1]⟩ ⟨1, ![E]⟩ [] [0] [0] 1
  gEntry : GatherDims.WF ⟨1, ![N]⟩ ⟨2, ![E, 1]⟩ ⟨1, ![E]⟩ [] [0] [] [0] [] 1 ![1]
  sRow : ScatterDims.WF ⟨2, ![N, C]⟩ ⟨2, ![E, 1]⟩ ⟨2, ![E, C]⟩ [1] [0] [0] 1
  gRow : GatherDims.WF ⟨2, ![N, C]⟩ ⟨2, ![E, 1]⟩ ⟨2, ![E, C]⟩ [1] [0] [] [0] [] 1 ![1, C]

/-- The array of shape `s` all of whose entries are 1. -/
def ones (s : Shape) (h : (⟨0, ![]⟩ : Shape).BroadcastsInDim s ![]) : FVec Ideal s .f32 :=
  broadcastInDim s ![] h (constant (F := Ideal) ⟨0, ![]⟩ .f32 0x3F800000#32)

/-- The array of shape `s` all of whose entries are 0. -/
def zeros (s : Shape) (h : (⟨0, ![]⟩ : Shape).BroadcastsInDim s ![]) : FVec Ideal s .f32 :=
  broadcastInDim s ![] h (constant (F := Ideal) ⟨0, ![]⟩ .f32 0x00000000#32)

section Aggregation

variable {N E C : ℕ} (w : Wit N E C)

/-- A vector of E entries stood up as an [E, 1] column. -/
def colOf {α : Type} (v : (⟨1, ![E]⟩ : Shape).Idx → α) : (⟨2, ![E, 1]⟩ : Shape).Idx → α :=
  broadcastInDim ⟨2, ![E, 1]⟩ ![0] w.col v

/-- Index words with the negative ones moved up by `m` (an index counted from the end). -/
def wrap (m : BitVec 32) (a : IVec ⟨1, ![E]⟩ 32) : IVec ⟨1, ![E]⟩ 32 :=
  select (cmpi .slt a (broadcastInDim ⟨1, ![E]⟩ ![] w.zE (constantI ⟨0, ![]⟩ 32 0#32)))
    (addi a (broadcastInDim ⟨1, ![E]⟩ ![] w.zE (constantI ⟨0, ![]⟩ 32 m))) a

/-- The in-degree of every node: one is added at the node each destination word names. -/
def deg (dst : IVec ⟨1, ![E]⟩ 32) : FVec Ideal ⟨1, ![N]⟩ .f32 :=
  Host.scatterAdd (F := Ideal) (entryScatter N E w.sEntry) (zeros ⟨1, ![N]⟩ w.zN) (colOf w dst) (ones ⟨1, ![E]⟩ w.zE)

/-- The node scale 1 / sqrt (degree + 1). -/
def norm (dst : IVec ⟨1, ![E]⟩ 32) : FVec Ideal ⟨1, ![N]⟩ .f32 :=
  Host.divf (ones ⟨1, ![N]⟩ w.zN) (Host.sqrt (addf (deg w dst) (ones ⟨1, ![N]⟩ w.zN)))

/-- The node scales as an [N, 1] column. -/
def normCol (dst : IVec ⟨1, ![E]⟩ 32) : FVec Ideal ⟨2, ![N, 1]⟩ .f32 :=
  shapeCast ⟨2, ![N, 1]⟩ (norm w dst) w.stand

/-- An [N, 1] column repeated across the C columns. -/
def across (a : FVec Ideal ⟨2, ![N, 1]⟩ .f32) : FVec Ideal ⟨2, ![N, C]⟩ .f32 :=
  broadcastInDim ⟨2, ![N, C]⟩ ![0, 1] w.acrossN a

/-- The node scales repeated across the C feature columns. -/
def normAcross (dst : IVec ⟨1, ![E]⟩ 32) : FVec Ideal ⟨2, ![N, C]⟩ .f32 :=
  across w (normCol w dst)

/-- The edge scale 1 / sqrt ((deg dst + 1) · (deg src + 1)), the degrees looked up at the wrapped words. -/
def edgeNorm (m : BitVec 32) (src dst : IVec ⟨1, ![E]⟩ 32) : FVec Ideal ⟨1, ![E]⟩ .f32 :=
  Host.divf (ones ⟨1, ![E]⟩ w.zE)
    (Host.sqrt (mulf
      (addf (Host.gather (entryGather N E w.gEntry) (deg w dst) (colOf w (wrap w m dst))) (ones ⟨1, ![E]⟩ w.zE))
      (addf (Host.gather (entryGather N E w.gEntry) (deg w dst) (colOf w (wrap w m src))) (ones ⟨1, ![E]⟩ w.zE))))

/-- The edge scales repeated across the C feature columns. -/
def edgeNormAcross (m : BitVec 32) (src dst : IVec ⟨1, ![E]⟩ 32) : FVec Ideal ⟨2, ![E, C]⟩ .f32 :=
  broadcastInDim ⟨2, ![E, C]⟩ ![0, 1] w.acrossE (colOf w (edgeNorm w m src dst))

/-- For every edge, the row of the table at the edge's (wrapped) source word. -/
def gatherRows (m : BitVec 32) (src : IVec ⟨1, ![E]⟩ 32) (x : FVec Ideal ⟨2, ![N, C]⟩ .f32) : FVec Ideal ⟨2, ![E, C]⟩ .f32 :=
  Host.gather (rowGather N E C w.gRow) x (colOf w (wrap w m src))

/-- For every node, the sum of the edge rows whose destination word names the node. -/
def sumInto (dst : IVec ⟨1, ![E]⟩ 32) (u : FVec Ideal ⟨2, ![E, C]⟩ .f32) : FVec Ideal ⟨2, ![N, C]⟩ .f32 :=
  Host.scatterAdd (F := Ideal) (rowScatter N E C w.sRow) (zeros ⟨2, ![N, C]⟩ w.zNC) (colOf w dst) u

/-- Aggregation normalised per edge. -/
def aggEdge (m : BitVec 32) (src dst : IVec ⟨1, ![E]⟩ 32) (h : FVec Ideal ⟨2, ![N, C]⟩ .f32) : FVec Ideal ⟨2, ![N, C]⟩ .f32 :=
  sumInto w dst (mulf (gatherRows w m src h) (edgeNormAcross w m src dst))

/-- Aggregation of rows scaled per node before they are sent (the receiving node's scale still to be applied). -/
def aggNodeRaw (m : BitVec 32) (src dst : IVec ⟨1, ![E]⟩ 32) (h : FVec Ideal ⟨2, ![N, C]⟩ .f32) : FVec Ideal ⟨2, ![N, C]⟩ .f32 :=
  sumInto w dst (gatherRows w m src (mulf h (normAcross w dst)))

end Aggregation

section Dense

variable {M K N : ℕ}

/-- A bias vector [N] laid as a row and repeated down M rows. -/
def biasRows (h1 : (⟨1, ![N]⟩ : Shape).BroadcastsInDim ⟨2, ![1, N]⟩ ![1])
    (h2 : (⟨2, ![1, N]⟩ : Shape).BroadcastsInDim ⟨2, ![M, N]⟩ ![0, 1]) (b : FVec Ideal ⟨1, ![N]⟩ .f32) :
    FVec Ideal ⟨2, ![M, N]⟩ .f32 :=
  broadcastInDim ⟨2, ![M, N]⟩ ![0, 1] h2 (broadcastInDim ⟨2, ![1, N]⟩ ![1] h1 b)

/-- x · W + b. -/
def lin (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (W : FVec Ideal ⟨2, ![K, N]⟩ .f32) (b : FVec Ideal ⟨1, ![N]⟩ .f32) :
    FVec Ideal ⟨2, ![M, N]⟩ .f32 :=
  addf (Host.dotGeneral (F := Ideal) (DotDims.plain M K N) none x W) (biasRows h1 h2 b)

/-- max (h · Ws + g · Wn + b, 0). -/
def comb (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (h g : FVec Ideal ⟨2, ![M, K]⟩ .f32) (Ws Wn : FVec Ideal ⟨2, ![K, N]⟩ .f32) (b : FVec Ideal ⟨1, ![N]⟩ .f32) :
    FVec Ideal ⟨2, ![M, N]⟩ .f32 :=
  maximumf
    (addf (addf (Host.dotGeneral (F := Ideal) (DotDims.plain M K N) none h Ws)
                (Host.dotGeneral (F := Ideal) (DotDims.plain M K N) none g Wn))
          (biasRows h1 h2 b))
    (zeros ⟨2, ![M, N]⟩ h0)

end Dense

/-! ## The side conditions at this network's sizes: 20000 nodes, 160000 edges, 512 features, 256 outputs -/

theorem wit : Wit 20000 160000 512 :=
  ⟨by decide, by decide, by decide, by decide, by decide, by decide, by decide, by decide, by decide, by decide, by decide⟩
theorem row512 : (⟨1, ![512]⟩ : Shape).BroadcastsInDim ⟨2, ![1, 512]⟩ ![1] := by decide
theorem down512 : (⟨2, ![1, 512]⟩ : Shape).BroadcastsInDim ⟨2, ![20000, 512]⟩ ![0, 1] := by decide
theorem row256 : (⟨1, ![256]⟩ : Shape).BroadcastsInDim ⟨2, ![1, 256]⟩ ![1] := by decide
theorem down256 : (⟨2, ![1, 256]⟩ : Shape).BroadcastsInDim ⟨2, ![20000, 256]⟩ ![0, 1] := by decide

end Cert.Gnn

end
-- ==== Proof.Net.lean ====
/-
  The whole network as one function of its arguments, in the two normalisations.

  An encoder (a dense step), three rounds of message passing, an output head (a dense step).  One round takes the node
  table h, aggregates it along the edges, and combines: max (h · Ws + g · Wn + b, 0) with g the aggregate.  `layerNode`
  aggregates with the per-node scales (rows scaled before they are sent, sums scaled where they arrive), `layerEdge`
  with the per-edge scale; `netNode` and `netEdge` are the networks built from them.  The sizes are this network's:
  20000 nodes, 160000 edges, 512 features, 256 outputs; a negative index word counts from the end (it is moved up
  by 20000).
-/
import proofs.«141197_j52450140618855_2_alg».proof.Proof.Spec

noncomputable section

namespace Cert.Gnn

open Idealize.ShloMosaic

/-- One round of message passing, normalised per node. -/
def layerNode (src dst : IVec ⟨1, ![160000]⟩ 32) (h : FVec Ideal ⟨2, ![20000, 512]⟩ .f32)
    (Ws Wn : FVec Ideal ⟨2, ![512, 512]⟩ .f32) (b : FVec Ideal ⟨1, ![512]⟩ .f32) : FVec Ideal ⟨2, ![20000, 512]⟩ .f32 :=
  comb row512 down512 wit.zNC h (mulf (aggNodeRaw wit 20000#32 src dst h) (normAcross wit dst)) Ws Wn b

/-- One round of message passing, normalised per edge. -/
def layerEdge (src dst : IVec ⟨1, ![160000]⟩ 32) (h : FVec Ideal ⟨2, ![20000, 512]⟩ .f32)
    (Ws Wn : FVec Ideal ⟨2, ![512, 512]⟩ .f32) (b : FVec Ideal ⟨1, ![512]⟩ .f32) : FVec Ideal ⟨2, ![20000, 512]⟩ .f32 :=
  comb row512 down512 wit.zNC h (aggEdge wit 20000#32 src dst h) Ws Wn b

/-- The network with the per-node normalisation. -/
def netNode (X : FVec Ideal ⟨2, ![20000, 512]⟩ .f32) (src dst : IVec ⟨1, ![160000]⟩ 32)
    (Wenc : FVec Ideal ⟨2, ![512, 512]⟩ .f32) (benc : FVec Ideal ⟨1, ![512]⟩ .f32)
    (Ws0 Wn0 : FVec Ideal ⟨2, ![512, 512]⟩ .f32) (b0 : FVec Ideal ⟨1, ![512]⟩ .f32)
    (Ws1 Wn1 : FVec Ideal ⟨2, ![512, 512]⟩ .f32) (b1 : FVec Ideal ⟨1, ![512]⟩ .f32)
    (Ws2 Wn2 : FVec Ideal ⟨2, ![512, 512]⟩ .f32) (b2 : FVec Ideal ⟨1, ![512]⟩ .f32)
    (Wout : FVec Ideal ⟨2, ![512, 256]⟩ .f32) (bout : FVec Ideal ⟨1, ![256]⟩ .f32) : FVec Ideal ⟨2, ![20000, 256]⟩ .f32 :=
  lin row256 down256
    (layerNode src dst (layerNode src dst (layerNode src dst (lin row512 down512 X Wenc benc) Ws0 Wn0 b0) Ws1 Wn1 b1) Ws2 Wn2 b2)
    Wout bout

/-- The network with the per-edge normalisation. -/
def netEdge (X : FVec Ideal ⟨2, ![20000, 512]⟩ .f32) (src dst : IVec ⟨1, ![160000]⟩ 32)
    (Wenc : FVec Ideal ⟨2, ![512, 512]⟩ .f32) (benc : FVec Ideal ⟨1, ![512]⟩ .f32)
    (Ws0 Wn0 : FVec Ideal ⟨2, ![512, 512]⟩ .f32) (b0 : FVec Ideal ⟨1, ![512]⟩ .f32)
    (Ws1 Wn1 : FVec Ideal ⟨2, ![512, 512]⟩ .f32) (b1 : FVec Ideal ⟨1, ![512]⟩ .f32)
    (Ws2 Wn2 : FVec Ideal ⟨2, ![512, 512]⟩ .f32) (b2 : FVec Ideal ⟨1, ![512]⟩ .f32)
    (Wout : FVec Ideal ⟨2, ![512, 256]⟩ .f32) (bout : FVec Ideal ⟨1, ![256]⟩ .f32) : FVec Ideal ⟨2, ![20000, 256]⟩ .f32 :=
  lin row256 down256
    (layerEdge src dst (layerEdge src dst (layerEdge src dst (lin row512 down512 X Wenc benc) Ws0 Wn0 b0) Ws1 Wn1 b1) Ws2 Wn2 b2)
    Wout bout

end Cert.Gnn

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibRowTiledDot.lean ====
/-
  A block of rows of a matrix product is the product of that block of rows.

  A kernel that tiles the rows of the left factor multiplies, at each tile, a block of b rows [b, K] (narrowed to bf16,
  which changes nothing on the extended reals) by the whole right factor [K, N] into a zero accumulator. Entry (p, q) of
  that block product is the sum over k of x0 (p, k) · x1 (k, q); entry (g, q) of the host's product of the whole matrices
  is the sum over k of A (g, k) · B (k, q). When row p of the block is row g of the whole left factor and the right
  factors agree, the two sums are the same sum, term by term: no finiteness is needed, and no reordering.
-/
import Idealize.ShloMosaic.Lib.ValueIdx
import Idealize.ShloMosaic.Lib.Pipeline.Value
import Idealize.ShloMosaic.PureOps.Ideal.Laws
import proofs.«141197_j52450140618855_2_alg».proof.Proof.LibPlainDot
import proofs.«141197_j52450140618855_2_alg».proof.Proof.LibHostDot

noncomputable section

namespace Cert.Lib.RowTiledDot

open Idealize.ShloMosaic Idealize.ShloMosaic.ValueIdx

variable {M K N b : ℕ}

/-- Entry (p, q) of the kernel's product of a block of rows is entry (g, q) of the host's product of the whole
    matrices, when row p of the block is row g of the whole left factor (h0) and column q of the block's right factor
    is column q of the whole right factor (h1). -/
theorem block_entry_eq_host (h : FTy.bits .bf16 < FTy.bits .f32)
    (A : FVec Ideal ⟨2, ![M, K]⟩ .f32) (B : FVec Ideal ⟨2, ![K, N]⟩ .f32)
    (x0 : FVec Ideal ⟨2, ![b, K]⟩ .f32) (x1 : FVec Ideal ⟨2, ![K, N]⟩ .f32)
    (p : Fin b) (q : Fin N) (g : Fin M)
    (h0 : ∀ k : Fin K, x0 (ix2 p k) = A (ix2 g k)) (h1 : ∀ k : Fin K, x1 (ix2 k q) = B (ix2 k q)) :
    matmul (DotDims.plain b K N) none (truncf .bf16 x0 h) (truncf .bf16 x1 h)
        (constant (F := Ideal) ⟨2, ![b, N]⟩ .f32 0x00000000#32) (ix2 p q)
      = Host.dotGeneral (F := Ideal) (DotDims.plain M K N) none A B (ix2 g q) := by
  rw [Cert.PlainDot.matmul_zero_plain_apply, Cert.HostDot.dotGeneral_plain_apply]
  refine Finset.sum_congr rfl fun k _ => ?_
  show x0 (ix2 p k) * x1 (ix2 k q) = _
  rw [h0 k, h1 k]

end Cert.Lib.RowTiledDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«141197_j52450140618855_2_alg».proof.Proof.LibPlainDot
import proofs.«141197_j52450140618855_2_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.Region0.lean ====
/-
  The first linear region: y = x · W + b, tiled by rows.

  x is [20000, 512], W is [512, 512], b is [512]. The region visits 20 grid points; at point t it stages rows
  1000 t … 1000 t + 999 of x (a block [1000, 512]), the whole of W and the whole of b, and writes back a block
  [1000, 512] of the output at the same rows. The body multiplies the block of rows by W (both narrowed to bf16, which
  changes nothing on the extended reals) into a zero accumulator and adds b laid as a row and repeated down the 1000
  lines.

  Why a block of the product is the product of the block: entry (r, q) of x · W is the sum over k of x (r, k) · W (k, q),
  which reads row r of x and nothing else of x. So with r = 1000 t + p, entry (p, q) of (rows of x at point t) · W is entry
  (r, q) of x · W, term by term. The bias row added at line p of the block and at line r of the whole array is the same row
  b (q). Hence what point t writes back is block t of the one whole-array function lin x W b (flushed_eq).

  The 20 blocks tile the 20000 rows (row r lies in the block of point r / 1000, all 512 columns), so after the last
  write-back the output array is lin x W b everywhere (final0_3).
-/
import proofs.«141197_j52450140618855_2_alg».proof.Proof.Gen.KernelIdeal.Frame
import proofs.«141197_j52450140618855_2_alg».proof.Proof.Spec
import proofs.«141197_j52450140618855_2_alg».proof.Proof.LibRowTiledDot
import proofs.«141197_j52450140618855_2_alg».proof.Proof.LibDenseBias
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-- Entry (p, q) of the body's result on a block of 1000 rows — the block times the weights plus the bias row — is
    entry (g, q) of x · W + b on the whole arrays, when row p of the block is row g of x and the block's weight and
    bias are the whole W and b: an entry of a product reads one row of its left factor, and the bias row is the same
    row on every line. -/
theorem pay_entry (A : FVec Ideal ⟨2, ![20000, 512]⟩ .f32) (W : FVec Ideal ⟨2, ![512, 512]⟩ .f32)
    (b : FVec Ideal ⟨1, ![512]⟩ .f32)
    (x0 : Vec Ideal S1000x512 .f32) (x1 : Vec Ideal S512x512 .f32) (x2 : Vec Ideal S512 .f32)
    (p : Fin 1000) (q : Fin 512) (g : Fin 20000)
    (h0 : ∀ k : Fin 512, x0 (ix2 p k) = A (ix2 g k)) (h1 : x1 = W) (h2 : x2 = b) :
    k0_pay1 x0 x1 x2 (ix2 p q) = Cert.Gnn.lin Cert.Gnn.row512 Cert.Gnn.down512 A W b (ix2 g q) := by
  unfold k0_pay1 Cert.Gnn.lin Cert.Gnn.biasRows
  have hd : dot_S1000x512_S512x512_S1000x512_1_0_0_1_n_n = DotDims.plain 1000 512 512 := rfl
  rw [addf_apply, addf_apply, hd]
  congr 1
  · exact Cert.Lib.RowTiledDot.block_entry_eq_host bitsLt_bf16_f32 A W x0 x1 p q g h0 (fun k => by rw [h1])
  · rw [Cert.Lib.DenseBias.row_down_entry, Cert.Lib.DenseBias.row_down_host_entry,
      Cert.Lib.DenseBias.bias_row_eq x2 shapeCasts_S512_S1x512 Cert.Gnn.row512, h2]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 20 grid points: the two row-tiled windows sit at block (t, 0), the weight and the
    bias windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of the input block at point t is row 1000 t + p of x. -/
theorem iblk_x (c : Dev nD) (t : Fin cfg0.N) (p : Fin 1000) (k : Fin 512) (g : Fin 20000)
    (hg : g.val = t.val * 1000 + p.val) :
    (iblk0 V c 0 t : Vec Ideal S1000x512 .f32) (ix2 p k)
      = (V c main_arg0 : S20000x512.Idx → Elt Ideal .f32) (ix2 g k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 1000 + 1 * p.val = g.val; rw [e0, hg]; omega
  | ⟨1, _⟩ => show win0_0.index t (1 : Fin 2) * 512 + 1 * k.val = k.val; rw [e1]; omega

/-- The weight window's block is the whole weight matrix at every point. -/
theorem iblk_W (c : Dev nD) (t : Fin cfg0.N) :
    (iblk0 V c 1 t : Vec Ideal S512x512 .f32) = (V c main_arg2 : S512x512.Idx → Elt Ideal .f32) := by
  obtain ⟨-, -, e2, e3, -⟩ := idx_facts t
  funext j
  unfold iblk0
  rw [View.read_apply]
  show V c main_arg2 _ = V c main_arg2 j
  congr 1
  funext a
  apply Fin.ext
  match a with
  | ⟨0, _⟩ => show win0_1.index t (0 : Fin 2) * 512 + 1 * (j 0).val = (j 0).val; rw [e2]; omega
  | ⟨1, _⟩ => show win0_1.index t (1 : Fin 2) * 512 + 1 * (j 1).val = (j 1).val; rw [e3]; omega

/-- The bias window's block is the whole bias vector at every point. -/
theorem iblk_b (c : Dev nD) (t : Fin cfg0.N) :
    (iblk0 V c 2 t : Vec Ideal S512 .f32) = (V c main_arg3 : S512.Idx → Elt Ideal .f32) := by
  obtain ⟨-, -, -, -, e4, -⟩ := idx_facts t
  funext j
  unfold iblk0
  rw [View.read_apply]
  show V c main_arg3 _ = V c main_arg3 j
  congr 1
  funext a
  apply Fin.ext
  match a with
  | ⟨0, _⟩ => show win0_2.index t (0 : Fin 1) * 512 + 1 * (j 0).val = (j 0).val; rw [e4]; omega

/-- What point t writes back is block t of x · W + b. -/
theorem flushed_eq (c : Dev nD) (t : Fin cfg0.N) :
    (dat0 V c).flushed 3 t = ((cfg0.win 3).blk t).view.read (Elt Ideal)
      (Cert.Gnn.lin Cert.Gnn.row512 Cert.Gnn.down512 (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S1000x512) hz2, View.ld_unit_zero (S := S512x512) hz2,
    View.ld_unit_zero (S := S512) hz1]
  obtain ⟨-, -, -, -, -, e5, e6⟩ := idx_facts t
  funext j
  obtain ⟨p, q, rfl⟩ : ∃ (p : Fin 1000) (q : Fin 512), j = ix2 p q := ⟨j 0, j 1, eq_ix2 j⟩
  have ht : t.val < 20 := lt_of_lt_of_eq t.isLt N_0
  have hp : t.val * 1000 + p.val < 20000 := by have := p.isLt; omega
  rw [View.read_apply]
  show k0_pay1 (iblk0 V c 0 t) (iblk0 V c 1 t) (iblk0 V c 2 t) (ix2 p q)
    = Cert.Gnn.lin Cert.Gnn.row512 Cert.Gnn.down512 (V c main_arg0) (V c main_arg2) (V c main_arg3)
        (((cfg0.win 3).blk t).view.emb (ix2 p q))
  have hemb : ((cfg0.win 3).blk t).view.emb (ix2 p q) = ix2 (⟨t.val * 1000 + p.val, hp⟩ : Fin 20000) q := by
    funext a
    apply Fin.ext
    match a with
    | ⟨0, _⟩ => show win0_3.index t (0 : Fin 2) * 1000 + 1 * p.val = t.val * 1000 + p.val; rw [e5]; omega
    | ⟨1, _⟩ => show win0_3.index t (1 : Fin 2) * 512 + 1 * q.val = q.val; rw [e6]; omega
  rw [hemb]
  exact pay_entry _ _ _ _ _ _ p q ⟨_, hp⟩ (fun k => iblk_x V c t p k ⟨_, hp⟩ rfl) (iblk_W V c t) (iblk_b V c t)

/-- An index of the array is in point t's block iff each coordinate is in the block's range on its axis. -/
theorem mem_blk (t : Fin cfg0.N) (i : S20000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v4).slice (win0_3.rect t)).set ↔ _
  rw [View.set_slice_whole, Rect.mem_set_unit]
  exact Iff.rfl

/-- The 20 blocks of 1000 rows tile the 20000 rows: row r is in the block of point r / 1000. -/
theorem cover (i : S20000x512.Idx) :
    ∃ t : Fin cfg0.N, (cfg0.win 3).flush t = true ∧ i ∈ ((cfg0.win 3).blk t).view.set := by
  have hi0 : (i 0).val < 20000 := (i 0).isLt
  have hi1 : (i 1).val < 512 := (i 1).isLt
  obtain ⟨t, ht⟩ : ∃ t : Fin cfg0.N, t.val = (i 0).val / 1000 :=
    ⟨⟨(i 0).val / 1000, by rw [show cfg0.N = 20 from N_0]; omega⟩, rfl⟩
  obtain ⟨-, -, -, -, -, e5, e6⟩ := idx_facts t
  refine ⟨t, flush0_3 t, ?_⟩
  rw [mem_blk]
  intro a
  match a with
  | ⟨0, _⟩ =>
    show win0_3.index t (0 : Fin 2) * 1000 ≤ (i 0).val ∧ (i 0).val < win0_3.index t (0 : Fin 2) * 1000 + 1000
    rw [e5, ht]; omega
  | ⟨1, _⟩ =>
    show win0_3.index t (1 : Fin 2) * 512 ≤ (i 1).val ∧ (i 1).val < win0_3.index t (1 : Fin 2) * 512 + 512
    rw [e6]; omega

/-- After the region the output array is x · W + b of the region's input arrays. -/
theorem final0_3 (c : Dev nD) : (dat0 V c).arrAt 3 cfg0.N
      = Cert.Gnn.lin Cert.Gnn.row512 Cert.Gnn.down512 (V c main_arg0) (V c main_arg2) (V c main_arg3) :=
  (dat0 V c).arrAt_eq_of_cover 3 _ (fun t _ => flushed_eq V c t) cover

end Cert.KernelIdeal.Region0

end
-- ==== Proof.LibRowLanding.lean ====
/-
  WHERE A SCATTER OF ROWS LANDS, EXACTLY; INDEX WORDS THAT ARE SMALL NATURALS; THREE SMALL READS.

  A scatter of the rows of updates `[E, C]` into a table `[N, C]` by a column `[E, 1]` of index words sends the update
  entry `(e, q)` to the table entry `(i, c)` exactly when the `e`-th index word, read signed, is `i` and `q = c`
  (`rowScatter_lands_iff`).  Hence the sum of all the updates that land at `(i, c)` is the sum, over the rows `e` whose
  index word reads `i`, of the updates' entry `(e, c)` (`sum_landing`); the values may lie in any commutative monoid.

  A word `BitVec.ofNat w k` with `2 k < 2 ^ w` reads signed as `k` (`toInt_ofNat_small`); a signed value that is a row
  `i < N` stays `i` when clamped into `[0, N − 1]` (`clamp_of_toInt_eq`).

  A sum over `Fin n` with `n = m + d` is the sum of its first `m` terms plus the sum of its last `d` (`sum_fin_split`).

  Reads: a scalar splat to any shape reads the scalar (`splat_apply`); a column `[E, 1]` repeated across `C` columns
  reads its entry `e` at `(e, q)` (`column_across_apply`); a vector `[b]` laid as the row `[1, b]` reads its entry `q`
  at `(0, q)` (`row_of_vec_apply`).
-/
import Idealize.ShloMosaic.Lib.ValueIdx
import Idealize.ShloMosaic.Lib.Pipeline.Value
import proofs.«141197_j52450140618855_2_alg».proof.Proof.LibEdgeRows

namespace Cert.Lib.RowLanding

open Idealize.ShloMosaic Idealize.ShloMosaic.ValueIdx Cert.Lib.EdgeRows

/-! ## Where a scatter of rows lands -/

/-- The update entry `(e, q)` lands at the table entry `(i, c)` exactly when the `e`-th index word, read signed, is
    `i` and the columns agree. -/
theorem rowScatter_lands_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : Fin N) (c : Fin C) :
    (rowScatter N E C wf).resultIdx? (ix2 e q) idx = some (ix2 i c)
      ↔ (idx (ix2 e (0 : Fin 1))).toInt = (i.val : Int) ∧ q = c := by
  constructor
  · intro h
    obtain ⟨h0, h1⟩ := rowScatter_lands wf idx e q (ix2 i c) h
    exact ⟨h0, Fin.ext h1.symm⟩
  · rintro ⟨h0, rfl⟩
    have h02 : 0 < 2 := Nat.zero_lt_two
    have h12 : 1 < 2 := Nat.one_lt_two
    have hi := i.isLt
    have hq := q.isLt
    unfold ScatterDims.resultIdx?
    split
    · congr 1
      funext a
      refine Fin.ext ?_
      match a with
      | ⟨0, _⟩ =>
        show ((rowScatter N E C wf).start (ix2 e q) idx ⟨0, h02⟩
          + ((rowScatter N E C wf).window (ix2 e q) ⟨0, h02⟩ : Nat) : Int).toNat = i.val
        rw [rowScatter_start_zero, rowScatter_window_zero, h0]
        omega
      | ⟨1, _⟩ =>
        show ((rowScatter N E C wf).start (ix2 e q) idx ⟨1, h12⟩
          + ((rowScatter N E C wf).window (ix2 e q) ⟨1, h12⟩ : Nat) : Int).toNat = q.val
        rw [rowScatter_start_one, rowScatter_window_one]
        omega
    · rename_i hn
      refine absurd (fun a => ?_) hn
      match a with
      | ⟨0, _⟩ =>
        show 0 ≤ (rowScatter N E C wf).start (ix2 e q) idx ⟨0, h02⟩
            + ((rowScatter N E C wf).window (ix2 e q) ⟨0, h02⟩ : Nat)
          ∧ (rowScatter N E C wf).start (ix2 e q) idx ⟨0, h02⟩
            + ((rowScatter N E C wf).window (ix2 e q) ⟨0, h02⟩ : Nat) < ((N : Nat) : Int)
        rw [rowScatter_start_zero, rowScatter_window_zero, h0]
        omega
      | ⟨1, _⟩ =>
        show 0 ≤ (rowScatter N E C wf).start (ix2 e q) idx ⟨1, h12⟩
            + ((rowScatter N E C wf).window (ix2 e q) ⟨1, h12⟩ : Nat)
          ∧ (rowScatter N E C wf).start (ix2 e q) idx ⟨1, h12⟩
            + ((rowScatter N E C wf).window (ix2 e q) ⟨1, h12⟩ : Nat) < ((C : Nat) : Int)
        rw [rowScatter_start_one, rowScatter_window_one]
        omega

/-- The sum of all the updates that land at `(i, c)`: over the rows whose index word reads `i`, the updates' entry in
    column `c`. -/
theorem sum_landing {N E C w : Nat} {M : Type*} [AddCommMonoid M]
    (wf : ScatterDims.WF ⟨2, ![N, C]⟩ ⟨2, ![E, 1]⟩ ⟨2, ![E, C]⟩ [1] [0] [0] 1)
    (idx : IVec ⟨2, ![E, 1]⟩ w) (upd : (⟨2, ![E, C]⟩ : Shape).Idx → M) (i : Fin N) (c : Fin C)
    [∀ j, Decidable ((rowScatter N E C wf).resultIdx? j idx = some (ix2 i c))] :
    (∑ j, if (rowScatter N E C wf).resultIdx? j idx = some (ix2 i c) then upd j else 0)
      = ∑ e : Fin E, if (idx (ix2 e (0 : Fin 1))).toInt = (i.val : Int) then upd (ix2 e c) else 0 := by
  rw [sum_idx2]
  refine Finset.sum_congr rfl fun e _ => ?_
  by_cases h : (idx (ix2 e (0 : Fin 1))).toInt = (i.val : Int)
  · rw [if_pos h, Finset.sum_eq_single c]
    · rw [if_pos ((rowScatter_lands_iff wf idx e c i c).2 ⟨h, rfl⟩)]
    · intro q _ hq
      rw [if_neg (fun hl => hq ((rowScatter_lands_iff wf idx e q i c).1 hl).2)]
    · intro hc
      exact absurd (Finset.mem_univ c) hc
  · rw [if_neg h]
    refine Finset.sum_eq_zero fun q _ => ?_
    rw [if_neg (fun hl => h ((rowScatter_lands_iff wf idx e q i c).1 hl).1)]

/-! ## Index words that are small naturals -/

/-- A word made from a natural below half the word range reads signed as that natural. -/
theorem toInt_ofNat_small {w : Nat} (k : Nat) (h : 2 * k < 2 ^ w) : (BitVec.ofNat w k).toInt = (k : Int) := by
  have hk : k < 2 ^ w := by omega
  have hn : (BitVec.ofNat w k).toNat = k := by rw [BitVec.toNat_ofNat, Nat.mod_eq_of_lt hk]
  rw [BitVec.toInt_eq_toNat_of_lt (by rw [hn]; exact h), hn]

/-- A signed value that is a row `i < N` stays `i` when clamped into `[0, N − 1]`. -/
theorem clamp_of_toInt_eq {N : Nat} (z : Int) (i : Nat) (hi : i < N) (h : z = (i : Int)) :
    min z.toNat (N - 1) = i := by
  subst h
  omega

/-! ## A sum over `Fin n` split at `m` -/

/-- With `n = m + d`, a sum over `Fin n` is the sum of its first `m` terms plus the sum of its last `d`. -/
theorem sum_fin_split {M : Type*} [AddCommMonoid M] {m d n : Nat} (h : m + d = n) (f : Fin n → M) :
    ∑ i, f i = (∑ i : Fin m, f ⟨i.val, by omega⟩) + ∑ k : Fin d, f ⟨m + k.val, by omega⟩ := by
  subst h
  rw [Fin.sum_univ_add]
  rfl

/-! ## Three small reads -/

/-- A scalar splat to any shape reads the scalar. -/
theorem splat_apply {α : Type} {t : Shape}
    (hb : (⟨0, ![]⟩ : Shape).BroadcastsInDim t (![] : Fin 0 → Fin t.rank))
    (v : (⟨0, ![]⟩ : Shape).Idx → α) (j : t.Idx) :
    broadcastInDim t (![] : Fin 0 → Fin t.rank) hb v j = v ix0 :=
  broadcastInDim_apply _ hb v j ix0 fun a => a.elim0

/-- A column `[E, 1]` repeated across `C` columns reads, at `(e, q)`, the column's entry `e`. -/
theorem column_across_apply {α : Type} {E C : Nat}
    (hb : (⟨2, ![E, 1]⟩ : Shape).BroadcastsInDim ⟨2, ![E, C]⟩ (![0, 1] : Fin 2 → Fin 2))
    (v : (⟨2, ![E, 1]⟩ : Shape).Idx → α) (e : Fin E) (q : Fin C) :
    broadcastInDim ⟨2, ![E, C]⟩ (![0, 1] : Fin 2 → Fin 2) hb v (ix2 e q) = v (ix2 e (0 : Fin 1)) := by
  refine broadcastInDim_apply _ hb v (ix2 e q) (ix2 e (0 : Fin 1)) fun ax => ?_
  match ax with
  | ⟨0, _⟩ =>
    show e.val = if E = 1 then 0 else e.val
    split
    · have := e.isLt; omega
    · rfl
  | ⟨1, _⟩ => rfl

/-- A vector `[b]` laid as the row `[1, b]` along the last axis reads, at `(0, q)`, the vector's entry `q`. -/
theorem row_of_vec_apply {α : Type} {b : Nat} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

end Cert.Lib.RowLanding
-- ==== Proof.CombineBody.lean ====
/-
  The combine step on a block of rows, entry by entry.

  A combine step takes node features h [N, K], aggregated features g [N, K], a column of node scales a [N, 1], two
  weight matrices Ws, Wn [K, C] and a bias b [C], and forms

      out = max (h · Ws + (g ∘ a) · Wn + b, 0),        out' = out ∘ a,

  where g ∘ a multiplies row r of g by the scale a (r, 0), the bias is added to every row, and the maximum is taken
  entry by entry.  The kernel works on a block of 1000 rows of h, g and a with the whole of Ws, Wn and b; the whole-array
  form is `Cert.Gnn.comb` applied to g ∘ a.

  Entry (p, q) of a block of the result needs only row p of the block of h, row p of the block of g, the scale in row p,
  column q of the weights and entry q of the bias:  a matrix product's entry (p, q) is the sum over k of
  x (p, k) · W (k, q), which reads row p of the left factor alone, so a block of rows of a product is the product of
  that block of rows; scaling a row, adding the bias row and taking the maximum with 0 act on each entry by itself.
  Hence if row p of each block is row r of the whole array, entry (p, q) of the block's result is entry (r, q) of the
  whole-array result (combineBlock_entry, combineBlockScaled_entry).  Narrowing to bf16 before the products changes
  nothing on the extended reals, and a reshape to the same shape is the identity.
-/
import proofs.«141197_j52450140618855_2_alg».proof.Proof.Gen.KernelIdeal.Skeleton
import proofs.«141197_j52450140618855_2_alg».proof.Proof.Spec
import proofs.«141197_j52450140618855_2_alg».proof.Proof.LibRowTiledDot
import proofs.«141197_j52450140618855_2_alg».proof.Proof.LibDenseBias
import proofs.«141197_j52450140618855_2_alg».proof.Proof.LibHostDot
import proofs.«141197_j52450140618855_2_alg».proof.Proof.LibRowLanding
import Idealize.ShloMosaic.Lib.ValueIdx
import Idealize.ShloMosaic.Lib.ValueLayout
import Idealize.ShloMosaic.Lib.Pipeline.Value

noncomputable section

namespace Cert.KernelIdeal.CombineBody

open Cert.KernelIdeal Cert.KernelIdeal.Gen Idealize.ShloMosaic Idealize.ShloMosaic.ValueIdx

/-- The combine step of whole arrays: max (H · Ws + (G ∘ A) · Wn + B, 0). -/
abbrev combWhole (H G : FVec Ideal S20000x512 .f32) (A : FVec Ideal S20000x1 .f32)
    (Ws Wn : FVec Ideal S512x512 .f32) (B : FVec Ideal S512 .f32) : FVec Ideal S20000x512 .f32 :=
  Cert.Gnn.comb Cert.Gnn.row512 Cert.Gnn.down512 Cert.Gnn.wit.zNC H
    (mulf G (Cert.Gnn.across Cert.Gnn.wit A)) Ws Wn B

/-- The combine step as the kernel spells it on a block of 1000 rows. -/
def combineBlock (x0 x1 : FVec Ideal S1000x512 .f32) (x2 : FVec Ideal S1000x1 .f32)
    (x3 x4 : FVec Ideal S512x512 .f32) (x5 : FVec Ideal S512 .f32) : FVec Ideal S1000x512 .f32 :=
  maximumf
    (addf
      (addf
        (matmul dot_S1000x512_S512x512_S1000x512_1_0_0_1_n_n none
          (truncf .bf16 (shapeCast S1000x512 x0 shapeCasts_S1000x512_S1000x512) bitsLt_bf16_f32)
          (truncf .bf16 (shapeCast S512x512 x3 shapeCasts_S512x512_S512x512) bitsLt_bf16_f32)
          (constant S1000x512 .f32 0x00000000#32))
        (matmul dot_S1000x512_S512x512_S1000x512_1_0_0_1_n_n none
          (truncf .bf16
            (mulf (shapeCast S1000x512 x1 shapeCasts_S1000x512_S1000x512)
              (broadcastTo S1000x512 (shapeCast S1000x1 x2 shapeCasts_S1000x1_S1000x1) broadcasts_S1000x1_S1000x512))
            bitsLt_bf16_f32)
          (truncf .bf16 (shapeCast S512x512 x4 shapeCasts_S512x512_S512x512) bitsLt_bf16_f32)
          (constant S1000x512 .f32 0x00000000#32)))
      (broadcastTo S1000x512
        (shapeCast S1x512 (shapeCast S512 x5 shapeCasts_S512_S512) shapeCasts_S512_S1x512)
        broadcasts_S1x512_S1000x512))
    (broadcast S1000x512 (Scalar.ofBits .f32 0x00000000#32))

/-- The block's result with every row multiplied by its scale once more. -/
def combineBlockScaled (x0 x1 : FVec Ideal S1000x512 .f32) (x2 : FVec Ideal S1000x1 .f32)
    (x3 x4 : FVec Ideal S512x512 .f32) (x5 : FVec Ideal S512 .f32) (x6 : FVec Ideal S1000x1 .f32) :
    FVec Ideal S1000x512 .f32 :=
  mulf (combineBlock x0 x1 x2 x3 x4 x5)
    (broadcastTo S1000x512 (shapeCast S1000x1 x6 shapeCasts_S1000x1_S1000x1) broadcasts_S1000x1_S1000x512)

/-- The three combine kernels' first stored value is that term. -/
theorem k1_pay1_eq : k1_pay1 (F := Ideal) = combineBlock := rfl
theorem k2_pay1_eq : k2_pay1 (F := Ideal) = combineBlock := rfl
theorem k3_pay1_eq : k3_pay1 (F := Ideal) = combineBlock := rfl

/-- The three combine kernels' second stored value is the scaled one. -/
theorem k1_pay2_eq : k1_pay2 (F := Ideal) = combineBlockScaled := rfl
theorem k2_pay2_eq : k2_pay2 (F := Ideal) = combineBlockScaled := rfl
theorem k3_pay2_eq : k3_pay2 (F := Ideal) = combineBlockScaled := rfl

/-- Entry (p, q) of the block's combine step is entry (r, q) of the whole arrays' combine step, when row p of the
    blocks of h, g and a is row r of the whole arrays and the weights and the bias are the whole ones. -/
theorem combineBlock_entry
    (H G : FVec Ideal S20000x512 .f32) (A : FVec Ideal S20000x1 .f32)
    (Ws Wn : FVec Ideal S512x512 .f32) (B : FVec Ideal S512 .f32)
    (x0 x1 : FVec Ideal S1000x512 .f32) (x2 : FVec Ideal S1000x1 .f32)
    (x3 x4 : FVec Ideal S512x512 .f32) (x5 : FVec Ideal S512 .f32)
    (p : Fin 1000) (q : Fin 512) (r : Fin 20000)
    (h0 : ∀ k : Fin 512, x0 (ix2 p k) = H (ix2 r k))
    (h1 : ∀ k : Fin 512, x1 (ix2 p k) = G (ix2 r k))
    (h2 : x2 (ix2 p (0 : Fin 1)) = A (ix2 r (0 : Fin 1)))
    (h3 : x3 = Ws) (h4 : x4 = Wn) (h5 : x5 = B) :
    combineBlock x0 x1 x2 x3 x4 x5 (ix2 p q) = combWhole H G A Ws Wn B (ix2 r q) := by
  subst h3 h4 h5
  -- the product with the first weight matrix
  have e1 : matmul dot_S1000x512_S512x512_S1000x512_1_0_0_1_n_n none
        (truncf .bf16 (shapeCast S1000x512 x0 shapeCasts_S1000x512_S1000x512) bitsLt_bf16_f32)
        (truncf .bf16 (shapeCast S512x512 x3 shapeCasts_S512x512_S512x512) bitsLt_bf16_f32)
        (constant (F := Ideal) S1000x512 .f32 0x00000000#32) (ix2 p q)
      = Host.dotGeneral (F := Ideal) (DotDims.plain 20000 512 512) none H x3 (ix2 r q) := by
    rw [shapeCast_self, shapeCast_self]
    exact Cert.Lib.RowTiledDot.block_entry_eq_host bitsLt_bf16_f32 H x3 x0 x3 p q r h0 (fun _ => rfl)
  -- the product of the scaled rows with the second weight matrix
  have e2 : matmul dot_S1000x512_S512x512_S1000x512_1_0_0_1_n_n none
        (truncf .bf16
          (mulf (shapeCast S1000x512 x1 shapeCasts_S1000x512_S1000x512)
            (broadcastTo S1000x512 (shapeCast S1000x1 x2 shapeCasts_S1000x1_S1000x1) broadcasts_S1000x1_S1000x512))
          bitsLt_bf16_f32)
        (truncf .bf16 (shapeCast S512x512 x4 shapeCasts_S512x512_S512x512) bitsLt_bf16_f32)
        (constant (F := Ideal) S1000x512 .f32 0x00000000#32) (ix2 p q)
      = Host.dotGeneral (F := Ideal) (DotDims.plain 20000 512 512) none
          (mulf G (Cert.Gnn.across Cert.Gnn.wit A)) x4 (ix2 r q) := by
    rw [shapeCast_self, shapeCast_self, shapeCast_self]
    refine Cert.Lib.RowTiledDot.block_entry_eq_host bitsLt_bf16_f32 (mulf G (Cert.Gnn.across Cert.Gnn.wit A)) x4
      (mulf x1 (broadcastTo S1000x512 x2 broadcasts_S1000x1_S1000x512)) x4 p q r (fun k => ?_) (fun _ => rfl)
    rw [mulf_apply, mulf_apply, h1 k, Cert.HostDot.broadcastTo_a1_ab_apply, h2]
    unfold Cert.Gnn.across
    rw [Cert.Lib.RowLanding.column_across_apply]
  -- the bias row
  have e3 : broadcastTo S1000x512
        (shapeCast S1x512 (shapeCast S512 x5 shapeCasts_S512_S512) shapeCasts_S512_S1x512)
        broadcasts_S1x512_S1000x512 (ix2 p q)
      = Cert.Gnn.biasRows Cert.Gnn.row512 Cert.Gnn.down512 x5 (ix2 r q) := by
    unfold Cert.Gnn.biasRows
    rw [shapeCast_self, Cert.Lib.DenseBias.row_down_entry, shapeCast_a_1a_apply,
      Cert.Lib.DenseBias.row_down_host_entry, Cert.Lib.RowLanding.row_of_vec_apply]
  -- the zero
  have e4 : broadcast S1000x512 (Scalar.ofBits (F := Ideal) .f32 0x00000000#32) (ix2 p q)
      = Cert.Gnn.zeros S20000x512 Cert.Gnn.wit.zNC (ix2 r q) := by
    unfold Cert.Gnn.zeros
    rw [Cert.Lib.RowLanding.splat_apply]
    rfl
  unfold combineBlock combWhole Cert.Gnn.comb
  rw [maximumf_apply, addf_apply, addf_apply, e1, e2, e3, e4, maximumf_apply, addf_apply, addf_apply]

/-- The same for the result multiplied by the scales once more. -/
theorem combineBlockScaled_entry
    (H G : FVec Ideal S20000x512 .f32) (A : FVec Ideal S20000x1 .f32)
    (Ws Wn : FVec Ideal S512x512 .f32) (B : FVec Ideal S512 .f32)
    (x0 x1 : FVec Ideal S1000x512 .f32) (x2 : FVec Ideal S1000x1 .f32)
    (x3 x4 : FVec Ideal S512x512 .f32) (x5 : FVec Ideal S512 .f32) (x6 : FVec Ideal S1000x1 .f32)
    (p : Fin 1000) (q : Fin 512) (r : Fin 20000)
    (h0 : ∀ k : Fin 512, x0 (ix2 p k) = H (ix2 r k))
    (h1 : ∀ k : Fin 512, x1 (ix2 p k) = G (ix2 r k))
    (h2 : x2 (ix2 p (0 : Fin 1)) = A (ix2 r (0 : Fin 1)))
    (h3 : x3 = Ws) (h4 : x4 = Wn) (h5 : x5 = B)
    (h6 : x6 (ix2 p (0 : Fin 1)) = A (ix2 r (0 : Fin 1))) :
    combineBlockScaled x0 x1 x2 x3 x4 x5 x6 (ix2 p q)
      = mulf (combWhole H G A Ws Wn B) (Cert.Gnn.across Cert.Gnn.wit A) (ix2 r q) := by
  unfold combineBlockScaled
  rw [mulf_apply, mulf_apply, combineBlock_entry H G A Ws Wn B x0 x1 x2 x3 x4 x5 p q r h0 h1 h2 h3 h4 h5,
    shapeCast_self, Cert.HostDot.broadcastTo_a1_ab_apply, h6]
  unfold Cert.Gnn.across
  rw [Cert.Lib.RowLanding.column_across_apply]

end Cert.KernelIdeal.CombineBody

end
-- ==== Proof.Region1.lean ====
/-
  Combine region 1: after the region, each of its two output arrays is one function of the region's input arrays.

  The region runs the combine step on 20 blocks of 1000 rows.  At grid point t the windows over the node features
  h [20000, 512], the aggregated features g [20000, 512], the column of scales a [20000, 1] and the two outputs hold
  rows 1000 t … 1000 t + 999 of their arrays: row p of a block is row 1000 t + p of the array, and the columns are
  not cut.  The windows over the two weight matrices [512, 512] and the bias [512] hold the whole arrays at every point.

  Entry (p, q) of the block's result reads row p of the blocks of h, g and a, column q of the weights and entry q of the
  bias, because an entry of a matrix product reads one row of the left factor: a block of rows of a product is the
  product of that block of rows (CombineBody.combineBlock_entry).  So what point t writes back is rows
  1000 t … 1000 t + 999 of the whole-array result max (h · Ws + (g ∘ a) · Wn + b, 0), and of that result multiplied
  by the scales once more for the second output.  Row r of the array lies in the block of point r / 1000, so the 20
  blocks cover the array, and the array ends holding the whole-array result.
-/
import proofs.«141197_j52450140618855_2_alg».proof.Proof.Gen.KernelIdeal.Frame
import proofs.«141197_j52450140618855_2_alg».proof.Proof.Spec
import proofs.«141197_j52450140618855_2_alg».proof.Proof.CombineBody
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.CombineBody

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The index maps over the grid: the row-tiled windows sit at block (t, 0), the weights and the bias at block 0, and
    there are 20 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0
    ∧ t.val < 20 :=
  (by decide +kernel : ∀ t : Fin grid1.N, _)

/-! ## The blocks read off the arrays -/

/-- Row p of the block of h at point t is row 1000 t + p of h. -/
theorem blk_h (c : Dev nD) (t : Fin cfg1.N) (p : Fin 1000) (k : Fin 512) (r : Fin 20000)
    (hr : r.val = t.val * 1000 + p.val) :
    iblk1 V c 0 t (ix2 p k) = (V c main_v4 : S20000x512.Idx → Elt Ideal .f32) (ix2 r k) := by
  obtain ⟨e0, e1, -⟩ := idx_facts t
  show (V c main_v4 : S20000x512.Idx → Elt Ideal .f32) (((cfg1.win 0).blk t).view.emb (ix2 p k)) = _
  refine congrArg _ (funext fun a => Fin.ext ?_)
  match a with
  | ⟨0, _⟩ => show win1_0.index t (0 : Fin 2) * 1000 + 1 * p.val = r.val; omega
  | ⟨1, _⟩ => show win1_0.index t (1 : Fin 2) * 512 + 1 * k.val = k.val; omega

/-- Row p of the block of g at point t is row 1000 t + p of g. -/
theorem blk_g (c : Dev nD) (t : Fin cfg1.N) (p : Fin 1000) (k : Fin 512) (r : Fin 20000)
    (hr : r.val = t.val * 1000 + p.val) :
    iblk1 V c 1 t (ix2 p k) = (V c main_v26 : S20000x512.Idx → Elt Ideal .f32) (ix2 r k) := by
  obtain ⟨-, -, e0, e1, -⟩ := idx_facts t
  show (V c main_v26 : S20000x512.Idx → Elt Ideal .f32) (((cfg1.win 1).blk t).view.emb (ix2 p k)) = _
  refine congrArg _ (funext fun a => Fin.ext ?_)
  match a with
  | ⟨0, _⟩ => show win1_1.index t (0 : Fin 2) * 1000 + 1 * p.val = r.val; omega
  | ⟨1, _⟩ => show win1_1.index t (1 : Fin 2) * 512 + 1 * k.val = k.val; omega

/-- Row p of the block of scales at point t is row 1000 t + p of the column of scales. -/
theorem blk_a (c : Dev nD) (t : Fin cfg1.N) (p : Fin 1000) (r : Fin 20000)
    (hr : r.val = t.val * 1000 + p.val) :
    iblk1 V c 2 t (ix2 p (0 : Fin 1)) = (V c main_v14 : S20000x1.Idx → Elt Ideal .f32) (ix2 r (0 : Fin 1)) := by
  obtain ⟨-, -, -, -, e0, e1, -⟩ := idx_facts t
  show (V c main_v14 : S20000x1.Idx → Elt Ideal .f32) (((cfg1.win 2).blk t).view.emb (ix2 p (0 : Fin 1))) = _
  refine congrArg _ (funext fun a => Fin.ext ?_)
  match a with
  | ⟨0, _⟩ => show win1_2.index t (0 : Fin 2) * 1000 + 1 * p.val = r.val; omega
  | ⟨1, _⟩ => show win1_2.index t (1 : Fin 2) * 1 + 1 * 0 = 0; omega

/-- The block of the first weight matrix is the whole matrix, at every point. -/
theorem blk_ws (c : Dev nD) (t : Fin cfg1.N) :
    iblk1 V c 3 t = (V c main_v28 : S512x512.Idx → Elt Ideal .f32) := by
  obtain ⟨-, -, -, -, -, -, e0, e1, -⟩ := idx_facts t
  funext y
  show (V c main_v28 : S512x512.Idx → Elt Ideal .f32) (((cfg1.win 3).blk t).view.emb y) = _
  refine congrArg _ (funext fun a => Fin.ext ?_)
  match a with
  | ⟨0, _⟩ => show win1_3.index t (0 : Fin 2) * 512 + 1 * (y 0).val = (y 0).val; omega
  | ⟨1, _⟩ => show win1_3.index t (1 : Fin 2) * 512 + 1 * (y 1).val = (y 1).val; omega

/-- The block of the second weight matrix is the whole matrix, at every point. -/
theorem blk_wn (c : Dev nD) (t : Fin cfg1.N) :
    iblk1 V c 4 t = (V c main_v30 : S512x512.Idx → Elt Ideal .f32) := by
  obtain ⟨-, -, -, -, -, -, -, -, e0, e1, -⟩ := idx_facts t
  funext y
  show (V c main_v30 : S512x512.Idx → Elt Ideal .f32) (((cfg1.win 4).blk t).view.emb y) = _
  refine congrArg _ (funext fun a => Fin.ext ?_)
  match a with
  | ⟨0, _⟩ => show win1_4.index t (0 : Fin 2) * 512 + 1 * (y 0).val = (y 0).val; omega
  | ⟨1, _⟩ => show win1_4.index t (1 : Fin 2) * 512 + 1 * (y 1).val = (y 1).val; omega

/-- The block of the bias is the whole bias, at every point. -/
theorem blk_b (c : Dev nD) (t : Fin cfg1.N) :
    iblk1 V c 5 t = (V c main_v32 : S512.Idx → Elt Ideal .f32) := by
  obtain ⟨-, -, -, -, -, -, -, -, -, -, e0, -⟩ := idx_facts t
  funext y
  show (V c main_v32 : S512.Idx → Elt Ideal .f32) (((cfg1.win 5).blk t).view.emb y) = _
  refine congrArg _ (funext fun a => Fin.ext ?_)
  match a with
  | ⟨0, _⟩ => show win1_5.index t (0 : Fin 1) * 512 + 1 * (y 0).val = (y 0).val; omega

/-! ## The first output: max (h · Ws + (g ∘ a) · Wn + b, 0) -/

/-- Entry (p, q) of an output block at point t is entry (1000 t + p, q) of the array. -/
theorem emb_out6 (t : Fin cfg1.N) (p : Fin 1000) (q : Fin 512) (r : Fin 20000) (hr : r.val = t.val * 1000 + p.val) :
    ((cfg1.win 6).blk t).view.emb (ix2 p q) = (ix2 r q : S20000x512.Idx) := by
  obtain ⟨-, -, -, -, -, -, -, -, -, -, -, e0, e1, -⟩ := idx_facts t
  refine funext fun a => Fin.ext ?_
  match a with
  | ⟨0, _⟩ => show win1_6.index t (0 : Fin 2) * 1000 + 1 * p.val = r.val; omega
  | ⟨1, _⟩ => show win1_6.index t (1 : Fin 2) * 512 + 1 * q.val = q.val; omega

/-- What point t writes back to the first output is its block of the whole-array combine step. -/
theorem flushed6_eq (c : Dev nD) (t : Fin cfg1.N) :
    (dat1 V c).flushed 6 t
      = ((cfg1.win 6).blk t).view.read (Elt Ideal) (combWhole (V c main_v4) (V c main_v26) (V c main_v14) (V c main_v28) (V c main_v30) (V c main_v32)) := by
  show (cfg1.win 6).cut (grid1.coords t) ((dat1 V c).after 6 t) = _
  rw [after1_6]
  unfold out1_6
  rw [View.canon_unit_zero zero2]
  simp only [View.ld_unit_zero (S := S1000x512) zero2, View.ld_unit_zero (S := S1000x1) zero2,
    View.ld_unit_zero (S := S512x512) zero2, View.ld_unit_zero (S := S512) zero1]
  rw [k1_pay1_eq]
  funext j
  obtain ⟨p, q, rfl⟩ : ∃ (p : Fin 1000) (q : Fin 512), j = ix2 p q := ⟨j 0, j 1, eq_ix2 j⟩
  have ht : t.val < 20 := (idx_facts t).2.2.2.2.2.2.2.2.2.2.2.2.2.2.2
  show combineBlock (iblk1 V c 0 t) (iblk1 V c 1 t) (iblk1 V c 2 t) (iblk1 V c 3 t) (iblk1 V c 4 t) (iblk1 V c 5 t) (ix2 p q)
    = combWhole (V c main_v4) (V c main_v26) (V c main_v14) (V c main_v28) (V c main_v30) (V c main_v32) (((cfg1.win 6).blk t).view.emb (ix2 p q))
  rw [emb_out6 t p q ⟨t.val * 1000 + p.val, by omega⟩ rfl]
  exact combineBlock_entry _ _ _ _ _ _ _ _ _ _ _ _ p q _
    (fun k => blk_h V c t p k _ rfl) (fun k => blk_g V c t p k _ rfl) (blk_a V c t p _ rfl)
    (blk_ws V c t) (blk_wn V c t) (blk_b V c t)

/-- An index of the array is in point t's block iff each coordinate is in the block's range on its axis. -/
theorem mem_blk6 (t : Fin cfg1.N) (i : S20000x512.Idx) :
    i ∈ ((cfg1.win 6).blk t).view.set ↔ ∀ a : Fin 2, win1_6.index t a * S1000x512.size a ≤ (i a).val ∧ (i a).val < win1_6.index t a * S1000x512.size a + S1000x512.size a := by
  show i ∈ ((View.whole main_v33_0).slice (win1_6.rect t)).set ↔ _
  rw [View.set_slice_whole, Rect.mem_set_unit]
  exact Iff.rfl

/-- Row r of the array lies in the block of point r / 1000: the 20 blocks cover the array. -/
theorem rows_cover6 (i : S20000x512.Idx) :
    ∃ t : Fin cfg1.N, (cfg1.win 6).flush t = true ∧ i ∈ ((cfg1.win 6).blk t).view.set := by
  have hi0 : (i 0).val < 20000 := (i 0).isLt
  have hi1 : (i 1).val < 512 := (i 1).isLt
  have hN : (i 0).val / 1000 < cfg1.N := by rw [show cfg1.N = 20 from N_1]; omega
  refine ⟨⟨(i 0).val / 1000, hN⟩, flush1_6 _, ?_⟩
  rw [mem_blk6]
  obtain ⟨-, -, -, -, -, -, -, -, -, -, -, e0, e1, -⟩ := idx_facts ⟨(i 0).val / 1000, hN⟩
  intro a
  match a with
  | ⟨0, _⟩ =>
    show win1_6.index ⟨(i 0).val / 1000, hN⟩ (0 : Fin 2) * 1000 ≤ (i 0).val
      ∧ (i 0).val < win1_6.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win1_6.index ⟨(i 0).val / 1000, hN⟩ (1 : Fin 2) * 512 ≤ (i 1).val
      ∧ (i 1).val < win1_6.index ⟨(i 0).val / 1000, hN⟩ (1 : Fin 2) * 512 + 512
    rw [e1]; omega

/-- The first output array after the region: the whole-array combine step of the region's inputs. -/
theorem final1_6 (c : Dev nD) : (dat1 V c).arrAt 6 cfg1.N
      = Cert.Gnn.comb Cert.Gnn.row512 Cert.Gnn.down512 Cert.Gnn.wit.zNC (V c main_v4)
          (mulf (V c main_v26) (Cert.Gnn.across Cert.Gnn.wit (V c main_v14))) (V c main_v28) (V c main_v30) (V c main_v32) :=
  (dat1 V c).arrAt_eq_of_cover 6 (combWhole (V c main_v4) (V c main_v26) (V c main_v14) (V c main_v28) (V c main_v30) (V c main_v32)) (fun t _ => flushed6_eq V c t) rows_cover6

/-! ## The second output: the first multiplied by the scales once more -/

/-- Entry (p, q) of an output block at point t is entry (1000 t + p, q) of the array. -/
theorem emb_out7 (t : Fin cfg1.N) (p : Fin 1000) (q : Fin 512) (r : Fin 20000) (hr : r.val = t.val * 1000 + p.val) :
    ((cfg1.win 7).blk t).view.emb (ix2 p q) = (ix2 r q : S20000x512.Idx) := by
  obtain ⟨-, -, -, -, -, -, -, -, -, -, -, -, -, e0, e1, -⟩ := idx_facts t
  refine funext fun a => Fin.ext ?_
  match a with
  | ⟨0, _⟩ => show win1_7.index t (0 : Fin 2) * 1000 + 1 * p.val = r.val; omega
  | ⟨1, _⟩ => show win1_7.index t (1 : Fin 2) * 512 + 1 * q.val = q.val; omega

/-- What point t writes back to the second output is its block of the scaled whole-array combine step. -/
theorem flushed7_eq (c : Dev nD) (t : Fin cfg1.N) :
    (dat1 V c).flushed 7 t
      = ((cfg1.win 7).blk t).view.read (Elt Ideal)
          (mulf (combWhole (V c main_v4) (V c main_v26) (V c main_v14) (V c main_v28) (V c main_v30) (V c main_v32)) (Cert.Gnn.across Cert.Gnn.wit (V c main_v14))) := by
  show (cfg1.win 7).cut (grid1.coords t) ((dat1 V c).after 7 t) = _
  rw [after1_7]
  unfold out1_7
  rw [View.canon_unit_zero zero2]
  simp only [View.ld_unit_zero (S := S1000x512) zero2, View.ld_unit_zero (S := S1000x1) zero2,
    View.ld_unit_zero (S := S512x512) zero2, View.ld_unit_zero (S := S512) zero1]
  rw [k1_pay2_eq]
  funext j
  obtain ⟨p, q, rfl⟩ : ∃ (p : Fin 1000) (q : Fin 512), j = ix2 p q := ⟨j 0, j 1, eq_ix2 j⟩
  have ht : t.val < 20 := (idx_facts t).2.2.2.2.2.2.2.2.2.2.2.2.2.2.2
  show combineBlockScaled (iblk1 V c 0 t) (iblk1 V c 1 t) (iblk1 V c 2 t) (iblk1 V c 3 t) (iblk1 V c 4 t) (iblk1 V c 5 t) (iblk1 V c 2 t) (ix2 p q)
    = mulf (combWhole (V c main_v4) (V c main_v26) (V c main_v14) (V c main_v28) (V c main_v30) (V c main_v32)) (Cert.Gnn.across Cert.Gnn.wit (V c main_v14))
        (((cfg1.win 7).blk t).view.emb (ix2 p q))
  rw [emb_out7 t p q ⟨t.val * 1000 + p.val, by omega⟩ rfl]
  exact combineBlockScaled_entry _ _ _ _ _ _ _ _ _ _ _ _ _ p q _
    (fun k => blk_h V c t p k _ rfl) (fun k => blk_g V c t p k _ rfl) (blk_a V c t p _ rfl)
    (blk_ws V c t) (blk_wn V c t) (blk_b V c t) (blk_a V c t p _ rfl)

/-- An index of the array is in point t's block iff each coordinate is in the block's range on its axis. -/
theorem mem_blk7 (t : Fin cfg1.N) (i : S20000x512.Idx) :
    i ∈ ((cfg1.win 7).blk t).view.set ↔ ∀ a : Fin 2, win1_7.index t a * S1000x512.size a ≤ (i a).val ∧ (i a).val < win1_7.index t a * S1000x512.size a + S1000x512.size a := by
  show i ∈ ((View.whole main_v33_1).slice (win1_7.rect t)).set ↔ _
  rw [View.set_slice_whole, Rect.mem_set_unit]
  exact Iff.rfl

/-- Row r of the array lies in the block of point r / 1000: the 20 blocks cover the array. -/
theorem rows_cover7 (i : S20000x512.Idx) :
    ∃ t : Fin cfg1.N, (cfg1.win 7).flush t = true ∧ i ∈ ((cfg1.win 7).blk t).view.set := by
  have hi0 : (i 0).val < 20000 := (i 0).isLt
  have hi1 : (i 1).val < 512 := (i 1).isLt
  have hN : (i 0).val / 1000 < cfg1.N := by rw [show cfg1.N = 20 from N_1]; omega
  refine ⟨⟨(i 0).val / 1000, hN⟩, flush1_7 _, ?_⟩
  rw [mem_blk7]
  obtain ⟨-, -, -, -, -, -, -, -, -, -, -, -, -, e0, e1, -⟩ := idx_facts ⟨(i 0).val / 1000, hN⟩
  intro a
  match a with
  | ⟨0, _⟩ =>
    show win1_7.index ⟨(i 0).val / 1000, hN⟩ (0 : Fin 2) * 1000 ≤ (i 0).val
      ∧ (i 0).val < win1_7.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win1_7.index ⟨(i 0).val / 1000, hN⟩ (1 : Fin 2) * 512 ≤ (i 1).val
      ∧ (i 1).val < win1_7.index ⟨(i 0).val / 1000, hN⟩ (1 : Fin 2) * 512 + 512
    rw [e1]; omega

/-- The second output array after the region: the whole-array combine step multiplied by the scales once more. -/
theorem final1_7 (c : Dev nD) : (dat1 V c).arrAt 7 cfg1.N
      = mulf (Cert.Gnn.comb Cert.Gnn.row512 Cert.Gnn.down512 Cert.Gnn.wit.zNC (V c main_v4)
          (mulf (V c main_v26) (Cert.Gnn.across Cert.Gnn.wit (V c main_v14))) (V c main_v28) (V c main_v30) (V c main_v32))
        (Cert.Gnn.across Cert.Gnn.wit (V c main_v14)) :=
  (dat1 V c).arrAt_eq_of_cover 7
    (mulf (combWhole (V c main_v4) (V c main_v26) (V c main_v14) (V c main_v28) (V c main_v30) (V c main_v32)) (Cert.Gnn.across Cert.Gnn.wit (V c main_v14)))
    (fun t _ => flushed7_eq V c t) rows_cover7

end Cert.KernelIdeal.Region1

end
-- ==== Proof.Region2.lean ====
/-
  Combine region 2: after the region, each of its two output arrays is one function of the region's input arrays.

  The region runs the combine step on 20 blocks of 1000 rows.  At grid point t the windows over the node features
  h [20000, 512], the aggregated features g [20000, 512], the column of scales a [20000, 1] and the two outputs hold
  rows 1000 t … 1000 t + 999 of their arrays: row p of a block is row 1000 t + p of the array, and the columns are
  not cut.  The windows over the two weight matrices [512, 512] and the bias [512] hold the whole arrays at every point.

  Entry (p, q) of the block's result reads row p of the blocks of h, g and a, column q of the weights and entry q of the
  bias, because an entry of a matrix product reads one row of the left factor: a block of rows of a product is the
  product of that block of rows (CombineBody.combineBlock_entry).  So what point t writes back is rows
  1000 t … 1000 t + 999 of the whole-array result max (h · Ws + (g ∘ a) · Wn + b, 0), and of that result multiplied
  by the scales once more for the second output.  Row r of the array lies in the block of point r / 1000, so the 20
  blocks cover the array, and the array ends holding the whole-array result.
-/
import proofs.«141197_j52450140618855_2_alg».proof.Proof.Gen.KernelIdeal.Frame
import proofs.«141197_j52450140618855_2_alg».proof.Proof.Spec
import proofs.«141197_j52450140618855_2_alg».proof.Proof.CombineBody
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.CombineBody

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The index maps over the grid: the row-tiled windows sit at block (t, 0), the weights and the bias at block 0, and
    there are 20 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0
    ∧ win2_7.index t (0 : Fin 2) = t.val ∧ win2_7.index t (1 : Fin 2) = 0
    ∧ t.val < 20 :=
  (by decide +kernel : ∀ t : Fin grid2.N, _)

/-! ## The blocks read off the arrays -/

/-- Row p of the block of h at point t is row 1000 t + p of h. -/
theorem blk_h (c : Dev nD) (t : Fin cfg2.N) (p : Fin 1000) (k : Fin 512) (r : Fin 20000)
    (hr : r.val = t.val * 1000 + p.val) :
    iblk2 V c 0 t (ix2 p k) = (V c main_v33_0 : S20000x512.Idx → Elt Ideal .f32) (ix2 r k) := by
  obtain ⟨e0, e1, -⟩ := idx_facts t
  show (V c main_v33_0 : S20000x512.Idx → Elt Ideal .f32) (((cfg2.win 0).blk t).view.emb (ix2 p k)) = _
  refine congrArg _ (funext fun a => Fin.ext ?_)
  match a with
  | ⟨0, _⟩ => show win2_0.index t (0 : Fin 2) * 1000 + 1 * p.val = r.val; omega
  | ⟨1, _⟩ => show win2_0.index t (1 : Fin 2) * 512 + 1 * k.val = k.val; omega

/-- Row p of the block of g at point t is row 1000 t + p of g. -/
theorem blk_g (c : Dev nD) (t : Fin cfg2.N) (p : Fin 1000) (k : Fin 512) (r : Fin 20000)
    (hr : r.val = t.val * 1000 + p.val) :
    iblk2 V c 1 t (ix2 p k) = (V c main_v43 : S20000x512.Idx → Elt Ideal .f32) (ix2 r k) := by
  obtain ⟨-, -, e0, e1, -⟩ := idx_facts t
  show (V c main_v43 : S20000x512.Idx → Elt Ideal .f32) (((cfg2.win 1).blk t).view.emb (ix2 p k)) = _
  refine congrArg _ (funext fun a => Fin.ext ?_)
  match a with
  | ⟨0, _⟩ => show win2_1.index t (0 : Fin 2) * 1000 + 1 * p.val = r.val; omega
  | ⟨1, _⟩ => show win2_1.index t (1 : Fin 2) * 512 + 1 * k.val = k.val; omega

/-- Row p of the block of scales at point t is row 1000 t + p of the column of scales. -/
theorem blk_a (c : Dev nD) (t : Fin cfg2.N) (p : Fin 1000) (r : Fin 20000)
    (hr : r.val = t.val * 1000 + p.val) :
    iblk2 V c 2 t (ix2 p (0 : Fin 1)) = (V c main_v14 : S20000x1.Idx → Elt Ideal .f32) (ix2 r (0 : Fin 1)) := by
  obtain ⟨-, -, -, -, e0, e1, -⟩ := idx_facts t
  show (V c main_v14 : S20000x1.Idx → Elt Ideal .f32) (((cfg2.win 2).blk t).view.emb (ix2 p (0 : Fin 1))) = _
  refine congrArg _ (funext fun a => Fin.ext ?_)
  match a with
  | ⟨0, _⟩ => show win2_2.index t (0 : Fin 2) * 1000 + 1 * p.val = r.val; omega
  | ⟨1, _⟩ => show win2_2.index t (1 : Fin 2) * 1 + 1 * 0 = 0; omega

/-- The block of the first weight matrix is the whole matrix, at every point. -/
theorem blk_ws (c : Dev nD) (t : Fin cfg2.N) :
    iblk2 V c 3 t = (V c main_v45 : S512x512.Idx → Elt Ideal .f32) := by
  obtain ⟨-, -, -, -, -, -, e0, e1, -⟩ := idx_facts t
  funext y
  show (V c main_v45 : S512x512.Idx → Elt Ideal .f32) (((cfg2.win 3).blk t).view.emb y) = _
  refine congrArg _ (funext fun a => Fin.ext ?_)
  match a with
  | ⟨0, _⟩ => show win2_3.index t (0 : Fin 2) * 512 + 1 * (y 0).val = (y 0).val; omega
  | ⟨1, _⟩ => show win2_3.index t (1 : Fin 2) * 512 + 1 * (y 1).val = (y 1).val; omega

/-- The block of the second weight matrix is the whole matrix, at every point. -/
theorem blk_wn (c : Dev nD) (t : Fin cfg2.N) :
    iblk2 V c 4 t = (V c main_v47 : S512x512.Idx → Elt Ideal .f32) := by
  obtain ⟨-, -, -, -, -, -, -, -, e0, e1, -⟩ := idx_facts t
  funext y
  show (V c main_v47 : S512x512.Idx → Elt Ideal .f32) (((cfg2.win 4).blk t).view.emb y) = _
  refine congrArg _ (funext fun a => Fin.ext ?_)
  match a with
  | ⟨0, _⟩ => show win2_4.index t (0 : Fin 2) * 512 + 1 * (y 0).val = (y 0).val; omega
  | ⟨1, _⟩ => show win2_4.index t (1 : Fin 2) * 512 + 1 * (y 1).val = (y 1).val; omega

/-- The block of the bias is the whole bias, at every point. -/
theorem blk_b (c : Dev nD) (t : Fin cfg2.N) :
    iblk2 V c 5 t = (V c main_v49 : S512.Idx → Elt Ideal .f32) := by
  obtain ⟨-, -, -, -, -, -, -, -, -, -, e0, -⟩ := idx_facts t
  funext y
  show (V c main_v49 : S512.Idx → Elt Ideal .f32) (((cfg2.win 5).blk t).view.emb y) = _
  refine congrArg _ (funext fun a => Fin.ext ?_)
  match a with
  | ⟨0, _⟩ => show win2_5.index t (0 : Fin 1) * 512 + 1 * (y 0).val = (y 0).val; omega

/-! ## The first output: max (h · Ws + (g ∘ a) · Wn + b, 0) -/

/-- Entry (p, q) of an output block at point t is entry (1000 t + p, q) of the array. -/
theorem emb_out6 (t : Fin cfg2.N) (p : Fin 1000) (q : Fin 512) (r : Fin 20000) (hr : r.val = t.val * 1000 + p.val) :
    ((cfg2.win 6).blk t).view.emb (ix2 p q) = (ix2 r q : S20000x512.Idx) := by
  obtain ⟨-, -, -, -, -, -, -, -, -, -, -, e0, e1, -⟩ := idx_facts t
  refine funext fun a => Fin.ext ?_
  match a with
  | ⟨0, _⟩ => show win2_6.index t (0 : Fin 2) * 1000 + 1 * p.val = r.val; omega
  | ⟨1, _⟩ => show win2_6.index t (1 : Fin 2) * 512 + 1 * q.val = q.val; omega

/-- What point t writes back to the first output is its block of the whole-array combine step. -/
theorem flushed6_eq (c : Dev nD) (t : Fin cfg2.N) :
    (dat2 V c).flushed 6 t
      = ((cfg2.win 6).blk t).view.read (Elt Ideal) (combWhole (V c main_v33_0) (V c main_v43) (V c main_v14) (V c main_v45) (V c main_v47) (V c main_v49)) := by
  show (cfg2.win 6).cut (grid2.coords t) ((dat2 V c).after 6 t) = _
  rw [after2_6]
  unfold out2_6
  rw [View.canon_unit_zero zero2]
  simp only [View.ld_unit_zero (S := S1000x512) zero2, View.ld_unit_zero (S := S1000x1) zero2,
    View.ld_unit_zero (S := S512x512) zero2, View.ld_unit_zero (S := S512) zero1]
  rw [k2_pay1_eq]
  funext j
  obtain ⟨p, q, rfl⟩ : ∃ (p : Fin 1000) (q : Fin 512), j = ix2 p q := ⟨j 0, j 1, eq_ix2 j⟩
  have ht : t.val < 20 := (idx_facts t).2.2.2.2.2.2.2.2.2.2.2.2.2.2.2
  show combineBlock (iblk2 V c 0 t) (iblk2 V c 1 t) (iblk2 V c 2 t) (iblk2 V c 3 t) (iblk2 V c 4 t) (iblk2 V c 5 t) (ix2 p q)
    = combWhole (V c main_v33_0) (V c main_v43) (V c main_v14) (V c main_v45) (V c main_v47) (V c main_v49) (((cfg2.win 6).blk t).view.emb (ix2 p q))
  rw [emb_out6 t p q ⟨t.val * 1000 + p.val, by omega⟩ rfl]
  exact combineBlock_entry _ _ _ _ _ _ _ _ _ _ _ _ p q _
    (fun k => blk_h V c t p k _ rfl) (fun k => blk_g V c t p k _ rfl) (blk_a V c t p _ rfl)
    (blk_ws V c t) (blk_wn V c t) (blk_b V c t)

/-- An index of the array is in point t's block iff each coordinate is in the block's range on its axis. -/
theorem mem_blk6 (t : Fin cfg2.N) (i : S20000x512.Idx) :
    i ∈ ((cfg2.win 6).blk t).view.set ↔ ∀ a : Fin 2, win2_6.index t a * S1000x512.size a ≤ (i a).val ∧ (i a).val < win2_6.index t a * S1000x512.size a + S1000x512.size a := by
  show i ∈ ((View.whole main_v50_0).slice (win2_6.rect t)).set ↔ _
  rw [View.set_slice_whole, Rect.mem_set_unit]
  exact Iff.rfl

/-- Row r of the array lies in the block of point r / 1000: the 20 blocks cover the array. -/
theorem rows_cover6 (i : S20000x512.Idx) :
    ∃ t : Fin cfg2.N, (cfg2.win 6).flush t = true ∧ i ∈ ((cfg2.win 6).blk t).view.set := by
  have hi0 : (i 0).val < 20000 := (i 0).isLt
  have hi1 : (i 1).val < 512 := (i 1).isLt
  have hN : (i 0).val / 1000 < cfg2.N := by rw [show cfg2.N = 20 from N_2]; omega
  refine ⟨⟨(i 0).val / 1000, hN⟩, flush2_6 _, ?_⟩
  rw [mem_blk6]
  obtain ⟨-, -, -, -, -, -, -, -, -, -, -, e0, e1, -⟩ := idx_facts ⟨(i 0).val / 1000, hN⟩
  intro a
  match a with
  | ⟨0, _⟩ =>
    show win2_6.index ⟨(i 0).val / 1000, hN⟩ (0 : Fin 2) * 1000 ≤ (i 0).val
      ∧ (i 0).val < win2_6.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win2_6.index ⟨(i 0).val / 1000, hN⟩ (1 : Fin 2) * 512 ≤ (i 1).val
      ∧ (i 1).val < win2_6.index ⟨(i 0).val / 1000, hN⟩ (1 : Fin 2) * 512 + 512
    rw [e1]; omega

/-- The first output array after the region: the whole-array combine step of the region's inputs. -/
theorem final2_6 (c : Dev nD) : (dat2 V c).arrAt 6 cfg2.N
      = Cert.Gnn.comb Cert.Gnn.row512 Cert.Gnn.down512 Cert.Gnn.wit.zNC (V c main_v33_0)
          (mulf (V c main_v43) (Cert.Gnn.across Cert.Gnn.wit (V c main_v14))) (V c main_v45) (V c main_v47) (V c main_v49) :=
  (dat2 V c).arrAt_eq_of_cover 6 (combWhole (V c main_v33_0) (V c main_v43) (V c main_v14) (V c main_v45) (V c main_v47) (V c main_v49)) (fun t _ => flushed6_eq V c t) rows_cover6

/-! ## The second output: the first multiplied by the scales once more -/

/-- Entry (p, q) of an output block at point t is entry (1000 t + p, q) of the array. -/
theorem emb_out7 (t : Fin cfg2.N) (p : Fin 1000) (q : Fin 512) (r : Fin 20000) (hr : r.val = t.val * 1000 + p.val) :
    ((cfg2.win 7).blk t).view.emb (ix2 p q) = (ix2 r q : S20000x512.Idx) := by
  obtain ⟨-, -, -, -, -, -, -, -, -, -, -, -, -, e0, e1, -⟩ := idx_facts t
  refine funext fun a => Fin.ext ?_
  match a with
  | ⟨0, _⟩ => show win2_7.index t (0 : Fin 2) * 1000 + 1 * p.val = r.val; omega
  | ⟨1, _⟩ => show win2_7.index t (1 : Fin 2) * 512 + 1 * q.val = q.val; omega

/-- What point t writes back to the second output is its block of the scaled whole-array combine step. -/
theorem flushed7_eq (c : Dev nD) (t : Fin cfg2.N) :
    (dat2 V c).flushed 7 t
      = ((cfg2.win 7).blk t).view.read (Elt Ideal)
          (mulf (combWhole (V c main_v33_0) (V c main_v43) (V c main_v14) (V c main_v45) (V c main_v47) (V c main_v49)) (Cert.Gnn.across Cert.Gnn.wit (V c main_v14))) := by
  show (cfg2.win 7).cut (grid2.coords t) ((dat2 V c).after 7 t) = _
  rw [after2_7]
  unfold out2_7
  rw [View.canon_unit_zero zero2]
  simp only [View.ld_unit_zero (S := S1000x512) zero2, View.ld_unit_zero (S := S1000x1) zero2,
    View.ld_unit_zero (S := S512x512) zero2, View.ld_unit_zero (S := S512) zero1]
  rw [k2_pay2_eq]
  funext j
  obtain ⟨p, q, rfl⟩ : ∃ (p : Fin 1000) (q : Fin 512), j = ix2 p q := ⟨j 0, j 1, eq_ix2 j⟩
  have ht : t.val < 20 := (idx_facts t).2.2.2.2.2.2.2.2.2.2.2.2.2.2.2
  show combineBlockScaled (iblk2 V c 0 t) (iblk2 V c 1 t) (iblk2 V c 2 t) (iblk2 V c 3 t) (iblk2 V c 4 t) (iblk2 V c 5 t) (iblk2 V c 2 t) (ix2 p q)
    = mulf (combWhole (V c main_v33_0) (V c main_v43) (V c main_v14) (V c main_v45) (V c main_v47) (V c main_v49)) (Cert.Gnn.across Cert.Gnn.wit (V c main_v14))
        (((cfg2.win 7).blk t).view.emb (ix2 p q))
  rw [emb_out7 t p q ⟨t.val * 1000 + p.val, by omega⟩ rfl]
  exact combineBlockScaled_entry _ _ _ _ _ _ _ _ _ _ _ _ _ p q _
    (fun k => blk_h V c t p k _ rfl) (fun k => blk_g V c t p k _ rfl) (blk_a V c t p _ rfl)
    (blk_ws V c t) (blk_wn V c t) (blk_b V c t) (blk_a V c t p _ rfl)

/-- An index of the array is in point t's block iff each coordinate is in the block's range on its axis. -/
theorem mem_blk7 (t : Fin cfg2.N) (i : S20000x512.Idx) :
    i ∈ ((cfg2.win 7).blk t).view.set ↔ ∀ a : Fin 2, win2_7.index t a * S1000x512.size a ≤ (i a).val ∧ (i a).val < win2_7.index t a * S1000x512.size a + S1000x512.size a := by
  show i ∈ ((View.whole main_v50_1).slice (win2_7.rect t)).set ↔ _
  rw [View.set_slice_whole, Rect.mem_set_unit]
  exact Iff.rfl

/-- Row r of the array lies in the block of point r / 1000: the 20 blocks cover the array. -/
theorem rows_cover7 (i : S20000x512.Idx) :
    ∃ t : Fin cfg2.N, (cfg2.win 7).flush t = true ∧ i ∈ ((cfg2.win 7).blk t).view.set := by
  have hi0 : (i 0).val < 20000 := (i 0).isLt
  have hi1 : (i 1).val < 512 := (i 1).isLt
  have hN : (i 0).val / 1000 < cfg2.N := by rw [show cfg2.N = 20 from N_2]; omega
  refine ⟨⟨(i 0).val / 1000, hN⟩, flush2_7 _, ?_⟩
  rw [mem_blk7]
  obtain ⟨-, -, -, -, -, -, -, -, -, -, -, -, -, e0, e1, -⟩ := idx_facts ⟨(i 0).val / 1000, hN⟩
  intro a
  match a with
  | ⟨0, _⟩ =>
    show win2_7.index ⟨(i 0).val / 1000, hN⟩ (0 : Fin 2) * 1000 ≤ (i 0).val
      ∧ (i 0).val < win2_7.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win2_7.index ⟨(i 0).val / 1000, hN⟩ (1 : Fin 2) * 512 ≤ (i 1).val
      ∧ (i 1).val < win2_7.index ⟨(i 0).val / 1000, hN⟩ (1 : Fin 2) * 512 + 512
    rw [e1]; omega

/-- The second output array after the region: the whole-array combine step multiplied by the scales once more. -/
theorem final2_7 (c : Dev nD) : (dat2 V c).arrAt 7 cfg2.N
      = mulf (Cert.Gnn.comb Cert.Gnn.row512 Cert.Gnn.down512 Cert.Gnn.wit.zNC (V c main_v33_0)
          (mulf (V c main_v43) (Cert.Gnn.across Cert.Gnn.wit (V c main_v14))) (V c main_v45) (V c main_v47) (V c main_v49))
        (Cert.Gnn.across Cert.Gnn.wit (V c main_v14)) :=
  (dat2 V c).arrAt_eq_of_cover 7
    (mulf (combWhole (V c main_v33_0) (V c main_v43) (V c main_v14) (V c main_v45) (V c main_v47) (V c main_v49)) (Cert.Gnn.across Cert.Gnn.wit (V c main_v14)))
    (fun t _ => flushed7_eq V c t) rows_cover7

end Cert.KernelIdeal.Region2

end
-- ==== Proof.Region3.lean ====
/-
  Combine region 3: after the region, each of its two output arrays is one function of the region's input arrays.

  The region runs the combine step on 20 blocks of 1000 rows.  At grid point t the windows over the node features
  h [20000, 512], the aggregated features g [20000, 512], the column of scales a [20000, 1] and the two outputs hold
  rows 1000 t … 1000 t + 999 of their arrays: row p of a block is row 1000 t + p of the array, and the columns are
  not cut.  The windows over the two weight matrices [512, 512] and the bias [512] hold the whole arrays at every point.

  Entry (p, q) of the block's result reads row p of the blocks of h, g and a, column q of the weights and entry q of the
  bias, because an entry of a matrix product reads one row of the left factor: a block of rows of a product is the
  product of that block of rows (CombineBody.combineBlock_entry).  So what point t writes back is rows
  1000 t … 1000 t + 999 of the whole-array result max (h · Ws + (g ∘ a) · Wn + b, 0), and of that result multiplied
  by the scales once more for the second output.  Row r of the array lies in the block of point r / 1000, so the 20
  blocks cover the array, and the array ends holding the whole-array result.
-/
import proofs.«141197_j52450140618855_2_alg».proof.Proof.Gen.KernelIdeal.Frame
import proofs.«141197_j52450140618855_2_alg».proof.Proof.Spec
import proofs.«141197_j52450140618855_2_alg».proof.Proof.CombineBody
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.CombineBody

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The index maps over the grid: the row-tiled windows sit at block (t, 0), the weights and the bias at block 0, and
    there are 20 points. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0
    ∧ win3_7.index t (0 : Fin 2) = t.val ∧ win3_7.index t (1 : Fin 2) = 0
    ∧ t.val < 20 :=
  (by decide +kernel : ∀ t : Fin grid3.N, _)

/-! ## The blocks read off the arrays -/

/-- Row p of the block of h at point t is row 1000 t + p of h. -/
theorem blk_h (c : Dev nD) (t : Fin cfg3.N) (p : Fin 1000) (k : Fin 512) (r : Fin 20000)
    (hr : r.val = t.val * 1000 + p.val) :
    iblk3 V c 0 t (ix2 p k) = (V c main_v50_0 : S20000x512.Idx → Elt Ideal .f32) (ix2 r k) := by
  obtain ⟨e0, e1, -⟩ := idx_facts t
  show (V c main_v50_0 : S20000x512.Idx → Elt Ideal .f32) (((cfg3.win 0).blk t).view.emb (ix2 p k)) = _
  refine congrArg _ (funext fun a => Fin.ext ?_)
  match a with
  | ⟨0, _⟩ => show win3_0.index t (0 : Fin 2) * 1000 + 1 * p.val = r.val; omega
  | ⟨1, _⟩ => show win3_0.index t (1 : Fin 2) * 512 + 1 * k.val = k.val; omega

/-- Row p of the block of g at point t is row 1000 t + p of g. -/
theorem blk_g (c : Dev nD) (t : Fin cfg3.N) (p : Fin 1000) (k : Fin 512) (r : Fin 20000)
    (hr : r.val = t.val * 1000 + p.val) :
    iblk3 V c 1 t (ix2 p k) = (V c main_v60 : S20000x512.Idx → Elt Ideal .f32) (ix2 r k) := by
  obtain ⟨-, -, e0, e1, -⟩ := idx_facts t
  show (V c main_v60 : S20000x512.Idx → Elt Ideal .f32) (((cfg3.win 1).blk t).view.emb (ix2 p k)) = _
  refine congrArg _ (funext fun a => Fin.ext ?_)
  match a with
  | ⟨0, _⟩ => show win3_1.index t (0 : Fin 2) * 1000 + 1 * p.val = r.val; omega
  | ⟨1, _⟩ => show win3_1.index t (1 : Fin 2) * 512 + 1 * k.val = k.val; omega

/-- Row p of the block of scales at point t is row 1000 t + p of the column of scales. -/
theorem blk_a (c : Dev nD) (t : Fin cfg3.N) (p : Fin 1000) (r : Fin 20000)
    (hr : r.val = t.val * 1000 + p.val) :
    iblk3 V c 2 t (ix2 p (0 : Fin 1)) = (V c main_v14 : S20000x1.Idx → Elt Ideal .f32) (ix2 r (0 : Fin 1)) := by
  obtain ⟨-, -, -, -, e0, e1, -⟩ := idx_facts t
  show (V c main_v14 : S20000x1.Idx → Elt Ideal .f32) (((cfg3.win 2).blk t).view.emb (ix2 p (0 : Fin 1))) = _
  refine congrArg _ (funext fun a => Fin.ext ?_)
  match a with
  | ⟨0, _⟩ => show win3_2.index t (0 : Fin 2) * 1000 + 1 * p.val = r.val; omega
  | ⟨1, _⟩ => show win3_2.index t (1 : Fin 2) * 1 + 1 * 0 = 0; omega

/-- The block of the first weight matrix is the whole matrix, at every point. -/
theorem blk_ws (c : Dev nD) (t : Fin cfg3.N) :
    iblk3 V c 3 t = (V c main_v62 : S512x512.Idx → Elt Ideal .f32) := by
  obtain ⟨-, -, -, -, -, -, e0, e1, -⟩ := idx_facts t
  funext y
  show (V c main_v62 : S512x512.Idx → Elt Ideal .f32) (((cfg3.win 3).blk t).view.emb y) = _
  refine congrArg _ (funext fun a => Fin.ext ?_)
  match a with
  | ⟨0, _⟩ => show win3_3.index t (0 : Fin 2) * 512 + 1 * (y 0).val = (y 0).val; omega
  | ⟨1, _⟩ => show win3_3.index t (1 : Fin 2) * 512 + 1 * (y 1).val = (y 1).val; omega

/-- The block of the second weight matrix is the whole matrix, at every point. -/
theorem blk_wn (c : Dev nD) (t : Fin cfg3.N) :
    iblk3 V c 4 t = (V c main_v64 : S512x512.Idx → Elt Ideal .f32) := by
  obtain ⟨-, -, -, -, -, -, -, -, e0, e1, -⟩ := idx_facts t
  funext y
  show (V c main_v64 : S512x512.Idx → Elt Ideal .f32) (((cfg3.win 4).blk t).view.emb y) = _
  refine congrArg _ (funext fun a => Fin.ext ?_)
  match a with
  | ⟨0, _⟩ => show win3_4.index t (0 : Fin 2) * 512 + 1 * (y 0).val = (y 0).val; omega
  | ⟨1, _⟩ => show win3_4.index t (1 : Fin 2) * 512 + 1 * (y 1).val = (y 1).val; omega

/-- The block of the bias is the whole bias, at every point. -/
theorem blk_b (c : Dev nD) (t : Fin cfg3.N) :
    iblk3 V c 5 t = (V c main_v66 : S512.Idx → Elt Ideal .f32) := by
  obtain ⟨-, -, -, -, -, -, -, -, -, -, e0, -⟩ := idx_facts t
  funext y
  show (V c main_v66 : S512.Idx → Elt Ideal .f32) (((cfg3.win 5).blk t).view.emb y) = _
  refine congrArg _ (funext fun a => Fin.ext ?_)
  match a with
  | ⟨0, _⟩ => show win3_5.index t (0 : Fin 1) * 512 + 1 * (y 0).val = (y 0).val; omega

/-! ## The first output: max (h · Ws + (g ∘ a) · Wn + b, 0) -/

/-- Entry (p, q) of an output block at point t is entry (1000 t + p, q) of the array. -/
theorem emb_out6 (t : Fin cfg3.N) (p : Fin 1000) (q : Fin 512) (r : Fin 20000) (hr : r.val = t.val * 1000 + p.val) :
    ((cfg3.win 6).blk t).view.emb (ix2 p q) = (ix2 r q : S20000x512.Idx) := by
  obtain ⟨-, -, -, -, -, -, -, -, -, -, -, e0, e1, -⟩ := idx_facts t
  refine funext fun a => Fin.ext ?_
  match a with
  | ⟨0, _⟩ => show win3_6.index t (0 : Fin 2) * 1000 + 1 * p.val = r.val; omega
  | ⟨1, _⟩ => show win3_6.index t (1 : Fin 2) * 512 + 1 * q.val = q.val; omega

/-- What point t writes back to the first output is its block of the whole-array combine step. -/
theorem flushed6_eq (c : Dev nD) (t : Fin cfg3.N) :
    (dat3 V c).flushed 6 t
      = ((cfg3.win 6).blk t).view.read (Elt Ideal) (combWhole (V c main_v50_0) (V c main_v60) (V c main_v14) (V c main_v62) (V c main_v64) (V c main_v66)) := by
  show (cfg3.win 6).cut (grid3.coords t) ((dat3 V c).after 6 t) = _
  rw [after3_6]
  unfold out3_6
  rw [View.canon_unit_zero zero2]
  simp only [View.ld_unit_zero (S := S1000x512) zero2, View.ld_unit_zero (S := S1000x1) zero2,
    View.ld_unit_zero (S := S512x512) zero2, View.ld_unit_zero (S := S512) zero1]
  rw [k3_pay1_eq]
  funext j
  obtain ⟨p, q, rfl⟩ : ∃ (p : Fin 1000) (q : Fin 512), j = ix2 p q := ⟨j 0, j 1, eq_ix2 j⟩
  have ht : t.val < 20 := (idx_facts t).2.2.2.2.2.2.2.2.2.2.2.2.2.2.2
  show combineBlock (iblk3 V c 0 t) (iblk3 V c 1 t) (iblk3 V c 2 t) (iblk3 V c 3 t) (iblk3 V c 4 t) (iblk3 V c 5 t) (ix2 p q)
    = combWhole (V c main_v50_0) (V c main_v60) (V c main_v14) (V c main_v62) (V c main_v64) (V c main_v66) (((cfg3.win 6).blk t).view.emb (ix2 p q))
  rw [emb_out6 t p q ⟨t.val * 1000 + p.val, by omega⟩ rfl]
  exact combineBlock_entry _ _ _ _ _ _ _ _ _ _ _ _ p q _
    (fun k => blk_h V c t p k _ rfl) (fun k => blk_g V c t p k _ rfl) (blk_a V c t p _ rfl)
    (blk_ws V c t) (blk_wn V c t) (blk_b V c t)

/-- An index of the array is in point t's block iff each coordinate is in the block's range on its axis. -/
theorem mem_blk6 (t : Fin cfg3.N) (i : S20000x512.Idx) :
    i ∈ ((cfg3.win 6).blk t).view.set ↔ ∀ a : Fin 2, win3_6.index t a * S1000x512.size a ≤ (i a).val ∧ (i a).val < win3_6.index t a * S1000x512.size a + S1000x512.size a := by
  show i ∈ ((View.whole main_v67_0).slice (win3_6.rect t)).set ↔ _
  rw [View.set_slice_whole, Rect.mem_set_unit]
  exact Iff.rfl

/-- Row r of the array lies in the block of point r / 1000: the 20 blocks cover the array. -/
theorem rows_cover6 (i : S20000x512.Idx) :
    ∃ t : Fin cfg3.N, (cfg3.win 6).flush t = true ∧ i ∈ ((cfg3.win 6).blk t).view.set := by
  have hi0 : (i 0).val < 20000 := (i 0).isLt
  have hi1 : (i 1).val < 512 := (i 1).isLt
  have hN : (i 0).val / 1000 < cfg3.N := by rw [show cfg3.N = 20 from N_3]; omega
  refine ⟨⟨(i 0).val / 1000, hN⟩, flush3_6 _, ?_⟩
  rw [mem_blk6]
  obtain ⟨-, -, -, -, -, -, -, -, -, -, -, e0, e1, -⟩ := idx_facts ⟨(i 0).val / 1000, hN⟩
  intro a
  match a with
  | ⟨0, _⟩ =>
    show win3_6.index ⟨(i 0).val / 1000, hN⟩ (0 : Fin 2) * 1000 ≤ (i 0).val
      ∧ (i 0).val < win3_6.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win3_6.index ⟨(i 0).val / 1000, hN⟩ (1 : Fin 2) * 512 ≤ (i 1).val
      ∧ (i 1).val < win3_6.index ⟨(i 0).val / 1000, hN⟩ (1 : Fin 2) * 512 + 512
    rw [e1]; omega

/-- The first output array after the region: the whole-array combine step of the region's inputs. -/
theorem final3_6 (c : Dev nD) : (dat3 V c).arrAt 6 cfg3.N
      = Cert.Gnn.comb Cert.Gnn.row512 Cert.Gnn.down512 Cert.Gnn.wit.zNC (V c main_v50_0)
          (mulf (V c main_v60) (Cert.Gnn.across Cert.Gnn.wit (V c main_v14))) (V c main_v62) (V c main_v64) (V c main_v66) :=
  (dat3 V c).arrAt_eq_of_cover 6 (combWhole (V c main_v50_0) (V c main_v60) (V c main_v14) (V c main_v62) (V c main_v64) (V c main_v66)) (fun t _ => flushed6_eq V c t) rows_cover6

/-! ## The second output: the first multiplied by the scales once more -/

/-- Entry (p, q) of an output block at point t is entry (1000 t + p, q) of the array. -/
theorem emb_out7 (t : Fin cfg3.N) (p : Fin 1000) (q : Fin 512) (r : Fin 20000) (hr : r.val = t.val * 1000 + p.val) :
    ((cfg3.win 7).blk t).view.emb (ix2 p q) = (ix2 r q : S20000x512.Idx) := by
  obtain ⟨-, -, -, -, -, -, -, -, -, -, -, -, -, e0, e1, -⟩ := idx_facts t
  refine funext fun a => Fin.ext ?_
  match a with
  | ⟨0, _⟩ => show win3_7.index t (0 : Fin 2) * 1000 + 1 * p.val = r.val; omega
  | ⟨1, _⟩ => show win3_7.index t (1 : Fin 2) * 512 + 1 * q.val = q.val; omega

/-- What point t writes back to the second output is its block of the scaled whole-array combine step. -/
theorem flushed7_eq (c : Dev nD) (t : Fin cfg3.N) :
    (dat3 V c).flushed 7 t
      = ((cfg3.win 7).blk t).view.read (Elt Ideal)
          (mulf (combWhole (V c main_v50_0) (V c main_v60) (V c main_v14) (V c main_v62) (V c main_v64) (V c main_v66)) (Cert.Gnn.across Cert.Gnn.wit (V c main_v14))) := by
  show (cfg3.win 7).cut (grid3.coords t) ((dat3 V c).after 7 t) = _
  rw [after3_7]
  unfold out3_7
  rw [View.canon_unit_zero zero2]
  simp only [View.ld_unit_zero (S := S1000x512) zero2, View.ld_unit_zero (S := S1000x1) zero2,
    View.ld_unit_zero (S := S512x512) zero2, View.ld_unit_zero (S := S512) zero1]
  rw [k3_pay2_eq]
  funext j
  obtain ⟨p, q, rfl⟩ : ∃ (p : Fin 1000) (q : Fin 512), j = ix2 p q := ⟨j 0, j 1, eq_ix2 j⟩
  have ht : t.val < 20 := (idx_facts t).2.2.2.2.2.2.2.2.2.2.2.2.2.2.2
  show combineBlockScaled (iblk3 V c 0 t) (iblk3 V c 1 t) (iblk3 V c 2 t) (iblk3 V c 3 t) (iblk3 V c 4 t) (iblk3 V c 5 t) (iblk3 V c 2 t) (ix2 p q)
    = mulf (combWhole (V c main_v50_0) (V c main_v60) (V c main_v14) (V c main_v62) (V c main_v64) (V c main_v66)) (Cert.Gnn.across Cert.Gnn.wit (V c main_v14))
        (((cfg3.win 7).blk t).view.emb (ix2 p q))
  rw [emb_out7 t p q ⟨t.val * 1000 + p.val, by omega⟩ rfl]
  exact combineBlockScaled_entry _ _ _ _ _ _ _ _ _ _ _ _ _ p q _
    (fun k => blk_h V c t p k _ rfl) (fun k => blk_g V c t p k _ rfl) (blk_a V c t p _ rfl)
    (blk_ws V c t) (blk_wn V c t) (blk_b V c t) (blk_a V c t p _ rfl)

/-- An index of the array is in point t's block iff each coordinate is in the block's range on its axis. -/
theorem mem_blk7 (t : Fin cfg3.N) (i : S20000x512.Idx) :
    i ∈ ((cfg3.win 7).blk t).view.set ↔ ∀ a : Fin 2, win3_7.index t a * S1000x512.size a ≤ (i a).val ∧ (i a).val < win3_7.index t a * S1000x512.size a + S1000x512.size a := by
  show i ∈ ((View.whole main_v67_1).slice (win3_7.rect t)).set ↔ _
  rw [View.set_slice_whole, Rect.mem_set_unit]
  exact Iff.rfl

/-- Row r of the array lies in the block of point r / 1000: the 20 blocks cover the array. -/
theorem rows_cover7 (i : S20000x512.Idx) :
    ∃ t : Fin cfg3.N, (cfg3.win 7).flush t = true ∧ i ∈ ((cfg3.win 7).blk t).view.set := by
  have hi0 : (i 0).val < 20000 := (i 0).isLt
  have hi1 : (i 1).val < 512 := (i 1).isLt
  have hN : (i 0).val / 1000 < cfg3.N := by rw [show cfg3.N = 20 from N_3]; omega
  refine ⟨⟨(i 0).val / 1000, hN⟩, flush3_7 _, ?_⟩
  rw [mem_blk7]
  obtain ⟨-, -, -, -, -, -, -, -, -, -, -, -, -, e0, e1, -⟩ := idx_facts ⟨(i 0).val / 1000, hN⟩
  intro a
  match a with
  | ⟨0, _⟩ =>
    show win3_7.index ⟨(i 0).val / 1000, hN⟩ (0 : Fin 2) * 1000 ≤ (i 0).val
      ∧ (i 0).val < win3_7.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win3_7.index ⟨(i 0).val / 1000, hN⟩ (1 : Fin 2) * 512 ≤ (i 1).val
      ∧ (i 1).val < win3_7.index ⟨(i 0).val / 1000, hN⟩ (1 : Fin 2) * 512 + 512
    rw [e1]; omega

/-- The second output array after the region: the whole-array combine step multiplied by the scales once more. -/
theorem final3_7 (c : Dev nD) : (dat3 V c).arrAt 7 cfg3.N
      = mulf (Cert.Gnn.comb Cert.Gnn.row512 Cert.Gnn.down512 Cert.Gnn.wit.zNC (V c main_v50_0)
          (mulf (V c main_v60) (Cert.Gnn.across Cert.Gnn.wit (V c main_v14))) (V c main_v62) (V c main_v64) (V c main_v66))
        (Cert.Gnn.across Cert.Gnn.wit (V c main_v14)) :=
  (dat3 V c).arrAt_eq_of_cover 7
    (mulf (combWhole (V c main_v50_0) (V c main_v60) (V c main_v14) (V c main_v62) (V c main_v64) (V c main_v66)) (Cert.Gnn.across Cert.Gnn.wit (V c main_v14)))
    (fun t _ => flushed7_eq V c t) rows_cover7

end Cert.KernelIdeal.Region3

end
-- ==== Proof.Region4.lean ====
/-
  The last linear region: y = x · W + b, tiled by rows.

  x is [20000, 512], W is [512, 256], b is [256]. The region visits 20 grid points; at point t it stages rows
  1000 t … 1000 t + 999 of x (a block [1000, 512]), the whole of W and the whole of b, and writes back a block
  [1000, 256] of the output at the same rows. The body multiplies the block of rows by W (both narrowed to bf16, which
  changes nothing on the extended reals) into a zero accumulator and adds b laid as a row and repeated down the 1000
  lines.

  Why a block of the product is the product of the block: entry (r, q) of x · W is the sum over k of x (r, k) · W (k, q),
  which reads row r of x and nothing else of x. So with r = 1000 t + p, entry (p, q) of (rows of x at point t) · W is entry
  (r, q) of x · W, term by term. The bias row added at line p of the block and at line r of the whole array is the same row
  b (q). Hence what point t writes back is block t of the one whole-array function lin x W b (flushed_eq).

  The 20 blocks tile the 20000 rows (row r lies in the block of point r / 1000, all 256 columns), so after the last
  write-back the output array is lin x W b everywhere (final4_3).
-/
import proofs.«141197_j52450140618855_2_alg».proof.Proof.Gen.KernelIdeal.Frame
import proofs.«141197_j52450140618855_2_alg».proof.Proof.Spec
import proofs.«141197_j52450140618855_2_alg».proof.Proof.LibRowTiledDot
import proofs.«141197_j52450140618855_2_alg».proof.Proof.LibDenseBias
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

/-- Entry (p, q) of the body's result on a block of 1000 rows — the block times the weights plus the bias row — is
    entry (g, q) of x · W + b on the whole arrays, when row p of the block is row g of x and the block's weight and
    bias are the whole W and b: an entry of a product reads one row of its left factor, and the bias row is the same
    row on every line. -/
theorem pay_entry (A : FVec Ideal ⟨2, ![20000, 512]⟩ .f32) (W : FVec Ideal ⟨2, ![512, 256]⟩ .f32)
    (b : FVec Ideal ⟨1, ![256]⟩ .f32)
    (x0 : Vec Ideal S1000x512 .f32) (x1 : Vec Ideal S512x256 .f32) (x2 : Vec Ideal S256 .f32)
    (p : Fin 1000) (q : Fin 256) (g : Fin 20000)
    (h0 : ∀ k : Fin 512, x0 (ix2 p k) = A (ix2 g k)) (h1 : x1 = W) (h2 : x2 = b) :
    k4_pay1 x0 x1 x2 (ix2 p q) = Cert.Gnn.lin Cert.Gnn.row256 Cert.Gnn.down256 A W b (ix2 g q) := by
  unfold k4_pay1 Cert.Gnn.lin Cert.Gnn.biasRows
  have hd : dot_S1000x512_S512x256_S1000x256_1_0_0_1_n_n = DotDims.plain 1000 512 256 := rfl
  rw [addf_apply, addf_apply, hd, shapeCast_self]
  congr 1
  · exact Cert.Lib.RowTiledDot.block_entry_eq_host bitsLt_bf16_f32 A W x0 x1 p q g h0 (fun k => by rw [h1])
  · rw [Cert.Lib.DenseBias.row_down_entry, Cert.Lib.DenseBias.row_down_host_entry,
      Cert.Lib.DenseBias.bias_row_eq x2 shapeCasts_S256_S1x256 Cert.Gnn.row256, h2]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 20 grid points: the two row-tiled windows sit at block (t, 0), the weight and the
    bias windows at block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- Row p of the input block at point t is row 1000 t + p of x. -/
theorem iblk_x (c : Dev nD) (t : Fin cfg4.N) (p : Fin 1000) (k : Fin 512) (g : Fin 20000)
    (hg : g.val = t.val * 1000 + p.val) :
    (iblk4 V c 0 t : Vec Ideal S1000x512 .f32) (ix2 p k)
      = (V c main_v67_0 : S20000x512.Idx → Elt Ideal .f32) (ix2 g k) := by
  obtain ⟨e0, e1, -⟩ := idx_facts t
  unfold iblk4
  rw [View.read_apply]
  show V c main_v67_0 _ = V c main_v67_0 _
  congr 1
  funext a
  apply Fin.ext
  match a with
  | ⟨0, _⟩ => show win4_0.index t (0 : Fin 2) * 1000 + 1 * p.val = g.val; rw [e0, hg]; omega
  | ⟨1, _⟩ => show win4_0.index t (1 : Fin 2) * 512 + 1 * k.val = k.val; rw [e1]; omega

/-- The weight window's block is the whole weight matrix at every point. -/
theorem iblk_W (c : Dev nD) (t : Fin cfg4.N) :
    (iblk4 V c 1 t : Vec Ideal S512x256 .f32) = (V c main_arg7 : S512x256.Idx → Elt Ideal .f32) := by
  obtain ⟨-, -, e2, e3, -⟩ := idx_facts t
  funext j
  unfold iblk4
  rw [View.read_apply]
  show V c main_arg7 _ = V c main_arg7 j
  congr 1
  funext a
  apply Fin.ext
  match a with
  | ⟨0, _⟩ => show win4_1.index t (0 : Fin 2) * 512 + 1 * (j 0).val = (j 0).val; rw [e2]; omega
  | ⟨1, _⟩ => show win4_1.index t (1 : Fin 2) * 256 + 1 * (j 1).val = (j 1).val; rw [e3]; omega

/-- The bias window's block is the whole bias vector at every point. -/
theorem iblk_b (c : Dev nD) (t : Fin cfg4.N) :
    (iblk4 V c 2 t : Vec Ideal S256 .f32) = (V c main_arg8 : S256.Idx → Elt Ideal .f32) := by
  obtain ⟨-, -, -, -, e4, -⟩ := idx_facts t
  funext j
  unfold iblk4
  rw [View.read_apply]
  show V c main_arg8 _ = V c main_arg8 j
  congr 1
  funext a
  apply Fin.ext
  match a with
  | ⟨0, _⟩ => show win4_2.index t (0 : Fin 1) * 256 + 1 * (j 0).val = (j 0).val; rw [e4]; omega

/-- What point t writes back is block t of x · W + b. -/
theorem flushed_eq (c : Dev nD) (t : Fin cfg4.N) :
    (dat4 V c).flushed 3 t = ((cfg4.win 3).blk t).view.read (Elt Ideal)
      (Cert.Gnn.lin Cert.Gnn.row256 Cert.Gnn.down256 (V c main_v67_0) (V c main_arg7) (V c main_arg8)) := by
  show (cfg4.win 3).cut (grid4.coords t) ((dat4 V c).after 3 t) = _
  rw [after4_3]
  unfold out4_3
  rw [View.canon_unit_zero hz2]
  simp only [View.ld_unit_zero (S := S1000x512) hz2, View.ld_unit_zero (S := S512x256) hz2,
    View.ld_unit_zero (S := S256) hz1]
  obtain ⟨-, -, -, -, -, e5, e6⟩ := idx_facts t
  funext j
  obtain ⟨p, q, rfl⟩ : ∃ (p : Fin 1000) (q : Fin 256), j = ix2 p q := ⟨j 0, j 1, eq_ix2 j⟩
  have ht : t.val < 20 := lt_of_lt_of_eq t.isLt N_4
  have hp : t.val * 1000 + p.val < 20000 := by have := p.isLt; omega
  rw [View.read_apply]
  show k4_pay1 (iblk4 V c 0 t) (iblk4 V c 1 t) (iblk4 V c 2 t) (ix2 p q)
    = Cert.Gnn.lin Cert.Gnn.row256 Cert.Gnn.down256 (V c main_v67_0) (V c main_arg7) (V c main_arg8)
        (((cfg4.win 3).blk t).view.emb (ix2 p q))
  have hemb : ((cfg4.win 3).blk t).view.emb (ix2 p q) = ix2 (⟨t.val * 1000 + p.val, hp⟩ : Fin 20000) q := by
    funext a
    apply Fin.ext
    match a with
    | ⟨0, _⟩ => show win4_3.index t (0 : Fin 2) * 1000 + 1 * p.val = t.val * 1000 + p.val; rw [e5]; omega
    | ⟨1, _⟩ => show win4_3.index t (1 : Fin 2) * 256 + 1 * q.val = q.val; rw [e6]; omega
  rw [hemb]
  exact pay_entry _ _ _ _ _ _ p q ⟨_, hp⟩ (fun k => iblk_x V c t p k ⟨_, hp⟩ rfl) (iblk_W V c t) (iblk_b V c t)

/-- An index of the array is in point t's block iff each coordinate is in the block's range on its axis. -/
theorem mem_blk (t : Fin cfg4.N) (i : S20000x256.Idx) :
    i ∈ ((cfg4.win 3).blk t).view.set ↔ ∀ a : Fin 2, win4_3.index t a * S1000x256.size a ≤ (i a).val
      ∧ (i a).val < win4_3.index t a * S1000x256.size a + S1000x256.size a := by
  show i ∈ ((View.whole main_v68).slice (win4_3.rect t)).set ↔ _
  rw [View.set_slice_whole, Rect.mem_set_unit]
  exact Iff.rfl

/-- The 20 blocks of 1000 rows tile the 20000 rows: row r is in the block of point r / 1000. -/
theorem cover (i : S20000x256.Idx) :
    ∃ t : Fin cfg4.N, (cfg4.win 3).flush t = true ∧ i ∈ ((cfg4.win 3).blk t).view.set := by
  have hi0 : (i 0).val < 20000 := (i 0).isLt
  have hi1 : (i 1).val < 256 := (i 1).isLt
  obtain ⟨t, ht⟩ : ∃ t : Fin cfg4.N, t.val = (i 0).val / 1000 :=
    ⟨⟨(i 0).val / 1000, by rw [show cfg4.N = 20 from N_4]; omega⟩, rfl⟩
  obtain ⟨-, -, -, -, -, e5, e6⟩ := idx_facts t
  refine ⟨t, flush4_3 t, ?_⟩
  rw [mem_blk]
  intro a
  match a with
  | ⟨0, _⟩ =>
    show win4_3.index t (0 : Fin 2) * 1000 ≤ (i 0).val ∧ (i 0).val < win4_3.index t (0 : Fin 2) * 1000 + 1000
    rw [e5, ht]; omega
  | ⟨1, _⟩ =>
    show win4_3.index t (1 : Fin 2) * 256 ≤ (i 1).val ∧ (i 1).val < win4_3.index t (1 : Fin 2) * 256 + 256
    rw [e6]; omega

/-- After the region the output array is x · W + b of the region's input arrays. -/
theorem final4_3 (c : Dev nD) : (dat4 V c).arrAt 3 cfg4.N
      = Cert.Gnn.lin Cert.Gnn.row256 Cert.Gnn.down256 (V c main_v67_0) (V c main_arg7) (V c main_arg8) :=
  (dat4 V c).arrAt_eq_of_cover 3 _ (fun t _ => flushed_eq V c t) cover

end Cert.KernelIdeal.Region4

end
-- ==== Proof.KernelChain.lean ====
/-
  What the idealized kernel program computes: the contents of its buffers at every boundary, as functions of the
  arguments as launched.

  The program alternates host stretches and kernel regions.  The first stretch cuts the edge list into its source and
  destination words; the encoder region leaves the node table h0 = X · W_enc + b_enc; the second stretch counts the
  degrees, forms the node scales a = 1 / sqrt (deg + 1) as a column, scales h0 by them, gathers the scaled rows along
  the edges and sums them into the destination rows; a round's region multiplies those sums by a (row by row) and
  combines, leaving the new table h and the new scaled table h · a; the next stretch aggregates that scaled table; and
  so on for three rounds; the last region is the output head.  Read back through the boundaries, the result buffer
  ends holding the network with the per-node normalisation (`Cert.Gnn.netNode`) of the arguments.
  A buffer that a stretch or a region does not write keeps its contents across it; a region's input array is
  unchanged by the region.
-/
import proofs.«141197_j52450140618855_2_alg».proof.Proof.Gen.KernelIdeal.Frame
import proofs.«141197_j52450140618855_2_alg».proof.Proof.Spec
import proofs.«141197_j52450140618855_2_alg».proof.Proof.Net
import proofs.«141197_j52450140618855_2_alg».proof.Proof.Region0
import proofs.«141197_j52450140618855_2_alg».proof.Proof.Region1
import proofs.«141197_j52450140618855_2_alg».proof.Proof.Region2
import proofs.«141197_j52450140618855_2_alg».proof.Proof.Region3
import proofs.«141197_j52450140618855_2_alg».proof.Proof.Region4

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The arguments' pieces -/

/-- The source words of the edges: column 0 of the edge list. -/
def src (c : Dev nD) : IVec S160000 32 :=
  shapeCast S160000 (extractStridedSlice S160000x1 ![0, 0] (m ((c.tc : Thread nD τ).loc main_arg1)) slices_S160000x2_S160000x1_0_0) shapeCasts_S160000x1_S160000
/-- The destination words of the edges: column 1 of the edge list. -/
def dst (c : Dev nD) : IVec S160000 32 :=
  shapeCast S160000 (extractStridedSlice S160000x1 ![0, 1] (m ((c.tc : Thread nD τ).loc main_arg1)) slices_S160000x2_S160000x1_0_1) shapeCasts_S160000x1_S160000
/-- Round 0's weights and bias: slab 0 of the stacked arguments. -/
def ws0 (c : Dev nD) : FVec Ideal S512x512 .f32 :=
  shapeCast S512x512 (extractStridedSlice S1x512x512 ![0, 0, 0] (m ((c.tc : Thread nD τ).loc main_arg4)) slices_S3x512x512_S1x512x512_0_0_0) shapeCasts_S1x512x512_S512x512
def wn0 (c : Dev nD) : FVec Ideal S512x512 .f32 :=
  shapeCast S512x512 (extractStridedSlice S1x512x512 ![0, 0, 0] (m ((c.tc : Thread nD τ).loc main_arg5)) slices_S3x512x512_S1x512x512_0_0_0) shapeCasts_S1x512x512_S512x512
def bs0 (c : Dev nD) : FVec Ideal S512 .f32 :=
  shapeCast S512 (extractStridedSlice S1x512 ![0, 0] (m ((c.tc : Thread nD τ).loc main_arg6)) slices_S3x512_S1x512_0_0) shapeCasts_S1x512_S512
/-- Round 1's weights and bias: slab 1 of the stacked arguments. -/
def ws1 (c : Dev nD) : FVec Ideal S512x512 .f32 :=
  shapeCast S512x512 (extractStridedSlice S1x512x512 ![1, 0, 0] (m ((c.tc : Thread nD τ).loc main_arg4)) slices_S3x512x512_S1x512x512_1_0_0) shapeCasts_S1x512x512_S512x512
def wn1 (c : Dev nD) : FVec Ideal S512x512 .f32 :=
  shapeCast S512x512 (extractStridedSlice S1x512x512 ![1, 0, 0] (m ((c.tc : Thread nD τ).loc main_arg5)) slices_S3x512x512_S1x512x512_1_0_0) shapeCasts_S1x512x512_S512x512
def bs1 (c : Dev nD) : FVec Ideal S512 .f32 :=
  shapeCast S512 (extractStridedSlice S1x512 ![1, 0] (m ((c.tc : Thread nD τ).loc main_arg6)) slices_S3x512_S1x512_1_0) shapeCasts_S1x512_S512
/-- Round 2's weights and bias: slab 2 of the stacked arguments. -/
def ws2 (c : Dev nD) : FVec Ideal S512x512 .f32 :=
  shapeCast S512x512 (extractStridedSlice S1x512x512 ![2, 0, 0] (m ((c.tc : Thread nD τ).loc main_arg4)) slices_S3x512x512_S1x512x512_2_0_0) shapeCasts_S1x512x512_S512x512
def wn2 (c : Dev nD) : FVec Ideal S512x512 .f32 :=
  shapeCast S512x512 (extractStridedSlice S1x512x512 ![2, 0, 0] (m ((c.tc : Thread nD τ).loc main_arg5)) slices_S3x512x512_S1x512x512_2_0_0) shapeCasts_S1x512x512_S512x512
def bs2 (c : Dev nD) : FVec Ideal S512 .f32 :=
  shapeCast S512 (extractStridedSlice S1x512 ![2, 0] (m ((c.tc : Thread nD τ).loc main_arg6)) slices_S3x512_S1x512_2_0) shapeCasts_S1x512_S512

/-- The node table after the encoder and after each round. -/
def h0 (c : Dev nD) : FVec Ideal S20000x512 .f32 :=
  Cert.Gnn.lin Cert.Gnn.row512 Cert.Gnn.down512 (m ((c.tc : Thread nD τ).loc main_arg0)) (m ((c.tc : Thread nD τ).loc main_arg2)) (m ((c.tc : Thread nD τ).loc main_arg3))
def h1 (c : Dev nD) : FVec Ideal S20000x512 .f32 := Cert.Gnn.layerNode (src m c) (dst m c) (h0 m c) (ws0 m c) (wn0 m c) (bs0 m c)
def h2 (c : Dev nD) : FVec Ideal S20000x512 .f32 := Cert.Gnn.layerNode (src m c) (dst m c) (h1 m c) (ws1 m c) (wn1 m c) (bs1 m c)
def h3 (c : Dev nD) : FVec Ideal S20000x512 .f32 := Cert.Gnn.layerNode (src m c) (dst m c) (h2 m c) (ws2 m c) (wn2 m c) (bs2 m c)

/-! ## Boundary 1: after the first host stretch -/
theorem W1_arg0 (c : Dev nD) : W1 m ρ c (Proc.devRef .tc main_arg0) = m ((c.tc : Thread nD τ).loc main_arg0) := by
  dsimp only [W1, hostOps0]
  after_results
  try rfl
theorem W1_arg2 (c : Dev nD) : W1 m ρ c (Proc.devRef .tc main_arg2) = m ((c.tc : Thread nD τ).loc main_arg2) := by
  dsimp only [W1, hostOps0]
  after_results
  try rfl
theorem W1_arg3 (c : Dev nD) : W1 m ρ c (Proc.devRef .tc main_arg3) = m ((c.tc : Thread nD τ).loc main_arg3) := by
  dsimp only [W1, hostOps0]
  after_results
  try rfl
theorem W1_arg4 (c : Dev nD) : W1 m ρ c (Proc.devRef .tc main_arg4) = m ((c.tc : Thread nD τ).loc main_arg4) := by
  dsimp only [W1, hostOps0]
  after_results
  try rfl
theorem W1_arg5 (c : Dev nD) : W1 m ρ c (Proc.devRef .tc main_arg5) = m ((c.tc : Thread nD τ).loc main_arg5) := by
  dsimp only [W1, hostOps0]
  after_results
  try rfl
theorem W1_arg6 (c : Dev nD) : W1 m ρ c (Proc.devRef .tc main_arg6) = m ((c.tc : Thread nD τ).loc main_arg6) := by
  dsimp only [W1, hostOps0]
  after_results
  try rfl
theorem W1_v1 (c : Dev nD) : W1 m ρ c (Proc.devRef .tc main_v1) = src m c := by
  dsimp only [W1, hostOps0]
  after_results
  try rfl
theorem W1_v3 (c : Dev nD) : W1 m ρ c (Proc.devRef .tc main_v3) = dst m c := by
  dsimp only [W1, hostOps0]
  after_results
  try rfl

/-! ## Boundary 2: after the encoder region -/
theorem W2_arg4 (c : Dev nD) : W2 m ρ c (Proc.devRef .tc main_arg4) = W1 m ρ c (Proc.devRef .tc main_arg4) :=
  W2_of_ne m ρ c main_arg4 (by decide)
theorem W2_arg5 (c : Dev nD) : W2 m ρ c (Proc.devRef .tc main_arg5) = W1 m ρ c (Proc.devRef .tc main_arg5) :=
  W2_of_ne m ρ c main_arg5 (by decide)
theorem W2_arg6 (c : Dev nD) : W2 m ρ c (Proc.devRef .tc main_arg6) = W1 m ρ c (Proc.devRef .tc main_arg6) :=
  W2_of_ne m ρ c main_arg6 (by decide)
theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)

theorem W2_v4 (c : Dev nD) : W2 m ρ c (Proc.devRef .tc main_v4) = h0 m c :=
  (W2_arr m ρ c 3).trans ((Cert.KernelIdeal.Region0.final0_3 (V1 m ρ) c).trans (by
    show Cert.Gnn.lin _ _ (W1 m ρ c (Proc.devRef .tc main_arg0)) (W1 m ρ c (Proc.devRef .tc main_arg2)) (W1 m ρ c (Proc.devRef .tc main_arg3)) = _
    rw [W1_arg0, W1_arg2, W1_arg3]; rfl))

/-! ## Boundary 3: after the second host stretch (degrees, scales, the first aggregation) -/
theorem W3_arg4 (c : Dev nD) : W3 m ρ c (Proc.devRef .tc main_arg4) = m ((c.tc : Thread nD τ).loc main_arg4) := by
  dsimp only [W3, hostOps1]
  after_results_simp
  exact W2_arg4 m ρ c
theorem W3_arg5 (c : Dev nD) : W3 m ρ c (Proc.devRef .tc main_arg5) = m ((c.tc : Thread nD τ).loc main_arg5) := by
  dsimp only [W3, hostOps1]
  after_results_simp
  exact W2_arg5 m ρ c
theorem W3_arg6 (c : Dev nD) : W3 m ρ c (Proc.devRef .tc main_arg6) = m ((c.tc : Thread nD τ).loc main_arg6) := by
  dsimp only [W3, hostOps1]
  after_results_simp
  exact W2_arg6 m ρ c
theorem W3_v1 (c : Dev nD) : W3 m ρ c (Proc.devRef .tc main_v1) = src m c := by
  dsimp only [W3, hostOps1]
  after_results_simp
  exact W2_v1 m ρ c
theorem W3_v3 (c : Dev nD) : W3 m ρ c (Proc.devRef .tc main_v3) = dst m c := by
  dsimp only [W3, hostOps1]
  after_results_simp
  exact W2_v3 m ρ c
theorem W3_v4 (c : Dev nD) : W3 m ρ c (Proc.devRef .tc main_v4) = h0 m c := by
  dsimp only [W3, hostOps1]
  after_results_simp
  exact W2_v4 m ρ c
theorem W3_v14 (c : Dev nD) : W3 m ρ c (Proc.devRef .tc main_v14) = Cert.Gnn.normCol Cert.Gnn.wit (dst m c) := by
  dsimp only [W3, hostOps1]
  after_results_simp
  rw [W2_v3]
  rfl
theorem W3_v26 (c : Dev nD) : W3 m ρ c (Proc.devRef .tc main_v26) = Cert.Gnn.aggNodeRaw Cert.Gnn.wit 20000#32 (src m c) (dst m c) (h0 m c) := by
  dsimp only [W3, hostOps1]
  after_results_simp
  rw [W2_v3, W2_v1, W2_v4]
  rfl
theorem W3_v28 (c : Dev nD) : W3 m ρ c (Proc.devRef .tc main_v28) = ws0 m c := by
  dsimp only [W3, hostOps1]
  after_results_simp
  rw [W2_arg4]
  rfl
theorem W3_v30 (c : Dev nD) : W3 m ρ c (Proc.devRef .tc main_v30) = wn0 m c := by
  dsimp only [W3, hostOps1]
  after_results_simp
  rw [W2_arg5]
  rfl
theorem W3_v32 (c : Dev nD) : W3 m ρ c (Proc.devRef .tc main_v32) = bs0 m c := by
  dsimp only [W3, hostOps1]
  after_results_simp
  rw [W2_arg6]
  rfl

/-! ## Boundary 4: after the first round's region -/
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W4_v1 (c : Dev nD) : W4 m ρ c (Proc.devRef .tc main_v1) = src m c :=
  (W4_of_ne m ρ c main_v1 (by decide)).trans (W3_v1 m ρ c)
theorem W4_v3 (c : Dev nD) : W4 m ρ c (Proc.devRef .tc main_v3) = dst m c :=
  (W4_of_ne m ρ c main_v3 (by decide)).trans (W3_v3 m ρ c)
theorem W4_v14 (c : Dev nD) : W4 m ρ c (Proc.devRef .tc main_v14) = Cert.Gnn.normCol Cert.Gnn.wit (dst m c) :=
  (W4_arr m ρ c 2).trans ((((dat1 (V3 m ρ) c).arrAt_in 2 rfl _).trans (A_eq1 (V3 m ρ) c 2)).trans (W3_v14 m ρ c))
theorem W4_v33_0 (c : Dev nD) : W4 m ρ c (Proc.devRef .tc main_v33_0) = h1 m c :=
  (W4_arr m ρ c 6).trans ((Cert.KernelIdeal.Region1.final1_6 (V3 m ρ) c).trans (by
    show Cert.Gnn.comb _ _ _ (W3 m ρ c (Proc.devRef .tc main_v4)) (mulf (W3 m ρ c (Proc.devRef .tc main_v26)) (Cert.Gnn.across _ (W3 m ρ c (Proc.devRef .tc main_v14)))) (W3 m ρ c (Proc.devRef .tc main_v28)) (W3 m ρ c (Proc.devRef .tc main_v30)) (W3 m ρ c (Proc.devRef .tc main_v32)) = _
    rw [W3_v4, W3_v26, W3_v14, W3_v28, W3_v30, W3_v32]; rfl))
theorem W4_v33_1 (c : Dev nD) : W4 m ρ c (Proc.devRef .tc main_v33_1) = mulf (h1 m c) (Cert.Gnn.normAcross Cert.Gnn.wit (dst m c)) :=
  (W4_arr m ρ c 7).trans ((Cert.KernelIdeal.Region1.final1_7 (V3 m ρ) c).trans (by
    show mulf (Cert.Gnn.comb _ _ _ (W3 m ρ c (Proc.devRef .tc main_v4)) (mulf (W3 m ρ c (Proc.devRef .tc main_v26)) (Cert.Gnn.across _ (W3 m ρ c (Proc.devRef .tc main_v14)))) (W3 m ρ c (Proc.devRef .tc main_v28)) (W3 m ρ c (Proc.devRef .tc main_v30)) (W3 m ρ c (Proc.devRef .tc main_v32))) (Cert.Gnn.across _ (W3 m ρ c (Proc.devRef .tc main_v14))) = _
    rw [W3_v4, W3_v26, W3_v14, W3_v28, W3_v30, W3_v32]; rfl))

/-! ## Boundary 5: after the third host stretch (the second aggregation) -/
theorem W5_arg4 (c : Dev nD) : W5 m ρ c (Proc.devRef .tc main_arg4) = m ((c.tc : Thread nD τ).loc main_arg4) := by
  dsimp only [W5, hostOps2]
  after_results_simp
  exact W4_arg4 m ρ c
theorem W5_arg5 (c : Dev nD) : W5 m ρ c (Proc.devRef .tc main_arg5) = m ((c.tc : Thread nD τ).loc main_arg5) := by
  dsimp only [W5, hostOps2]
  after_results_simp
  exact W4_arg5 m ρ c
theorem W5_arg6 (c : Dev nD) : W5 m ρ c (Proc.devRef .tc main_arg6) = m ((c.tc : Thread nD τ).loc main_arg6) := by
  dsimp only [W5, hostOps2]
  after_results_simp
  exact W4_arg6 m ρ c
theorem W5_v1 (c : Dev nD) : W5 m ρ c (Proc.devRef .tc main_v1) = src m c := by
  dsimp only [W5, hostOps2]
  after_results_simp
  exact W4_v1 m ρ c
theorem W5_v3 (c : Dev nD) : W5 m ρ c (Proc.devRef .tc main_v3) = dst m c := by
  dsimp only [W5, hostOps2]
  after_results_simp
  exact W4_v3 m ρ c
theorem W5_v14 (c : Dev nD) : W5 m ρ c (Proc.devRef .tc main_v14) = Cert.Gnn.normCol Cert.Gnn.wit (dst m c) := by
  dsimp only [W5, hostOps2]
  after_results_simp
  exact W4_v14 m ρ c
theorem W5_v33_0 (c : Dev nD) : W5 m ρ c (Proc.devRef .tc main_v33_0) = h1 m c := by
  dsimp only [W5, hostOps2]
  after_results_simp
  exact W4_v33_0 m ρ c
theorem W5_v43 (c : Dev nD) : W5 m ρ c (Proc.devRef .tc main_v43) = Cert.Gnn.aggNodeRaw Cert.Gnn.wit 20000#32 (src m c) (dst m c) (h1 m c) := by
  dsimp only [W5, hostOps2]
  after_results_simp
  rw [W4_v3, W4_v1, W4_v33_1]
  rfl
theorem W5_v45 (c : Dev nD) : W5 m ρ c (Proc.devRef .tc main_v45) = ws1 m c := by
  dsimp only [W5, hostOps2]
  after_results_simp
  rw [W4_arg4]
  rfl
theorem W5_v47 (c : Dev nD) : W5 m ρ c (Proc.devRef .tc main_v47) = wn1 m c := by
  dsimp only [W5, hostOps2]
  after_results_simp
  rw [W4_arg5]
  rfl
theorem W5_v49 (c : Dev nD) : W5 m ρ c (Proc.devRef .tc main_v49) = bs1 m c := by
  dsimp only [W5, hostOps2]
  after_results_simp
  rw [W4_arg6]
  rfl

/-! ## Boundary 6: after the second round's region -/
theorem W6_arg4 (c : Dev nD) : W6 m ρ c (Proc.devRef .tc main_arg4) = m ((c.tc : Thread nD τ).loc main_arg4) :=
  (W6_of_ne m ρ c main_arg4 (by decide)).trans (W5_arg4 m ρ c)
theorem W6_arg5 (c : Dev nD) : W6 m ρ c (Proc.devRef .tc main_arg5) = m ((c.tc : Thread nD τ).loc main_arg5) :=
  (W6_of_ne m ρ c main_arg5 (by decide)).trans (W5_arg5 m ρ c)
theorem W6_arg6 (c : Dev nD) : W6 m ρ c (Proc.devRef .tc main_arg6) = m ((c.tc : Thread nD τ).loc main_arg6) :=
  (W6_of_ne m ρ c main_arg6 (by decide)).trans (W5_arg6 m ρ c)
theorem W6_v1 (c : Dev nD) : W6 m ρ c (Proc.devRef .tc main_v1) = src m c :=
  (W6_of_ne m ρ c main_v1 (by decide)).trans (W5_v1 m ρ c)
theorem W6_v3 (c : Dev nD) : W6 m ρ c (Proc.devRef .tc main_v3) = dst m c :=
  (W6_of_ne m ρ c main_v3 (by decide)).trans (W5_v3 m ρ c)
theorem W6_v14 (c : Dev nD) : W6 m ρ c (Proc.devRef .tc main_v14) = Cert.Gnn.normCol Cert.Gnn.wit (dst m c) :=
  (W6_arr m ρ c 2).trans ((((dat2 (V5 m ρ) c).arrAt_in 2 rfl _).trans (A_eq2 (V5 m ρ) c 2)).trans (W5_v14 m ρ c))
theorem W6_v50_0 (c : Dev nD) : W6 m ρ c (Proc.devRef .tc main_v50_0) = h2 m c :=
  (W6_arr m ρ c 6).trans ((Cert.KernelIdeal.Region2.final2_6 (V5 m ρ) c).trans (by
    show Cert.Gnn.comb _ _ _ (W5 m ρ c (Proc.devRef .tc main_v33_0)) (mulf (W5 m ρ c (Proc.devRef .tc main_v43)) (Cert.Gnn.across _ (W5 m ρ c (Proc.devRef .tc main_v14)))) (W5 m ρ c (Proc.devRef .tc main_v45)) (W5 m ρ c (Proc.devRef .tc main_v47)) (W5 m ρ c (Proc.devRef .tc main_v49)) = _
    rw [W5_v33_0, W5_v43, W5_v14, W5_v45, W5_v47, W5_v49]; rfl))
theorem W6_v50_1 (c : Dev nD) : W6 m ρ c (Proc.devRef .tc main_v50_1) = mulf (h2 m c) (Cert.Gnn.normAcross Cert.Gnn.wit (dst m c)) :=
  (W6_arr m ρ c 7).trans ((Cert.KernelIdeal.Region2.final2_7 (V5 m ρ) c).trans (by
    show mulf (Cert.Gnn.comb _ _ _ (W5 m ρ c (Proc.devRef .tc main_v33_0)) (mulf (W5 m ρ c (Proc.devRef .tc main_v43)) (Cert.Gnn.across _ (W5 m ρ c (Proc.devRef .tc main_v14)))) (W5 m ρ c (Proc.devRef .tc main_v45)) (W5 m ρ c (Proc.devRef .tc main_v47)) (W5 m ρ c (Proc.devRef .tc main_v49))) (Cert.Gnn.across _ (W5 m ρ c (Proc.devRef .tc main_v14))) = _
    rw [W5_v33_0, W5_v43, W5_v14, W5_v45, W5_v47, W5_v49]; rfl))

/-! ## Boundary 7: after the fourth host stretch (the third aggregation) -/
theorem W7_v14 (c : Dev nD) : W7 m ρ c (Proc.devRef .tc main_v14) = Cert.Gnn.normCol Cert.Gnn.wit (dst m c) := by
  dsimp only [W7, hostOps3]
  after_results_simp
  exact W6_v14 m ρ c
theorem W7_v50_0 (c : Dev nD) : W7 m ρ c (Proc.devRef .tc main_v50_0) = h2 m c := by
  dsimp only [W7, hostOps3]
  after_results_simp
  exact W6_v50_0 m ρ c
theorem W7_v60 (c : Dev nD) : W7 m ρ c (Proc.devRef .tc main_v60) = Cert.Gnn.aggNodeRaw Cert.Gnn.wit 20000#32 (src m c) (dst m c) (h2 m c) := by
  dsimp only [W7, hostOps3]
  after_results_simp
  rw [W6_v3, W6_v1, W6_v50_1]
  rfl
theorem W7_v62 (c : Dev nD) : W7 m ρ c (Proc.devRef .tc main_v62) = ws2 m c := by
  dsimp only [W7, hostOps3]
  after_results_simp
  rw [W6_arg4]
  rfl
theorem W7_v64 (c : Dev nD) : W7 m ρ c (Proc.devRef .tc main_v64) = wn2 m c := by
  dsimp only [W7, hostOps3]
  after_results_simp
  rw [W6_arg5]
  rfl
theorem W7_v66 (c : Dev nD) : W7 m ρ c (Proc.devRef .tc main_v66) = bs2 m c := by
  dsimp only [W7, hostOps3]
  after_results_simp
  rw [W6_arg6]
  rfl

/-! ## Boundary 8: after the third round's region; boundary 9: after the output head -/
theorem W8_v67_0 (c : Dev nD) : W8 m ρ c (Proc.devRef .tc main_v67_0) = h3 m c :=
  (W8_arr m ρ c 6).trans ((Cert.KernelIdeal.Region3.final3_6 (V7 m ρ) c).trans (by
    show Cert.Gnn.comb _ _ _ (W7 m ρ c (Proc.devRef .tc main_v50_0)) (mulf (W7 m ρ c (Proc.devRef .tc main_v60)) (Cert.Gnn.across _ (W7 m ρ c (Proc.devRef .tc main_v14)))) (W7 m ρ c (Proc.devRef .tc main_v62)) (W7 m ρ c (Proc.devRef .tc main_v64)) (W7 m ρ c (Proc.devRef .tc main_v66)) = _
    rw [W7_v50_0, W7_v60, W7_v14, W7_v62, W7_v64, W7_v66]; rfl))
theorem W8_arg7 (c : Dev nD) : W8 m ρ c (Proc.devRef .tc main_arg7) = m ((c.tc : Thread nD τ).loc main_arg7) :=
  (A_eq4 (V8 m ρ) c 1).symm.trans ((((dat4 (V8 m ρ) c).arrAt_in 1 rfl _).symm.trans (W9_arr m ρ c 1).symm).trans (W9_main_arg7 m ρ c))
theorem W8_arg8 (c : Dev nD) : W8 m ρ c (Proc.devRef .tc main_arg8) = m ((c.tc : Thread nD τ).loc main_arg8) :=
  (A_eq4 (V8 m ρ) c 2).symm.trans ((((dat4 (V8 m ρ) c).arrAt_in 2 rfl _).symm.trans (W9_arr m ρ c 2).symm).trans (W9_main_arg8 m ρ c))

/-- THE RESULT: after the last region the result buffer holds the network with the per-node normalisation, of the
    arguments as launched. -/
theorem W9_v68 (c : Dev nD) : W9 m ρ c (Proc.devRef .tc main_v68)
    = Cert.Gnn.netNode (m ((c.tc : Thread nD τ).loc main_arg0)) (src m c) (dst m c) (m ((c.tc : Thread nD τ).loc main_arg2)) (m ((c.tc : Thread nD τ).loc main_arg3))
        (ws0 m c) (wn0 m c) (bs0 m c) (ws1 m c) (wn1 m c) (bs1 m c) (ws2 m c) (wn2 m c) (bs2 m c)
        (m ((c.tc : Thread nD τ).loc main_arg7)) (m ((c.tc : Thread nD τ).loc main_arg8)) :=
  (W9_arr m ρ c 3).trans ((Cert.KernelIdeal.Region4.final4_3 (V8 m ρ) c).trans (by
    show Cert.Gnn.lin _ _ (W8 m ρ c (Proc.devRef .tc main_v67_0)) (W8 m ρ c (Proc.devRef .tc main_arg7)) (W8 m ρ c (Proc.devRef .tc main_arg8)) = _
    rw [W8_v67_0, W8_arg7, W8_arg8]; rfl))

end Cert.KernelIdeal.Chain

end
-- ==== Proof.RefNet.lean ====
/-
  The reference program's result is the network with the per-edge normalisation.

  The reference computes, stage by stage: the encoder; the degrees, and from them one scale per EDGE,
  1 / sqrt ((deg dst + 1) · (deg src + 1)); then three times: gather the source rows, multiply each by its edge's scale,
  sum them into the destination rows, and combine (two products, a bias, the maximum with 0); then the output head.
  Each stage is, term for term, the corresponding whole-array function of the network's definition.
-/
import proofs.«141197_j52450140618855_2_alg».proof.Proof.Gen.ReferenceIdeal.Read
import proofs.«141197_j52450140618855_2_alg».proof.Proof.Net

set_option maxRecDepth 16384

noncomputable section

namespace Cert.ReferenceIdeal.Net

open Cert.ReferenceIdeal Cert.ReferenceIdeal.Gen Cert.ReferenceIdeal.Read
open Idealize.ShloMosaic Idealize.ShloMosaic.TcCoe Idealize.SL.Sem Idealize.ShloMosaic.StableHlo

variable (x0 : (⟨S20000x512, .f32⟩ : BufTy).Contents (Elt Ideal)) (x1 : (⟨S160000x2, .i32⟩ : BufTy).Contents (Elt Ideal))
  (x2 : (⟨S512x512, .f32⟩ : BufTy).Contents (Elt Ideal)) (x3 : (⟨S512, .f32⟩ : BufTy).Contents (Elt Ideal))
  (x4 x5 : (⟨S3x512x512, .f32⟩ : BufTy).Contents (Elt Ideal)) (x6 : (⟨S3x512, .f32⟩ : BufTy).Contents (Elt Ideal))
  (x7 : (⟨S512x256, .f32⟩ : BufTy).Contents (Elt Ideal)) (x8 : (⟨S256, .f32⟩ : BufTy).Contents (Elt Ideal))

/-- The encoder stage. -/
theorem enc : val_main_v7 (F := Ideal) x0 x2 x3 = Cert.Gnn.lin Cert.Gnn.row512 Cert.Gnn.down512 x0 x2 x3 := rfl

/-- The first aggregation: per edge. -/
theorem agg1 : val_main_v46 (F := Ideal) x0 x1 x2 x3
    = Cert.Gnn.aggEdge Cert.Gnn.wit 20000#32 (val_main_v1 (F := Ideal) x1) (val_main_v3 (F := Ideal) x1) (val_main_v7 (F := Ideal) x0 x2 x3) := rfl

/-- The first round. -/
theorem layer1 : val_main_v59 (F := Ideal) x0 x1 x2 x3 x4 x5 x6
    = Cert.Gnn.layerEdge (val_main_v1 (F := Ideal) x1) (val_main_v3 (F := Ideal) x1) (val_main_v7 (F := Ideal) x0 x2 x3)
        (val_main_v48 (F := Ideal) x4) (val_main_v51 (F := Ideal) x5) (val_main_v55 (F := Ideal) x6) := rfl

/-- The second round. -/
theorem layer2 : val_main_v84 (F := Ideal) x0 x1 x2 x3 x4 x5 x6
    = Cert.Gnn.layerEdge (val_main_v1 (F := Ideal) x1) (val_main_v3 (F := Ideal) x1) (val_main_v59 (F := Ideal) x0 x1 x2 x3 x4 x5 x6)
        (val_main_v73 (F := Ideal) x4) (val_main_v76 (F := Ideal) x5) (val_main_v80 (F := Ideal) x6) := rfl

/-- The third round. -/
theorem layer3 : val_main_v109 (F := Ideal) x0 x1 x2 x3 x4 x5 x6
    = Cert.Gnn.layerEdge (val_main_v1 (F := Ideal) x1) (val_main_v3 (F := Ideal) x1) (val_main_v84 (F := Ideal) x0 x1 x2 x3 x4 x5 x6)
        (val_main_v98 (F := Ideal) x4) (val_main_v101 (F := Ideal) x5) (val_main_v105 (F := Ideal) x6) := rfl

/-- The output head. -/
theorem head : val_main_v113 (F := Ideal) x0 x1 x2 x3 x4 x5 x6 x7 x8
    = Cert.Gnn.lin Cert.Gnn.row256 Cert.Gnn.down256 (val_main_v109 (F := Ideal) x0 x1 x2 x3 x4 x5 x6) x7 x8 := rfl

/-- THE RESULT: the reference's result stage is the network with the per-edge normalisation. -/
theorem result : val_main_v113 (F := Ideal) x0 x1 x2 x3 x4 x5 x6 x7 x8
    = Cert.Gnn.netEdge x0 (val_main_v1 (F := Ideal) x1) (val_main_v3 (F := Ideal) x1) x2 x3
        (val_main_v48 (F := Ideal) x4) (val_main_v51 (F := Ideal) x5) (val_main_v55 (F := Ideal) x6)
        (val_main_v73 (F := Ideal) x4) (val_main_v76 (F := Ideal) x5) (val_main_v80 (F := Ideal) x6)
        (val_main_v98 (F := Ideal) x4) (val_main_v101 (F := Ideal) x5) (val_main_v105 (F := Ideal) x6) x7 x8 := by
  rw [head, layer3, layer2, layer1, enc]
  rfl

end Cert.ReferenceIdeal.Net

end
-- ==== Proof.LibNonnegScale.lean ====
/-
  MULTIPLICATION BY A NONNEGATIVE REAL OVER A FINITE SUM OF EXTENDED REALS, AND THE RECIPROCAL SQUARE ROOT OF A POSITIVE
  EXTENDED REAL.

  On the extended reals multiplication does not distribute over addition in general (`⊤ + ⊥ = ⊥`), but it does when the
  factor is a nonnegative REAL number, whatever the terms are: `(a + b) * c = a * c + b * c` (`add_mul_of_nonneg`), hence
  over any finite sum (`sum_mul_of_nonneg`, and `zero_add_sum_mul_of_nonneg` for a sum accumulated from `0`). No term
  is asked to be finite. The ideal reciprocal square root of a positive extended real is such a factor: it is a
  nonnegative real number (`rsqrt_of_pos`: `⊤ ↦ 0`, a positive real `r ↦ (√r)⁻¹`).
-/
import Idealize.ShloMosaic.PureOps.Ideal
import Mathlib.Data.EReal.Operations

open scoped BigOperators

namespace Cert.Lib.NonnegScale

open Idealize.ShloMosaic

/-- Multiplication on the right by a nonnegative real distributes over a sum of two extended reals. -/
theorem add_mul_of_nonneg (a b : EReal) {c : ℝ} (hc : 0 ≤ c) :
    (a + b) * (c : EReal) = a * (c : EReal) + b * (c : EReal) :=
  EReal.right_distrib_of_nonneg_of_ne_top (EReal.coe_nonneg.2 hc) (EReal.coe_ne_top c) a b

/-- Multiplication on the right by a nonnegative real distributes over a finite sum of extended reals. -/
theorem sum_mul_of_nonneg {ι : Type*} (s : Finset ι) (f : ι → EReal) {c : ℝ} (hc : 0 ≤ c) :
    (∑ j ∈ s, f j) * (c : EReal) = ∑ j ∈ s, f j * (c : EReal) := by
  classical
  induction s using Finset.induction_on with
  | empty => simp
  | insert a s ha ih => rw [Finset.sum_insert ha, Finset.sum_insert ha, add_mul_of_nonneg _ _ hc, ih]

/-- The same for a sum accumulated from `0`. -/
theorem zero_add_sum_mul_of_nonneg {ι : Type*} (s : Finset ι) (f : ι → EReal) {c : ℝ} (hc : 0 ≤ c) :
    (0 + ∑ j ∈ s, f j) * (c : EReal) = 0 + ∑ j ∈ s, f j * (c : EReal) := by
  rw [zero_add, zero_add, sum_mul_of_nonneg s f hc]

/-- The ideal reciprocal square root of a positive extended real is a nonnegative real number. -/
theorem rsqrt_of_pos {x : EReal} (hx : 0 < x) : ∃ r : ℝ, 0 ≤ r ∧ Ideal.rsqrt x = (r : EReal) := by
  induction x using EReal.rec with
  | bot => exact absurd hx (not_lt_bot)
  | top => exact ⟨0, le_refl 0, rfl⟩
  | coe r =>
    have hr : 0 < r := EReal.coe_pos.1 hx
    refine ⟨(Real.sqrt r)⁻¹, inv_nonneg.2 (Real.sqrt_nonneg r), ?_⟩
    show (if r < 0 then (⊥ : EReal) else if r = 0 then ⊤ else ((Real.sqrt r)⁻¹ : ℝ)) = _
    rw [if_neg (not_lt.2 hr.le), if_neg hr.ne']

end Cert.Lib.NonnegScale
-- ==== Proof.AggLaw.lean ====
/-
  THE AGGREGATION LAW.

  Message passing with the symmetric degree normalisation can scale per node or per edge.  Write d(k) for the in-degree
  of node k (the number of edges whose destination word reads k) and a(k) = 1 / sqrt (d(k) + 1) for its scale.

  * Per node: the table is scaled row by row, x(k, c) = h(k, c) · a(k); every edge e carries the row of x at its source
    s(e) to the node its destination word names; the sum that arrives at node n is scaled by a(n):
        ( Σ_{e lands at n} h(s(e), c) · a(s(e)) ) · a(n).
  * Per edge: every edge carries the row of h at its source, scaled by 1 / sqrt ((d(t(e)) + 1) · (d(s(e)) + 1)), t(e)
    the node the destination word is looked up at:
        Σ_{e lands at n} h(s(e), c) · 1 / sqrt ((d(t(e)) + 1) · (d(s(e)) + 1)).

  They agree entry by entry on the extended reals, whatever the entries of h are (infinite ones included):
  - a degree is a finite count, so it is a nonnegative REAL number; d + 1 ≥ 1, the scales are nonnegative reals, and
    multiplication by a nonnegative real distributes over a sum of arbitrary extended reals;
  - an edge that lands at n has a destination word that reads the natural n < N: it is not negative, so the wrap of
    negative words leaves it alone, and the clamp into [0, N − 1] leaves it alone: t(e) = n;
  - for reals x, y ≥ 1, (1 / sqrt y) · (1 / sqrt x) = 1 / sqrt (x · y); multiplication of extended reals is
    associative, so (h · a(s)) · a(n) = h · (a(s) · a(n)).
  No entry of h is asked to be finite.
-/
import Idealize.ShloMosaic.Lib.Pipeline.Value
import Idealize.ShloMosaic.Lib.ValueLayout
import Idealize.ShloMosaic.Lib.IdealHost
import proofs.«141197_j52450140618855_2_alg».proof.Proof.Spec
import proofs.«141197_j52450140618855_2_alg».proof.Proof.LibScatterAddRead
import proofs.«141197_j52450140618855_2_alg».proof.Proof.LibRowLanding
import proofs.«141197_j52450140618855_2_alg».proof.Proof.LibEntryScatter
import proofs.«141197_j52450140618855_2_alg».proof.Proof.LibNonnegScale

noncomputable section

open scoped BigOperators

namespace Cert.Gnn.AggLaw

open Idealize.ShloMosaic Idealize.ShloMosaic.ValueIdx Cert.Lib.EdgeRows Cert.Lib.EntryScatter Cert.Lib.RowLanding
  Cert.Lib.NonnegScale Cert.Lib.ScatterAddRead

/-! ## Counts and scales as real numbers -/

/-- A finite count — a sum of ones and zeros — on the extended reals is a nonnegative real number. -/
theorem count_is_real {ι : Type*} (s : Finset ι) (p : ι → Prop) [DecidablePred p] :
    ∃ r : ℝ, 0 ≤ r ∧ (∑ e ∈ s, if p e then (1 : EReal) else 0) = (r : EReal) := by
  classical
  induction s using Finset.induction_on with
  | empty => exact ⟨0, le_refl 0, by simp⟩
  | insert a s ha ih =>
    obtain ⟨r, hr, e⟩ := ih
    rw [Finset.sum_insert ha, e]
    by_cases h : p a
    · refine ⟨1 + r, by linarith, ?_⟩
      rw [if_pos h, EReal.coe_add, EReal.coe_one]
    · refine ⟨r, hr, ?_⟩
      rw [if_neg h, zero_add]

/-- The scale of a node of degree r ≥ 0 is the real number 1 / sqrt (r + 1). -/
theorem scale_coe {r : ℝ} (hr : 0 ≤ r) :
    Ideal.div 1 (Ideal.sqrt ((r : EReal) + 1)) = ((1 / Real.sqrt (r + 1) : ℝ) : EReal) := by
  have hpos : 0 < r + 1 := by linarith
  have hs : Real.sqrt (r + 1) ≠ 0 := (Real.sqrt_pos.2 hpos).ne'
  rw [show ((r : EReal) + 1) = ((r + 1 : ℝ) : EReal) by rw [EReal.coe_add, EReal.coe_one]]
  rw [Ideal.sqrt_coe, if_neg (not_lt.2 hpos.le), Ideal.div_coe hs, one_mul]

/-- The scale of an edge between nodes of degrees x, y ≥ 0 is the real number 1 / sqrt ((x + 1) · (y + 1)). -/
theorem edgeScale_coe {x y : ℝ} (hx : 0 ≤ x) (hy : 0 ≤ y) :
    Ideal.div 1 (Ideal.sqrt (((x : EReal) + 1) * ((y : EReal) + 1)))
      = ((1 / Real.sqrt ((x + 1) * (y + 1)) : ℝ) : EReal) := by
  have hp : 0 < (x + 1) * (y + 1) := mul_pos (by linarith) (by linarith)
  have hs : Real.sqrt ((x + 1) * (y + 1)) ≠ 0 := (Real.sqrt_pos.2 hp).ne'
  rw [show ((x : EReal) + 1) * ((y : EReal) + 1) = (((x + 1) * (y + 1) : ℝ) : EReal) by
    rw [EReal.coe_mul, EReal.coe_add, EReal.coe_add, EReal.coe_one]]
  rw [Ideal.sqrt_coe, if_neg (not_lt.2 hp.le), Ideal.div_coe hs, one_mul]

/-- The product of two node scales is the edge scale. -/
theorem scale_mul_scale {x y : ℝ} (hx : 0 ≤ x) (hy : 0 ≤ y) :
    (1 / Real.sqrt (y + 1)) * (1 / Real.sqrt (x + 1)) = 1 / Real.sqrt ((x + 1) * (y + 1)) := by
  rw [Real.sqrt_mul (by linarith : 0 ≤ x + 1)]
  ring

/-! ## The arrays of the specification read at an index -/

section Reads

variable {N E C : ℕ} (w : Wit N E C)

/-- The host's square root at an index is the ideal square root of the entry. -/
theorem hostSqrt_apply {s : Shape} {φ : FTy} (a : FVec Ideal s φ) (i : s.Idx) : Host.sqrt a i = Ideal.sqrt (a i) := rfl

/-- The array of ones reads 1 everywhere. -/
theorem ones_apply (s : Shape) (hb : (⟨0, ![]⟩ : Shape).BroadcastsInDim s ![]) (j : s.Idx) : ones s hb j = 1 := by
  unfold ones
  rw [splat_apply, constant_apply, Ideal.ofBits_one_f32]

/-- The array of zeros reads 0 everywhere. -/
theorem zeros_apply (s : Shape) (hb : (⟨0, ![]⟩ : Shape).BroadcastsInDim s ![]) (j : s.Idx) : zeros s hb j = 0 := by
  unfold zeros
  rw [splat_apply, constant_apply, Ideal.ofBits_zero_f32]

/-- A vector stood up as a column reads its entry e at row e. -/
theorem colOf_apply {α : Type} (v : (⟨1, ![E]⟩ : Shape).Idx → α) (e : Fin E) (z : Fin 1) :
    colOf w v (ix2 e z) = v (ix1 e) :=
  column_apply w.col v e z

/-- The wrap leaves a word that is not negative as it is. -/
theorem wrap_apply (m : BitVec 32) (a : IVec ⟨1, ![E]⟩ 32) (e : Fin E) (h : 0 ≤ (a (ix1 e)).toInt) :
    wrap w m a (ix1 e) = a (ix1 e) := by
  unfold wrap
  exact wrap_apply_of_nonneg (s0 := ⟨0, ![]⟩) ![] w.zE m a (ix1 e) h

/-- An index word read signed and clamped into [0, N − 1]: the row a gather reads. -/
def rowOf {N : ℕ} (hN : 0 < N) (x : BitVec 32) : Fin N := ⟨min x.toInt.toNat (N - 1), by omega⟩

/-- A word that reads the node n, wrapped and clamped, is n. -/
theorem rowOf_wrap_of_lands (hN : 0 < N) (m : BitVec 32) (a : IVec ⟨1, ![E]⟩ 32) (e : Fin E) (n : Fin N)
    (hl : (a (ix1 e)).toInt = (n.val : Int)) : rowOf hN (wrap w m a (ix1 e)) = n := by
  rw [wrap_apply w m a e (by rw [hl]; exact Int.natCast_nonneg _)]
  exact Fin.ext (clamp_of_toInt_eq _ n.val n.isLt hl)

/-- The in-degree of node k: the count of the edges whose destination word reads k. -/
theorem deg_apply (dst : IVec ⟨1, ![E]⟩ 32) (k : Fin N) :
    deg w dst (ix1 k) = 0 + ∑ e : Fin E, if (dst (ix1 e)).toInt = (k.val : Int) then (1 : EReal) else 0 := by
  unfold deg
  rw [entryScatterAdd_at, zeros_apply]
  congr 1
  refine Finset.sum_congr rfl fun e _ => ?_
  rw [colOf_apply, ones_apply]

/-- A degree is a nonnegative real number. -/
theorem deg_is_real (dst : IVec ⟨1, ![E]⟩ 32) (k : Fin N) : ∃ r : ℝ, 0 ≤ r ∧ deg w dst (ix1 k) = (r : EReal) := by
  obtain ⟨r, hr, e⟩ := count_is_real (Finset.univ : Finset (Fin E)) (fun e => (dst (ix1 e)).toInt = (k.val : Int))
  exact ⟨r, hr, by rw [deg_apply, e, zero_add]⟩

/-- The node scale at node k. -/
theorem norm_apply (dst : IVec ⟨1, ![E]⟩ 32) (k : Fin N) :
    norm w dst (ix1 k) = Ideal.div 1 (Ideal.sqrt (deg w dst (ix1 k) + 1)) := by
  unfold norm
  rw [hostDivf_apply, hostSqrt_apply, addf_apply, ones_apply]

/-- The node scales across the columns: at (k, q) the scale of node k. -/
theorem normAcross_apply (dst : IVec ⟨1, ![E]⟩ 32) (k : Fin N) (q : Fin C) :
    normAcross w dst (ix2 k q) = Ideal.div 1 (Ideal.sqrt (deg w dst (ix1 k) + 1)) := by
  unfold normAcross across normCol
  rw [column_across_apply, shapeCast_apply (norm w dst) w.stand (ix2 k (0 : Fin 1)) (ix1 k) (by
    rw [Shape.rowMajor_val_two, Shape.rowMajor_val_one]
    show k.val = k.val * 1 + 0
    omega), norm_apply]

/-- The gathered rows: edge e reads the table's row at its wrapped, clamped source word. -/
theorem gatherRows_apply (hN : 0 < N) (m : BitVec 32) (src : IVec ⟨1, ![E]⟩ 32) (x : FVec Ideal ⟨2, ![N, C]⟩ .f32)
    (e : Fin E) (q : Fin C) :
    gatherRows w m src x (ix2 e q) = x (ix2 (rowOf hN (wrap w m src (ix1 e))) q) := by
  unfold gatherRows rowOf
  rw [rowGather_apply hN]
  simp only [colOf_apply]

/-- The edge scales across the columns: at (e, q) the scale of edge e. -/
theorem edgeNormAcross_apply (hN : 0 < N) (m : BitVec 32) (src dst : IVec ⟨1, ![E]⟩ 32) (e : Fin E) (q : Fin C) :
    edgeNormAcross w m src dst (ix2 e q)
      = Ideal.div 1 (Ideal.sqrt ((deg w dst (ix1 (rowOf hN (wrap w m dst (ix1 e)))) + 1)
          * (deg w dst (ix1 (rowOf hN (wrap w m src (ix1 e)))) + 1))) := by
  unfold edgeNormAcross
  rw [column_across_apply, colOf_apply]
  unfold edgeNorm rowOf
  rw [hostDivf_apply, hostSqrt_apply, mulf_apply, addf_apply, addf_apply, ones_apply,
    entryGather_apply hN, entryGather_apply hN]
  simp only [colOf_apply]

/-- The sum into the nodes: node n receives, in column c, the entries (e, c) of the edges whose destination word reads n. -/
theorem sumInto_apply (dst : IVec ⟨1, ![E]⟩ 32) (u : FVec Ideal ⟨2, ![E, C]⟩ .f32) (n : Fin N) (c : Fin C) :
    sumInto w dst u (ix2 n c)
      = 0 + ∑ e : Fin E, if (dst (ix1 e)).toInt = (n.val : Int) then u (ix2 e c) else 0 := by
  unfold sumInto
  rw [scatterAdd_at, sum_landing, zeros_apply]
  congr 1
  refine Finset.sum_congr rfl fun e _ => ?_
  rw [colOf_apply]

end Reads

end Cert.Gnn.AggLaw

/-! ## The law -/

namespace Cert.Gnn

open Idealize.ShloMosaic Idealize.ShloMosaic.ValueIdx Cert.Lib.NonnegScale Cert.Gnn.AggLaw

/-- Scaling per node (before sending and after summing) and scaling per edge give the same aggregation. -/
theorem agg_node_eq_edge {N E C : ℕ} (hN : 0 < N) (w : Wit N E C) (m : BitVec 32) (src dst : IVec ⟨1, ![E]⟩ 32)
    (h : FVec Ideal ⟨2, ![N, C]⟩ .f32) :
    mulf (aggNodeRaw w m src dst h) (normAcross w dst) = aggEdge w m src dst h := by
  funext j
  obtain ⟨n, c, rfl⟩ : ∃ (n : Fin N) (c : Fin C), j = ix2 n c := ⟨j 0, j 1, eq_ix2 j⟩
  obtain ⟨rn, hrn, ern⟩ := deg_is_real w dst n
  unfold aggNodeRaw aggEdge
  rw [mulf_apply, sumInto_apply, sumInto_apply, normAcross_apply, ern, scale_coe hrn,
    zero_add_sum_mul_of_nonneg _ _ (by positivity)]
  congr 1
  refine Finset.sum_congr rfl fun e _ => ?_
  by_cases hl : (dst (ix1 e)).toInt = (n.val : Int)
  · obtain ⟨rs, hrs, ers⟩ := deg_is_real w dst (rowOf hN (wrap w m src (ix1 e)))
    rw [if_pos hl, if_pos hl, gatherRows_apply w hN, mulf_apply, normAcross_apply, mulf_apply, gatherRows_apply w hN,
      edgeNormAcross_apply w hN, rowOf_wrap_of_lands w hN m dst e n hl, ern, ers, scale_coe hrs, edgeScale_coe hrn hrs,
      mul_assoc, ← EReal.coe_mul, scale_mul_scale hrn hrs]
  · rw [if_neg hl, if_neg hl, zero_mul]

end Cert.Gnn

end
-- ==== Proof.NetLaw.lean ====
/-
  The two networks are one function.

  A round of message passing normalised per node equals the round normalised per edge, by the aggregation law; the
  encoder and the output head are common, so the networks built from the rounds agree, whatever the arguments hold.
-/
import proofs.«141197_j52450140618855_2_alg».proof.Proof.Net
import proofs.«141197_j52450140618855_2_alg».proof.Proof.AggLaw

noncomputable section

namespace Cert.Gnn

open Idealize.ShloMosaic

/-- One round: per node = per edge. -/
theorem layerNode_eq_layerEdge (src dst : IVec ⟨1, ![160000]⟩ 32) (h : FVec Ideal ⟨2, ![20000, 512]⟩ .f32)
    (Ws Wn : FVec Ideal ⟨2, ![512, 512]⟩ .f32) (b : FVec Ideal ⟨1, ![512]⟩ .f32) :
    layerNode src dst h Ws Wn b = layerEdge src dst h Ws Wn b := by
  unfold layerNode layerEdge
  rw [agg_node_eq_edge (by norm_num) wit 20000#32 src dst h]

/-- The networks: per node = per edge. -/
theorem netNode_eq_netEdge (X : FVec Ideal ⟨2, ![20000, 512]⟩ .f32) (src dst : IVec ⟨1, ![160000]⟩ 32)
    (Wenc : FVec Ideal ⟨2, ![512, 512]⟩ .f32) (benc : FVec Ideal ⟨1, ![512]⟩ .f32)
    (Ws0 Wn0 : FVec Ideal ⟨2, ![512, 512]⟩ .f32) (b0 : FVec Ideal ⟨1, ![512]⟩ .f32)
    (Ws1 Wn1 : FVec Ideal ⟨2, ![512, 512]⟩ .f32) (b1 : FVec Ideal ⟨1, ![512]⟩ .f32)
    (Ws2 Wn2 : FVec Ideal ⟨2, ![512, 512]⟩ .f32) (b2 : FVec Ideal ⟨1, ![512]⟩ .f32)
    (Wout : FVec Ideal ⟨2, ![512, 256]⟩ .f32) (bout : FVec Ideal ⟨1, ![256]⟩ .f32) :
    netNode X src dst Wenc benc Ws0 Wn0 b0 Ws1 Wn1 b1 Ws2 Wn2 b2 Wout bout
      = netEdge X src dst Wenc benc Ws0 Wn0 b0 Ws1 Wn1 b1 Ws2 Wn2 b2 Wout bout := by
  unfold netNode netEdge
  simp only [layerNode_eq_layerEdge]

end Cert.Gnn

end
-- ==== Proof.lean ====
/-
  A graph network — an encoder, three rounds of message passing with the symmetric degree normalisation, an output
  head — computed by five tiled kernels among host gathers and segment sums, against its plain reference.

  The kernel program normalises per NODE: with a = 1 / sqrt (deg + 1) it scales the node table row by row before the
  rows are gathered along the edges, and scales the sums again where they arrive (inside the combine kernel).  The
  reference normalises per EDGE: every gathered row is multiplied by 1 / sqrt ((deg dst + 1) · (deg src + 1)).  On the
  extended reals the two agree entry by entry (module AggLaw): a degree is a finite count, so the scales are
  nonnegative real numbers, multiplication by such a number distributes over any sum of extended reals, an edge that
  is summed into node n has a destination word that reads n, and 1/sqrt x · 1/sqrt y = 1/sqrt (x · y) for reals ≥ 1.
  The dense steps are common: a row tile of a matrix product is the product of the row tile, and a change of float
  format is the identity on the extended reals (modules Region0 … Region4).  The kernel program's result buffer is read
  back through the program's boundaries (modules KernelRun, KernelChain), the reference's through its stages (module
  RefNet); both are the same network of the arguments (modules Net, NetLaw).  No finiteness of an input is used.
-/
import proofs.«141197_j52450140618855_2_alg».proof.Defs
import proofs.«141197_j52450140618855_2_alg».proof.Proof.Gen.Kernel
import proofs.«141197_j52450140618855_2_alg».proof.Proof.Gen.Kernel.Skeleton
import proofs.«141197_j52450140618855_2_alg».proof.Proof.Gen.Kernel.Launch
import proofs.«141197_j52450140618855_2_alg».proof.Proof.Gen.Kernel.Points
import proofs.«141197_j52450140618855_2_alg».proof.Proof.Gen.Kernel.Frame
import proofs.«141197_j52450140618855_2_alg».proof.Proof.Gen.KernelIdeal
import proofs.«141197_j52450140618855_2_alg».proof.Proof.Gen.KernelIdeal.Skeleton
import proofs.«141197_j52450140618855_2_alg».proof.Proof.Gen.KernelIdeal.Launch
import proofs.«141197_j52450140618855_2_alg».proof.Proof.Gen.KernelIdeal.Points
import proofs.«141197_j52450140618855_2_alg».proof.Proof.Gen.KernelIdeal.Frame
import proofs.«141197_j52450140618855_2_alg».proof.Proof.Gen.ReferenceIdeal
import proofs.«141197_j52450140618855_2_alg».proof.Proof.Gen.ReferenceIdeal.Run
import proofs.«141197_j52450140618855_2_alg».proof.Proof.Gen.ReferenceIdeal.Read
import proofs.«141197_j52450140618855_2_alg».proof.Proof.Gen.Pre_finite_inputs
import proofs.«141197_j52450140618855_2_alg».proof.Proof.KernelRun
import proofs.«141197_j52450140618855_2_alg».proof.Proof.KernelChain
import proofs.«141197_j52450140618855_2_alg».proof.Proof.RefNet
import proofs.«141197_j52450140618855_2_alg».proof.Proof.NetLaw
import Idealize.ShloMosaic.Adequacy
import Idealize.ShloMosaic.Init

noncomputable section

namespace Cert.Proof.Claims

open Idealize.ShloMosaic Idealize.SL.Sem

/-- The word-level program runs and keeps its arguments. -/
theorem frame_k : Cert.frame_Kernel := fun m ρ _ => Cert.Kernel.Gen.frame m ρ
/-- The idealized program runs and keeps its arguments. -/
theorem frame_ki : Cert.frame_KernelIdeal := fun m ρ _ => Cert.KernelIdeal.Gen.frame m ρ
/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result array: the kernel
    program's is the network normalised per node, the reference's the network normalised per edge, and the two
    networks are one function of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v68), Cert.KernelIdeal.Out.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  show Cert.ReferenceIdeal.Value.res_main_v113 m' c = Cert.KernelIdeal.Gen.W9 m ρ c (Proc.devRef .tc Cert.KernelIdeal.main_v68)
  rw [Cert.ReferenceIdeal.Read.val_main_v113_eq, Cert.ReferenceIdeal.Net.result, a0, a1, a2, a3, a4, a5, a6, a7, a8,
    Cert.KernelIdeal.Chain.W9_v68, Cert.Gnn.netNode_eq_netEdge]
  rfl

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
